-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v90)) (v1 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_v99) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000 : Shape := ⟨1, ![100000]⟩
abbrev S128 : Shape := ⟨1, ![128]⟩
abbrev S384x512 : Shape := ⟨2, ![384, 512]⟩
abbrev S384x128 : Shape := ⟨2, ![384, 128]⟩
abbrev S384 : Shape := ⟨1, ![384]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128 : S_.BroadcastsInDim S128 (![] : Fin 0 → Fin S128.rank)
  reducesTo_S128_S_d0 : S128.ReducesTo [0] S_
  bcast_S_S384x512 : S_.BroadcastsInDim S384x512 (![] : Fin 0 → Fin S384x512.rank)
  reducesTo_S384x512_S_d0_1 : S384x512.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part2 {F : FTy → Type} [FloatOps F] (main_arg11 : FVec F S384 .f32) (main_v33 : IVec S_ 1) : IVec S_ 1 :=
  let main_v34 : FVec F S384 .f32 := Host.absf main_arg11
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  main_v38

def fn_part1 {F : FTy → Type} [FloatOps F] (main_arg8 : FVec F S384x512 .f32) (main_arg9 : FVec F S384x128 .f32) (main_arg10 : FVec F S384 .f32) (main_arg11 : FVec F S384 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S384x512 .f32 := Host.absf main_arg8
  let main_cst_6 : FVec F S_ .f32 := constant S_ .f32 0x7F800000#32
  let main_v20 : FVec F S384x512 .f32 := broadcastInDim S384x512 ![] bcast_S_S384x512 main_cst_6
  let main_v21 : IVec S384x512 1 := cmpf .olt main_v19 main_v20
  let main_c_7 : IVec S_ 1 := constantI S_ 1 1#1
  let main_v22 : IVec S_ 1 := (fun x v => Host.reduce IntOp.andi x v reducesTo_S384x512_S_d0_1 h_S_) main_v21 main_c_7
  let main_v23 : IVec S_ 1 := andi main_v18 main_v22
  let main_v24 : FVec F S384x128 .f32 := Host.absf main_arg9
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S384 .f32 := Host.absf main_arg10
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg11 main_v33

def fn {F : FTy → Type} [FloatOps F] (main_arg0 : FVec F S100000x128 .f32) (main_arg1 : IVec S100000 32) (main_arg2 : IVec S100000 32) (main_arg3 : IVec S100000 32) (main_arg4 : IVec S100000 32) (main_arg5 : FVec F S100000x128 .f32) (main_arg6 : FVec F S128 .f32) (main_arg7 : FVec F S128 .f32) (main_arg8 : FVec F S384x512 .f32) (main_arg9 : FVec F S384x128 .f32) (main_arg10 : FVec F S384 .f32) (main_arg11 : FVec F S384 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg5
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128 .f32 := Host.absf main_arg6
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_arg11 main_v13 main_v16
-- ==== Kernel.lean ====
abbrev S100000x128 : Shape := ⟨2, ![100000, 128]⟩
abbrev S100000 : Shape := ⟨1, ![100000]⟩
abbrev S128 : Shape := ⟨1, ![128]⟩
abbrev S384x512 : Shape := ⟨2, ![384, 512]⟩
abbrev S384x128 : Shape := ⟨2, ![384, 128]⟩
abbrev S384 : Shape := ⟨1, ![384]⟩
abbrev S_ : Shape := ⟨0, ![]⟩
abbrev S100000x1 : Shape := ⟨2, ![100000, 1]⟩
abbrev S1x128 : Shape := ⟨2, ![1, 128]⟩
abbrev S100000x512 : Shape := ⟨2, ![100000, 512]⟩
abbrev S512x384 : Shape := ⟨2, ![512, 384]⟩
abbrev S128x384 : Shape := ⟨2, ![128, 384]⟩
abbrev S1x384 : Shape := ⟨2, ![1, 384]⟩
abbrev S2000x512 : Shape := ⟨2, ![2000, 512]⟩
abbrev S2000x128 : Shape := ⟨2, ![2000, 128]⟩
abbrev S2000x1 : Shape := ⟨2, ![2000, 1]⟩
abbrev S2000x384 : Shape := ⟨2, ![2000, 384]⟩

abbrev nBuf : Space → Nat
  | .hbm => 134
  | .vmem => 12
  | .smem => 0
  | _ => 0

abbrev hbmTy0_0 (i : Nat) : BufTy := match i % 128 with
  | 0 => ⟨S100000x128, .f32⟩
  | 1 => ⟨S100000, .i32⟩
  | 2 => ⟨S100000, .i32⟩
  | 3 => ⟨S100000, .i32⟩
  | 4 => ⟨S100000, .i32⟩
  | 5 => ⟨S100000x128, .f32⟩
  | 6 => ⟨S128, .f32⟩
  | 7 => ⟨S128, .f32⟩
  | 8 => ⟨S384x512, .f32⟩
  | 9 => ⟨S384x128, .f32⟩
  | 10 => ⟨S384, .f32⟩
  | 11 => ⟨S384, .f32⟩
  | 12 => ⟨S_, .i32⟩
  | 13 => ⟨S100000, .i32⟩
  | 14 => ⟨S100000, .i1⟩
  | 15 => ⟨S_, .i32⟩
  | 16 => ⟨S100000, .i32⟩
  | 17 => ⟨S100000, .i32⟩
  | 18 => ⟨S100000, .i32⟩
  | 19 => ⟨S100000x1, .i32⟩
  | 20 => ⟨S100000, .i32⟩
  | 21 => ⟨S100000, .i32⟩
  | 22 => ⟨S100000, .f32⟩
  | 23 => ⟨S100000x1, .f32⟩
  | 24 => ⟨S1x128, .f32⟩
  | 25 => ⟨S100000x128, .f32⟩
  | 26 => ⟨S100000x128, .f32⟩
  | 27 => ⟨S100000x128, .f32⟩
  | 28 => ⟨S1x128, .f32⟩
  | 29 => ⟨S100000x128, .f32⟩
  | 30 => ⟨S100000x128, .f32⟩
  | 31 => ⟨S100000x128, .f32⟩
  | 32 => ⟨S_, .i32⟩
  | 33 => ⟨S100000, .i32⟩
  | 34 => ⟨S100000, .i1⟩
  | 35 => ⟨S_, .i32⟩
  | 36 => ⟨S100000, .i32⟩
  | 37 => ⟨S100000, .i32⟩
  | 38 => ⟨S100000, .i32⟩
  | 39 => ⟨S100000x1, .i32⟩
  | 40 => ⟨S100000x128, .f32⟩
  | 41 => ⟨S_, .i32⟩
  | 42 => ⟨S100000, .i32⟩
  | 43 => ⟨S100000, .i1⟩
  | 44 => ⟨S_, .i32⟩
  | 45 => ⟨S100000, .i32⟩
  | 46 => ⟨S100000, .i32⟩
  | 47 => ⟨S100000, .i32⟩
  | 48 => ⟨S100000x1, .i32⟩
  | 49 => ⟨S100000x128, .f32⟩
  | 50 => ⟨S100000x512, .f32⟩
  | 51 => ⟨S_, .i32⟩
  | 52 => ⟨S100000, .i32⟩
  | 53 => ⟨S100000, .i1⟩
  | 54 => ⟨S_, .i32⟩
  | 55 => ⟨S100000, .i32⟩
  | 56 => ⟨S100000, .i32⟩
  | 57 => ⟨S100000, .i32⟩
  | 58 => ⟨S100000x1, .i32⟩
  | 59 => ⟨S100000, .i32⟩
  | 60 => ⟨S100000, .i32⟩
  | 61 => ⟨S100000, .f32⟩
  | 62 => ⟨S100000x1, .f32⟩
  | 63 => ⟨S1x128, .f32⟩
  | 64 => ⟨S100000x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S100000x128, .f32⟩
  | 71 => ⟨S_, .i32⟩
  | 72 => ⟨S100000, .i32⟩
  | 73 => ⟨S100000, .i1⟩
  | 74 => ⟨S_, .i32⟩
  | 75 => ⟨S100000, .i32⟩
  | 76 => ⟨S100000, .i32⟩
  | 77 => ⟨S100000, .i32⟩
  | 78 => ⟨S100000x1, .i32⟩
  | 79 => ⟨S100000x128, .f32⟩
  | 80 => ⟨S_, .i32⟩
  | 81 => ⟨S100000, .i32⟩
  | 82 => ⟨S100000, .i1⟩
  | 83 => ⟨S_, .i32⟩
  | 84 => ⟨S100000, .i32⟩
  | 85 => ⟨S100000, .i32⟩
  | 86 => ⟨S100000, .i32⟩
  | 87 => ⟨S100000x1, .i32⟩
  | 88 => ⟨S100000x128, .f32⟩
  | 89 => ⟨S100000x512, .f32⟩
  | 90 => ⟨S_, .f32⟩
  | 91 => ⟨S100000x512, .f32⟩
  | 92 => ⟨S100000x1, .i32⟩
  | 93 => ⟨S100000x512, .f32⟩
  | 94 => ⟨S_, .f32⟩
  | 95 => ⟨S100000x512, .f32⟩
  | 96 => ⟨S100000x1, .i32⟩
  | 97 => ⟨S100000x512, .f32⟩
  | 98 => ⟨S100000x512, .f32⟩
  | 99 => ⟨S_, .f32⟩
  | 100 => ⟨S100000, .f32⟩
  | 101 => ⟨S_, .f32⟩
  | 102 => ⟨S100000, .f32⟩
  | 103 => ⟨S100000x1, .i32⟩
  | 104 => ⟨S100000, .f32⟩
  | 105 => ⟨S_, .f32⟩
  | 106 => ⟨S100000, .f32⟩
  | 107 => ⟨S100000x1, .i32⟩
  | 108 => ⟨S100000, .f32⟩
  | 109 => ⟨S100000, .f32⟩
  | 110 => ⟨S_, .f32⟩
  | 111 => ⟨S100000, .f32⟩
  | 112 => ⟨S100000, .f32⟩
  | 113 => ⟨S_, .f32⟩
  | 114 => ⟨S100000, .f32⟩
  | 115 => ⟨S100000, .f32⟩
  | 116 => ⟨S100000x1, .f32⟩
  | 117 => ⟨S512x384, .f32⟩
  | 118 => ⟨S128x384, .f32⟩
  | 119 => ⟨S1x384, .f32⟩
  | 120 => ⟨S1x384, .f32⟩
  | 121 => ⟨S100000x128, .f32⟩
  | 122 => ⟨S_, .i32⟩
  | 123 => ⟨S100000, .i32⟩
  | 124 => ⟨S100000x1, .i32⟩
  | 125 => ⟨S100000, .i32⟩
  | 126 => ⟨S_, .i32⟩
  | 127 => ⟨S100000, .i32⟩
  | _ => ⟨S100000x128, .f32⟩

abbrev hbmTy0_1 (i : Nat) : BufTy := match i % 128 with
  | 0 => ⟨S100000x1, .i32⟩
  | 1 => ⟨S100000, .i32⟩
  | 2 => ⟨S100000, .i32⟩
  | 3 => ⟨S_, .i32⟩
  | 4 => ⟨S100000, .i32⟩
  | 5 => ⟨S100000, .i32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S512x384, .f32⟩
  | .local _ .vmem, ⟨7, _⟩ => ⟨S128x384, .f32⟩
  | .local _ .vmem, ⟨8, _⟩ => ⟨S1x384, .f32⟩
  | .local _ .vmem, ⟨9, _⟩ => ⟨S1x384, .f32⟩
  | .local _ .vmem, ⟨10, _⟩ => ⟨S2000x128, .f32⟩
  | .local _ .vmem, ⟨11, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_1 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_7 : Ref sig .tc := ⟨.hbm, 71, rfl⟩
abbrev main_v51 : Ref sig .tc := ⟨.hbm, 72, rfl⟩
abbrev main_v52 : Ref sig .tc := ⟨.hbm, 73, rfl⟩
abbrev main_c_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_9 : Ref sig .tc := ⟨.hbm, 80, rfl⟩
abbrev main_v58 : Ref sig .tc := ⟨.hbm, 81, rfl⟩
abbrev main_v59 : Ref sig .tc := ⟨.hbm, 82, rfl⟩
abbrev main_c_10 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_11 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_12 : Ref sig .tc := ⟨.hbm, 99, rfl⟩
abbrev main_v73 : Ref sig .tc := ⟨.hbm, 100, rfl⟩
abbrev main_cst_13 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_14 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_15 : Ref sig .tc := ⟨.hbm, 110, rfl⟩
abbrev main_v81 : Ref sig .tc := ⟨.hbm, 111, rfl⟩
abbrev main_v82 : Ref sig .tc := ⟨.hbm, 112, rfl⟩
abbrev main_cst_16 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c_17 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_c_18 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_c_19 : Ref sig .tc := ⟨.hbm, 131, rfl⟩
abbrev main_v98 : Ref sig .tc := ⟨.hbm, 132, rfl⟩
abbrev main_v99 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  concatenates_S100000x128_S100000x128_S100000x128_S100000x128_S100000x512_d1 : Shape.Concatenates [S100000x128, S100000x128, S100000x128, S100000x128] S100000x512 1
  bcast_S_S100000x512 : S_.BroadcastsInDim S100000x512 (![] : Fin 0 → Fin S100000x512.rank)
  shapeCasts_S100000_S100000x1 : S100000.ShapeCasts S100000x1
  transposes_S384x512_S512x384_1_0 : S384x512.Transposes [1, 0] S512x384
  transposes_S384x128_S128x384_1_0 : S384x128.Transposes [1, 0] S128x384
  shapeCasts_S384_S1x384 : S384.ShapeCasts S1x384
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x512 : S2000x1.Broadcasts S2000x512
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S512x384_S512x384_0_0 : ∀ a, (![0, 0] : Fin 2 → Nat) a + S512x384.size a ≤ S512x384.size a
  h_S512x384 : 0 < S512x384.numel
  shapeCasts_S512x384_S512x384 : S512x384.ShapeCasts S512x384
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  gather_S100000_S100000x1_S100000_n_0_n_n_0_1_1_wf : GatherDims.WF S100000 S100000x1 S100000 [] [0] [] [0] [] 1 ![1]
  gather_S100000x128_S100000x1_S100000x128_1_0_n_n_0_1_1128_wf : GatherDims.WF S100000x128 S100000x1 S100000x128 [1] [0] [] [0] [] 1 ![1, 128]
  scatter_S100000x512_S100000x1_S100000x512_1_0_0_1_wf : ScatterDims.WF S100000x512 S100000x1 S100000x512 [1] [0] [0] 1
  scatter_S100000_S100000x1_S100000_n_0_0_1_wf : ScatterDims.WF S100000 S100000x1 S100000 [] [0] [0] 1
  dot_S2000x512_S512x384_S2000x384_1_0_0_1_n_n_wf : DotDims.WF S2000x512 S512x384 S2000x384 [1] [0] [0] [1] [] []
  dot_S2000x128_S128x384_S2000x384_1_0_0_1_n_n_wf : DotDims.WF S2000x128 S128x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x384.size a ≤ S512x384.size a
  hwx0_3 : ∀ i : grid0.Coords, EltTy.bits .f32 = 32 ∨ (Rect.block (s := S512x384) S512x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x384.size a ≤ S128x384.size a
  hwx0_4 : ∀ i : grid0.Coords, EltTy.bits .f32 = 32 ∨ (Rect.block (s := S128x384) S128x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x384.size a
  hwx0_5 : ∀ i : grid0.Coords, EltTy.bits .f32 = 32 ∨ (Rect.block (s := S1x384) S1x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x384.size a ≤ S1x384.size a
  hwx0_6 : ∀ i : grid0.Coords, EltTy.bits .f32 = 32 ∨ (Rect.block (s := S1x384) S1x384.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S100000x128.size a
  hwx0_7 : ∀ i : grid0.Coords, EltTy.bits .f32 = 32 ∨ (Rect.block (s := S100000x128) S2000x128.size (cc0_transform_7 i) (hinb0_7 i)).WholeWords (EltTy.packing .f32)

variable [Facts₀]

def gather_S100000_S100000x1_S100000_n_0_n_n_0_1_1 : GatherDims S100000 S100000x1 S100000 where
  offsetDims := []
  collapsedSliceDims := [0]
  operandBatchingDims := []
  startIndicesBatchingDims := []
  startIndexMap := [0]
  indexVectorDim := 1
  sliceSizes := ![1]
  wf := gather_S100000_S100000x1_S100000_n_0_n_n_0_1_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S100000x512_S100000x1_S100000x512_1_0_0_1 : ScatterDims S100000x512 S100000x1 S100000x512 where
  updateWindowDims := [1]
  insertedWindowDims := [0]
  scatterDimsToOperandDims := [0]
  indexVectorDim := 1
  wf := scatter_S100000x512_S100000x1_S100000x512_1_0_0_1_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def dot_S2000x512_S512x384_S2000x384_1_0_0_1_n_n : DotDims S2000x512 S512x384 S2000x384 where
  lhsContracting := [1]
  rhsContracting := [0]
  lhsNonContracting := [0]
  rhsNonContracting := [1]
  lhsBatch := []
  rhsBatch := []
  wf := dot_S2000x512_S512x384_S2000x384_1_0_0_1_n_n_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf

abbrev win0_0 : Pipeline.Window sig grid0 :=
  Pipeline.Window.ofSpec (Memref.whole main_v72) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v85) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v86) S512x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v87) S128x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v88) S1x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v89) S1x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v90) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S100000 : Shape := ⟨1, ![100000]⟩
abbrev S128 : Shape := ⟨1, ![128]⟩
abbrev S384x512 : Shape := ⟨2, ![384, 512]⟩
abbrev S384x128 : Shape := ⟨2, ![384, 128]⟩
abbrev S384 : Shape := ⟨1, ![384]⟩
abbrev S_ : Shape := ⟨0, ![]⟩
abbrev S100000x1 : Shape := ⟨2, ![100000, 1]⟩
abbrev S1x128 : Shape := ⟨2, ![1, 128]⟩
abbrev S100000x512 : Shape := ⟨2, ![100000, 512]⟩
abbrev S200000 : Shape := ⟨1, ![200000]⟩
abbrev S200000x512 : Shape := ⟨2, ![200000, 512]⟩
abbrev S200000x1 : Shape := ⟨2, ![200000, 1]⟩
abbrev S512x384 : Shape := ⟨2, ![512, 384]⟩
abbrev S100000x384 : Shape := ⟨2, ![100000, 384]⟩
abbrev S1x384 : Shape := ⟨2, ![1, 384]⟩
abbrev S128x384 : Shape := ⟨2, ![128, 384]⟩

abbrev nBuf : Space → Nat
  | .hbm => 159
  | .vmem => 0
  | .smem => 0
  | _ => 0

abbrev hbmTy0_0 (i : Nat) : BufTy := match i % 128 with
  | 0 => ⟨S100000x128, .f32⟩
  | 1 => ⟨S100000, .i32⟩
  | 2 => ⟨S100000, .i32⟩
  | 3 => ⟨S100000, .i32⟩
  | 4 => ⟨S100000, .i32⟩
  | 5 => ⟨S100000x128, .f32⟩
  | 6 => ⟨S128, .f32⟩
  | 7 => ⟨S128, .f32⟩
  | 8 => ⟨S384x512, .f32⟩
  | 9 => ⟨S384x128, .f32⟩
  | 10 => ⟨S384, .f32⟩
  | 11 => ⟨S384, .f32⟩
  | 12 => ⟨S_, .i32⟩
  | 13 => ⟨S100000, .i32⟩
  | 14 => ⟨S100000, .i1⟩
  | 15 => ⟨S_, .i32⟩
  | 16 => ⟨S100000, .i32⟩
  | 17 => ⟨S100000, .i32⟩
  | 18 => ⟨S100000, .i32⟩
  | 19 => ⟨S100000x1, .i32⟩
  | 20 => ⟨S100000, .i32⟩
  | 21 => ⟨S100000, .i32⟩
  | 22 => ⟨S100000, .f32⟩
  | 23 => ⟨S100000x1, .f32⟩
  | 24 => ⟨S1x128, .f32⟩
  | 25 => ⟨S100000x128, .f32⟩
  | 26 => ⟨S100000x128, .f32⟩
  | 27 => ⟨S100000x128, .f32⟩
  | 28 => ⟨S1x128, .f32⟩
  | 29 => ⟨S100000x128, .f32⟩
  | 30 => ⟨S100000x128, .f32⟩
  | 31 => ⟨S100000x128, .f32⟩
  | 32 => ⟨S_, .i32⟩
  | 33 => ⟨S100000, .i32⟩
  | 34 => ⟨S100000, .i1⟩
  | 35 => ⟨S_, .i32⟩
  | 36 => ⟨S100000, .i32⟩
  | 37 => ⟨S100000, .i32⟩
  | 38 => ⟨S100000, .i32⟩
  | 39 => ⟨S100000x1, .i32⟩
  | 40 => ⟨S100000x128, .f32⟩
  | 41 => ⟨S_, .i32⟩
  | 42 => ⟨S100000, .i32⟩
  | 43 => ⟨S100000, .i1⟩
  | 44 => ⟨S_, .i32⟩
  | 45 => ⟨S100000, .i32⟩
  | 46 => ⟨S100000, .i32⟩
  | 47 => ⟨S100000, .i32⟩
  | 48 => ⟨S100000x1, .i32⟩
  | 49 => ⟨S100000x128, .f32⟩
  | 50 => ⟨S100000x512, .f32⟩
  | 51 => ⟨S_, .i32⟩
  | 52 => ⟨S100000, .i32⟩
  | 53 => ⟨S100000, .i1⟩
  | 54 => ⟨S_, .i32⟩
  | 55 => ⟨S100000, .i32⟩
  | 56 => ⟨S100000, .i32⟩
  | 57 => ⟨S100000, .i32⟩
  | 58 => ⟨S100000x1, .i32⟩
  | 59 => ⟨S100000, .i32⟩
  | 60 => ⟨S100000, .i32⟩
  | 61 => ⟨S100000, .f32⟩
  | 62 => ⟨S100000x1, .f32⟩
  | 63 => ⟨S1x128, .f32⟩
  | 64 => ⟨S100000x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S100000x128, .f32⟩
  | 71 => ⟨S_, .i32⟩
  | 72 => ⟨S100000, .i32⟩
  | 73 => ⟨S100000, .i1⟩
  | 74 => ⟨S_, .i32⟩
  | 75 => ⟨S100000, .i32⟩
  | 76 => ⟨S100000, .i32⟩
  | 77 => ⟨S100000, .i32⟩
  | 78 => ⟨S100000x1, .i32⟩
  | 79 => ⟨S100000x128, .f32⟩
  | 80 => ⟨S_, .i32⟩
  | 81 => ⟨S100000, .i32⟩
  | 82 => ⟨S100000, .i1⟩
  | 83 => ⟨S_, .i32⟩
  | 84 => ⟨S100000, .i32⟩
  | 85 => ⟨S100000, .i32⟩
  | 86 => ⟨S100000, .i32⟩
  | 87 => ⟨S100000x1, .i32⟩
  | 88 => ⟨S100000x128, .f32⟩
  | 89 => ⟨S100000x512, .f32⟩
  | 90 => ⟨S200000, .i32⟩
  | 91 => ⟨S200000x512, .f32⟩
  | 92 => ⟨S200000, .i32⟩
  | 93 => ⟨S_, .f32⟩
  | 94 => ⟨S100000x512, .f32⟩
  | 95 => ⟨S200000x1, .i32⟩
  | 96 => ⟨S100000x512, .f32⟩
  | 97 => ⟨S_, .f32⟩
  | 98 => ⟨S200000, .f32⟩
  | 99 => ⟨S_, .f32⟩
  | 100 => ⟨S100000, .f32⟩
  | 101 => ⟨S200000x1, .i32⟩
  | 102 => ⟨S100000, .f32⟩
  | 103 => ⟨S_, .f32⟩
  | 104 => ⟨S100000, .f32⟩
  | 105 => ⟨S100000, .f32⟩
  | 106 => ⟨S100000x1, .f32⟩
  | 107 => ⟨S100000x512, .f32⟩
  | 108 => ⟨S100000x512, .f32⟩
  | 109 => ⟨S512x384, .f32⟩
  | 110 => ⟨S100000x384, .f32⟩
  | 111 => ⟨S1x384, .f32⟩
  | 112 => ⟨S100000x384, .f32⟩
  | 113 => ⟨S100000x384, .f32⟩
  | 114 => ⟨S128x384, .f32⟩
  | 115 => ⟨S100000x384, .f32⟩
  | 116 => ⟨S1x384, .f32⟩
  | 117 => ⟨S100000x384, .f32⟩
  | 118 => ⟨S100000x384, .f32⟩
  | 119 => ⟨S100000x128, .f32⟩
  | 120 => ⟨S100000x128, .f32⟩
  | 121 => ⟨S100000x128, .f32⟩
  | 122 => ⟨S100000x128, .f32⟩
  | 123 => ⟨S100000x128, .f32⟩
  | 124 => ⟨S100000x128, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S100000x128, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S_, .f32⟩
  | 13 => ⟨S100000x128, .f32⟩
  | 14 => ⟨S100000x128, .f32⟩
  | 15 => ⟨S100000x128, .f32⟩
  | 16 => ⟨S100000x128, .f32⟩
  | 17 => ⟨S100000x128, .f32⟩
  | 18 => ⟨S_, .f32⟩
  | 19 => ⟨S100000x128, .f32⟩
  | 20 => ⟨S100000x128, .f32⟩
  | 21 => ⟨S100000x128, .f32⟩
  | 22 => ⟨S100000x128, .f32⟩
  | 23 => ⟨S100000x128, .f32⟩
  | 24 => ⟨S_, .i32⟩
  | 25 => ⟨S100000, .i32⟩
  | 26 => ⟨S200000x1, .i32⟩
  | 27 => ⟨S100000, .i32⟩
  | 28 => ⟨S_, .i32⟩
  | 29 => ⟨S100000, .i32⟩
  | 30 => ⟨S100000, .i32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_1 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_7 : Ref sig .tc := ⟨.hbm, 71, rfl⟩
abbrev main_v51 : Ref sig .tc := ⟨.hbm, 72, rfl⟩
abbrev main_v52 : Ref sig .tc := ⟨.hbm, 73, rfl⟩
abbrev main_c_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_9 : Ref sig .tc := ⟨.hbm, 80, rfl⟩
abbrev main_v58 : Ref sig .tc := ⟨.hbm, 81, rfl⟩
abbrev main_v59 : Ref sig .tc := ⟨.hbm, 82, rfl⟩
abbrev main_c_10 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_11 : Ref sig .tc := ⟨.hbm, 97, rfl⟩
abbrev main_v72 : Ref sig .tc := ⟨.hbm, 98, rfl⟩
abbrev main_cst_12 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_13 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_14 : Ref sig .tc := ⟨.hbm, 128, rfl⟩
abbrev main_v100 : Ref sig .tc := ⟨.hbm, 129, rfl⟩
abbrev main_v101 : Ref sig .tc := ⟨.hbm, 130, rfl⟩
abbrev main_cst_15 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_16 : Ref sig .tc := ⟨.hbm, 137, rfl⟩
abbrev main_v107 : Ref sig .tc := ⟨.hbm, 138, rfl⟩
abbrev main_v108 : Ref sig .tc := ⟨.hbm, 139, rfl⟩
abbrev main_cst_17 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_cst_18 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_c_19 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_c_20 : Ref sig .tc := ⟨.hbm, 156, rfl⟩
abbrev main_v122 : Ref sig .tc := ⟨.hbm, 157, rfl⟩
abbrev main_v123 : Ref sig .tc := ⟨.hbm, 158, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  concatenates_S100000x128_S100000x128_S100000x128_S100000x128_S100000x512_d1 : Shape.Concatenates [S100000x128, S100000x128, S100000x128, S100000x128] S100000x512 1
  concatenates_S100000_S100000_S200000_d0 : Shape.Concatenates [S100000, S100000] S200000 0
  concatenates_S100000x512_S100000x512_S200000x512_d0 : Shape.Concatenates [S100000x512, S100000x512] S200000x512 0
  bcast_S_S100000x512 : S_.BroadcastsInDim S100000x512 (![] : Fin 0 → Fin S100000x512.rank)
  bcast_S200000_S200000x1_0 : S200000.BroadcastsInDim S200000x1 (![0] : Fin 1 → Fin S200000x1.rank)
  bcast_S_S200000 : S_.BroadcastsInDim S200000 (![] : Fin 0 → Fin S200000.rank)
  bcast_S100000x1_S100000x512_0_1 : S100000x1.BroadcastsInDim S100000x512 (![0, 1] : Fin 2 → Fin S100000x512.rank)
  transposes_S384x512_S512x384_1_0 : S384x512.Transposes [1, 0] S512x384
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  transposes_S384x128_S128x384_1_0 : S384x128.Transposes [1, 0] S128x384
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  bcast_S_S100000x128 : S_.BroadcastsInDim S100000x128 (![] : Fin 0 → Fin S100000x128.rank)
  gather_S100000_S100000x1_S100000_n_0_n_n_0_1_1_wf : GatherDims.WF S100000 S100000x1 S100000 [] [0] [] [0] [] 1 ![1]
  gather_S100000x128_S100000x1_S100000x128_1_0_n_n_0_1_1128_wf : GatherDims.WF S100000x128 S100000x1 S100000x128 [1] [0] [] [0] [] 1 ![1, 128]
  scatter_S100000x512_S200000x1_S200000x512_1_0_0_1_wf : ScatterDims.WF S100000x512 S200000x1 S200000x512 [1] [0] [0] 1
  scatter_S100000_S200000x1_S200000_n_0_0_1_wf : ScatterDims.WF S100000 S200000x1 S200000 [] [0] [0] 1
  dot_S100000x512_S512x384_S100000x384_1_0_0_1_n_n_wf : DotDims.WF S100000x512 S512x384 S100000x384 [1] [0] [0] [1] [] []
  dot_S100000x128_S128x384_S100000x384_1_0_0_1_n_n_wf : DotDims.WF S100000x128 S128x384 S100000x384 [1] [0] [0] [1] [] []

variable [Facts₀]

def gather_S100000_S100000x1_S100000_n_0_n_n_0_1_1 : GatherDims S100000 S100000x1 S100000 where
  offsetDims := []
  collapsedSliceDims := [0]
  operandBatchingDims := []
  startIndicesBatchingDims := []
  startIndexMap := [0]
  indexVectorDim := 1
  sliceSizes := ![1]
  wf := gather_S100000_S100000x1_S100000_n_0_n_n_0_1_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S100000x512_S200000x1_S200000x512_1_0_0_1 : ScatterDims S100000x512 S200000x1 S200000x512 where
  updateWindowDims := [1]
  insertedWindowDims := [0]
  scatterDimsToOperandDims := [0]
  indexVectorDim := 1
  wf := scatter_S100000x512_S200000x1_S200000x512_1_0_0_1_wf
def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf
def dot_S100000x512_S512x384_S100000x384_1_0_0_1_n_n : DotDims S100000x512 S512x384 S100000x384 where
  lhsContracting := [1]
  rhsContracting := [0]
  lhsNonContracting := [0]
  rhsNonContracting := [1]
  lhsBatch := []
  rhsBatch := []
  wf := dot_S100000x512_S512x384_S100000x384_1_0_0_1_n_n_wf
def dot_S100000x128_S128x384_S100000x384_1_0_0_1_n_n : DotDims S100000x128 S128x384 S100000x384 where
  lhsContracting := [1]
  rhsContracting := [0]
  lhsNonContracting := [0]
  rhsNonContracting := [1]
  lhsBatch := []
  rhsBatch := []
  wf := dot_S100000x128_S128x384_S100000x384_1_0_0_1_n_n_wf

class Facts : Prop extends Facts₀ where

variable [Facts]
-- ==== Proof.KernelFrameHost.lean ====
/-
  The host side of the frame: the program around its one region.

  The program is: 109 host lines (gathers, the time encoding, two segment sums, the two concatenations that
  assemble the message rows, the transposes and reshapes of the weights), then the region that runs the GRU
  cell over 50 blocks of 2000 rows, then 12 host lines (the two segment maxima of the time stamps).
  Every host line writes exactly one buffer, its own result, which is never an argument array.  So each
  argument array is found by the region as it was launched (`V_main_argK`) and is left by the lines after
  the region as the region left it (`W_main_argK`); the region itself reads `main_arg0` through an input
  window and touches no other argument.  This module states those facts, names the buffers' contents at
  the region's entry (`V0`, `V`), each window's block at a grid point (`iblk`), that an input window's
  staging buffer holds its block at every point whether the pipeline fetched it there or not
  (`beforeW_of`; the weights and biases are fetched at the first point only and stay put afterwards),
  and derives the frame claim's postcondition from the library's frame-run postcondition (`frame_of`).
-/
import proofs.«171311_j3075196584344_2_alg».proof.Proof.Gen.Kernel.Launch
import proofs.«171311_j3075196584344_2_alg».proof.Proof.Gen.Kernel.Skeleton
import proofs.«171311_j3075196584344_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered, as a valuation: the launch memory after the 109 host
    lines before the region, in order. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host line allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, the host lines after it: run from the launch
    memory it reaches the region with the buffers at `V`, and what is left to run is the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only unscoped TensorCore buffers: arrays of the pipeline, or buffers that
    bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 400000 in
/-- And they write none of the eight arrays the pipeline stages: each writes its own result only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays, before and after the region

  Each of the 109 lines before the region, and each of the 12 after it, writes one buffer — its result — and no
  result buffer is an argument.  The check is one inequality of references per line. -/

set_option maxHeartbeats 1000000 in
/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg1`, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line after the region writes `main_arg2`, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line after the region writes `main_arg3`, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line after the region writes `main_arg4`, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line after the region writes `main_arg5`, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line after the region writes `main_arg6`, and no window stages it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line after the region writes `main_arg7`, and no window stages it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host line after the region writes `main_arg8`, and no window stages it: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host line after the region writes `main_arg9`, and no window stages it: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host line after the region writes `main_arg10`, and no window stages it: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No host line after the region writes `main_arg11`, and no window stages it: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is `V`'s and whose body leaves the block in place: where the pipeline did not fetch, the
    block index has not moved since the point before, so the buffer still holds this point's block. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s and whose body leaves the block in place: where the pipeline did not fetch, the
    block index has not moved since the point before, so the buffer still holds this point's block. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s and whose body leaves the block in place: where the pipeline did not fetch, the
    block index has not moved since the point before, so the buffer still holds this point's block. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is `V`'s and whose body leaves the block in place: where the pipeline did not fetch, the
    block index has not moved since the point before, so the buffer still holds this point's block. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is `V`'s and whose body leaves the block in place: where the pipeline did not fetch, the
    block index has not moved since the point before, so the buffer still holds this point's block. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is `V`'s and whose body leaves the block in place: where the pipeline did not fetch, the
    block index has not moved since the point before, so the buffer still holds this point's block. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is `V`'s and whose body leaves the block in place: where the pipeline did not fetch, the
    block index has not moved since the point before, so the buffer still holds this point's block. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's postcondition from the frame run's -/

/-- The statement of the frame claim at any float instance: the program runs to the end from `m` with zero
    counters, and each of the twelve argument arrays ends as launched. -/
abbrev FrameClaim : Prop :=
  θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))

set_option maxHeartbeats 1000000 in
/-- For any proof data whose arrays are the region-entry contents, a run to the library's frame postcondition gives
    the frame claim: `main_arg0` is an input window's array, which the pipeline only reads, so it ends at its entry
    contents, which are the launch contents; the other eleven arguments are staged by no window, so they end as the
    later lines leave them, which is again as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    FrameClaim m ρ :=
  (θ_run defs _ _).mono (fun _ h c => ⟨((h c).1 1).trans (((dats 0 c).arrAt_in 1 rfl _).trans ((hA c 1).trans (V_main_arg0 m c))),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c)),
      (((h c).2 main_arg10 (Pipeline.mem_restRefs_of main_arg10 (by decide) (by decide))).trans (W_main_arg10 m dats c)),
      (((h c).2 main_arg11 (Pipeline.mem_restRefs_of main_arg11 (by decide) (by decide))).trans (W_main_arg11 m dats c))⟩) h

end Cert.Kernel.Frm

end
-- ==== Proof.KernelFrameBody.lean ====
/-
  The body of the GRU cell, as a triple over whole staging buffers.

  At one grid point the cell reads seven blocks — the 2000 x 512 block of concatenated messages, the
  2000 x 128 block of node memory, the 2000 x 1 block of reciprocal counts, the two weight matrices
  (512 x 384 and 128 x 384) and the two bias rows (1 x 384) — each whole, through the rectangle that is
  the entire buffer, and writes one 2000 x 128 block of new memory, whole, in a single store.  So what the
  output buffer holds afterwards is a function of the seven blocks alone: the one stored value, spread over
  the one rectangle that covers the buffer.  This module names that function (`out7`) and proves the
  triple: from the seven input buffers at given contents and the output buffer at anything, the body runs
  to the end without fault, leaves the inputs as they were and the output at `out7` of the inputs.
-/
import proofs.«171311_j3075196584344_2_alg».proof.Proof.Gen.Kernel.Skeleton
import Idealize.ShloMosaic.Lib.Pipeline.FrameBody
import Idealize.ShloMosaic.Lib.Pipeline.Kit
import Idealize.ShloMosaic.Lib.Ring
import Idealize.ShloMosaic.Lib.Tactic

-- membership in a rectangle of 2000 rows is checked coordinate by coordinate
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each is its whole buffer -/

abbrev rA : Rect S2000x512 := Rect.unit (s := S2000x512) ![0, 0] S2000x512.size inb_S2000x512_S2000x512_0_0
abbrev rB : Rect S2000x128 := Rect.unit (s := S2000x128) ![0, 0] S2000x128.size inb_S2000x128_S2000x128_0_0
abbrev rC : Rect S2000x1 := Rect.unit (s := S2000x1) ![0, 0] S2000x1.size inb_S2000x1_S2000x1_0_0
abbrev rD : Rect S512x384 := Rect.unit (s := S512x384) ![0, 0] S512x384.size inb_S512x384_S512x384_0_0
abbrev rE : Rect S128x384 := Rect.unit (s := S128x384) ![0, 0] S128x384.size inb_S128x384_S128x384_0_0
abbrev rG : Rect S1x384 := Rect.unit (s := S1x384) ![0, 0] S1x384.size inb_S1x384_S1x384_0_0

/-! ## What the body leaves in the output buffer -/

/-- The new-memory block after the body, from the seven input blocks `x0 … x6` (in window order: messages,
    memory, reciprocal counts, the two weight matrices, the two bias rows): the single store, `(1 - z) * n + z * h`
    as the skeleton's payloads spell it, over the rectangle that is the whole buffer. -/
def out7 (x0 : Vec F S2000x512 .f32) (x1 : Vec F S2000x128 .f32) (x2 : Vec F S2000x1 .f32) (x3 : Vec F S512x384 .f32)
    (x4 : Vec F S128x384 .f32) (x5 : Vec F S1x384 .f32) (x6 : Vec F S1x384 .f32) : Vec F S2000x128 .f32 :=
  View.canon [⟨rB, k0_pay1
    (k0_pay5 (View.ld x0 rA) (View.ld x2 rC) (View.ld x1 rB) (View.ld x3 rD) (View.ld x4 rE) (View.ld x5 rG) (View.ld x6 rG))
    (k0_pay6 (View.ld x0 rA) (View.ld x2 rC) (View.ld x1 rB) (View.ld x3 rD) (View.ld x4 rE) (View.ld x5 rG) (View.ld x6 rG))⟩]

/-- The one store's rectangle is the whole buffer, so every index of the buffer lies in it. -/
theorem cover7 (p0 : Vec F S2000x128 .f32) (y : S2000x128.Idx) :
    ∃ pc ∈ ([⟨rB, p0⟩] : List (View.Piece (Elt F) S2000x128 .f32)), y ∈ pc.1.set :=
  View.cover_of_tiled [⟨rB, p0⟩] S2000x128.size (by rfl) y

/-! ## The body's triple -/

set_option maxHeartbeats 1000000 in
/-- The cell's body on whole staging buffers, the seven inputs' at read contents `x0 … x6` and the output's at
    anything, runs to the continuation holding the inputs' as they were and the output's at `out7` of them.
    The body also loads the output buffer once before storing into it; the loaded value is used nowhere,
    so the buffer's earlier contents do not matter. -/
theorem sound_kernel (c : Dev nD) (E : Set ℕ) (i : grid0.Coords)
    (arg1 : Memref sig .tc .vmem S2000x512 .f32) (harg1 : arg1.IsWhole) (arg2 : Memref sig .tc .vmem S2000x128 .f32) (harg2 : arg2.IsWhole)
    (arg3 : Memref sig .tc .vmem S2000x1 .f32) (harg3 : arg3.IsWhole) (arg4 : Memref sig .tc .vmem S512x384 .f32) (harg4 : arg4.IsWhole)
    (arg5 : Memref sig .tc .vmem S128x384 .f32) (harg5 : arg5.IsWhole) (arg6 : Memref sig .tc .vmem S1x384 .f32) (harg6 : arg6.IsWhole)
    (arg7 : Memref sig .tc .vmem S1x384 .f32) (harg7 : arg7.IsWhole) (arg8 : Memref sig .tc .vmem S2000x128 .f32) (harg8 : arg8.IsWhole)
    (x0 : Vec F S2000x512 .f32) (x1 : Vec F S2000x128 .f32) (x2 : Vec F S2000x1 .f32) (x3 : Vec F S512x384 .f32)
    (x4 : Vec F S128x384 .f32) (x5 : Vec F S1x384 .f32) (x6 : Vec F S1x384 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out7 x0 x1 x2 x3 x4 x5 x6)) -∗ K ⟨⟩))
      ⊢ wp frame (wpE (defs₀ (F := F)) Variants.none c none) E
          (cc0__gru_kernel i arg1 harg1 arg2 harg2 arg3 harg3 arg4 harg4 arg5 harg5 arg6 harg6 arg7 harg7 arg8 harg8) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover7 _)

end Cert.Kernel.Frm

end
-- ==== Proof.KernelFrame.lean ====
/-
  The frame of the program: it runs to the end without fault and leaves its twelve argument arrays as launched.

  The region runs the GRU cell at 50 grid points; at point `t` the pipeline hands the body the seven input
  blocks of that point (`iblk m c w t`, w = 0 … 6: rows 2000 t … 2000 t + 1999 of the message sums, the memory and the reciprocal counts
  arrays; the weights and biases whole) and takes back the output block, `out7` of those seven, which it writes
  to rows 2000 t … of the result array at every point.  The proof data below say exactly that; the body's
  triple (`sound_kernel`) discharges the per-point obligation, and the library's launch theorem for a region
  with host lines before and after it gives the run (`run_main`), whose postcondition yields the frame claim
  (`frame`).
-/
import proofs.«171311_j3075196584344_2_alg».proof.Proof.KernelFrameHost
import proofs.«171311_j3075196584344_2_alg».proof.Proof.KernelFrameBody

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the pipeline on core `c`: the arrays as the region finds them (`V`); after the body at point
    `t` each input's staging buffer still at its block and the output's at `out7` of the seven input blocks; the
    invariant is the class's (the scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents (the definition projected; the fold over the host lines
    is not unfolded). -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out7 (iblk m c 0 t) (iblk m c 1 t) (iblk m c 2 t) (iblk m c 3 t) (iblk m c 4 t) (iblk m c 5 t) (iblk m c 6 t) := by dsimp only [dats]

/-- Each input's current staging buffer holds its block at every point, fetched there or not. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- From any memory with zero counters, every weakly fair execution of the program on the TensorCores terminates, and
    every final state has each array of the pipeline at what the proof data compute (an input as the region found it,
    the output overwritten block by block with `out7` of the blocks) and every other unscoped buffer as the host lines
    after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any float instance. -/
theorem frame : FrameClaim m ρ :=
  frame_of m ρ (dats m) (A_eq m) (run_main m ρ)

end Cert.Kernel.Frm

end
-- ==== Proof.KernelIdealFrameHost.lean ====
/-
  The host side of the frame: the program around its one region.

  The program is: 109 host lines (gathers, the time encoding, two segment sums, the two concatenations that
  assemble the message rows, the transposes and reshapes of the weights), then the region that runs the GRU
  cell over 50 blocks of 2000 rows, then 12 host lines (the two segment maxima of the time stamps).
  Every host line writes exactly one buffer, its own result, which is never an argument array.  So each
  argument array is found by the region as it was launched (`V_main_argK`) and is left by the lines after
  the region as the region left it (`W_main_argK`); the region itself reads `main_arg0` through an input
  window and touches no other argument.  This module states those facts, names the buffers' contents at
  the region's entry (`V0`, `V`), each window's block at a grid point (`iblk`), that an input window's
  staging buffer holds its block at every point whether the pipeline fetched it there or not
  (`beforeW_of`; the weights and biases are fetched at the first point only and stay put afterwards),
  and derives the frame claim's postcondition from the library's frame-run postcondition (`frame_of`).
-/
import proofs.«171311_j3075196584344_2_alg».proof.Proof.Gen.KernelIdeal.Launch
import proofs.«171311_j3075196584344_2_alg».proof.Proof.Gen.KernelIdeal.Skeleton
import proofs.«171311_j3075196584344_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered, as a valuation: the launch memory after the 109 host
    lines before the region, in order. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host line allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, the host lines after it: run from the launch
    memory it reaches the region with the buffers at `V`, and what is left to run is the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only unscoped TensorCore buffers: arrays of the pipeline, or buffers that
    bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 400000 in
/-- And they write none of the eight arrays the pipeline stages: each writes its own result only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays, before and after the region

  Each of the 109 lines before the region, and each of the 12 after it, writes one buffer — its result — and no
  result buffer is an argument.  The check is one inequality of references per line. -/

set_option maxHeartbeats 1000000 in
/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg1`, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line after the region writes `main_arg2`, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line after the region writes `main_arg3`, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line after the region writes `main_arg4`, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line after the region writes `main_arg5`, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line after the region writes `main_arg6`, and no window stages it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line after the region writes `main_arg7`, and no window stages it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host line after the region writes `main_arg8`, and no window stages it: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host line after the region writes `main_arg9`, and no window stages it: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host line after the region writes `main_arg10`, and no window stages it: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No host line after the region writes `main_arg11`, and no window stages it: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is `V`'s and whose body leaves the block in place: where the pipeline did not fetch, the
    block index has not moved since the point before, so the buffer still holds this point's block. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s and whose body leaves the block in place: where the pipeline did not fetch, the
    block index has not moved since the point before, so the buffer still holds this point's block. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s and whose body leaves the block in place: where the pipeline did not fetch, the
    block index has not moved since the point before, so the buffer still holds this point's block. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is `V`'s and whose body leaves the block in place: where the pipeline did not fetch, the
    block index has not moved since the point before, so the buffer still holds this point's block. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is `V`'s and whose body leaves the block in place: where the pipeline did not fetch, the
    block index has not moved since the point before, so the buffer still holds this point's block. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is `V`'s and whose body leaves the block in place: where the pipeline did not fetch, the
    block index has not moved since the point before, so the buffer still holds this point's block. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is `V`'s and whose body leaves the block in place: where the pipeline did not fetch, the
    block index has not moved since the point before, so the buffer still holds this point's block. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's postcondition from the frame run's -/

/-- The statement of the frame claim at any float instance: the program runs to the end from `m` with zero
    counters, and each of the twelve argument arrays ends as launched. -/
abbrev FrameClaim : Prop :=
  θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))

set_option maxHeartbeats 1000000 in
/-- For any proof data whose arrays are the region-entry contents, a run to the library's frame postcondition gives
    the frame claim: `main_arg0` is an input window's array, which the pipeline only reads, so it ends at its entry
    contents, which are the launch contents; the other eleven arguments are staged by no window, so they end as the
    later lines leave them, which is again as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    FrameClaim m ρ :=
  (θ_run defs _ _).mono (fun _ h c => ⟨((h c).1 1).trans (((dats 0 c).arrAt_in 1 rfl _).trans ((hA c 1).trans (V_main_arg0 m c))),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c)),
      (((h c).2 main_arg10 (Pipeline.mem_restRefs_of main_arg10 (by decide) (by decide))).trans (W_main_arg10 m dats c)),
      (((h c).2 main_arg11 (Pipeline.mem_restRefs_of main_arg11 (by decide) (by decide))).trans (W_main_arg11 m dats c))⟩) h

end Cert.KernelIdeal.Frm

end
-- ==== Proof.KernelIdealFrameBody.lean ====
/-
  The body of the GRU cell, as a triple over whole staging buffers.

  At one grid point the cell reads seven blocks — the 2000 x 512 block of concatenated messages, the
  2000 x 128 block of node memory, the 2000 x 1 block of reciprocal counts, the two weight matrices
  (512 x 384 and 128 x 384) and the two bias rows (1 x 384) — each whole, through the rectangle that is
  the entire buffer, and writes one 2000 x 128 block of new memory, whole, in a single store.  So what the
  output buffer holds afterwards is a function of the seven blocks alone: the one stored value, spread over
  the one rectangle that covers the buffer.  This module names that function (`out7`) and proves the
  triple: from the seven input buffers at given contents and the output buffer at anything, the body runs
  to the end without fault, leaves the inputs as they were and the output at `out7` of the inputs.
-/
import proofs.«171311_j3075196584344_2_alg».proof.Proof.Gen.KernelIdeal.Skeleton
import Idealize.ShloMosaic.Lib.Pipeline.FrameBody
import Idealize.ShloMosaic.Lib.Pipeline.Kit
import Idealize.ShloMosaic.Lib.Ring
import Idealize.ShloMosaic.Lib.Tactic

-- membership in a rectangle of 2000 rows is checked coordinate by coordinate
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each is its whole buffer -/

abbrev rA : Rect S2000x512 := Rect.unit (s := S2000x512) ![0, 0] S2000x512.size inb_S2000x512_S2000x512_0_0
abbrev rB : Rect S2000x128 := Rect.unit (s := S2000x128) ![0, 0] S2000x128.size inb_S2000x128_S2000x128_0_0
abbrev rC : Rect S2000x1 := Rect.unit (s := S2000x1) ![0, 0] S2000x1.size inb_S2000x1_S2000x1_0_0
abbrev rD : Rect S512x384 := Rect.unit (s := S512x384) ![0, 0] S512x384.size inb_S512x384_S512x384_0_0
abbrev rE : Rect S128x384 := Rect.unit (s := S128x384) ![0, 0] S128x384.size inb_S128x384_S128x384_0_0
abbrev rG : Rect S1x384 := Rect.unit (s := S1x384) ![0, 0] S1x384.size inb_S1x384_S1x384_0_0

/-! ## What the body leaves in the output buffer -/

/-- The new-memory block after the body, from the seven input blocks `x0 … x6` (in window order: messages,
    memory, reciprocal counts, the two weight matrices, the two bias rows): the single store, `(1 - z) * n + z * h`
    as the skeleton's payloads spell it, over the rectangle that is the whole buffer. -/
def out7 (x0 : Vec F S2000x512 .f32) (x1 : Vec F S2000x128 .f32) (x2 : Vec F S2000x1 .f32) (x3 : Vec F S512x384 .f32)
    (x4 : Vec F S128x384 .f32) (x5 : Vec F S1x384 .f32) (x6 : Vec F S1x384 .f32) : Vec F S2000x128 .f32 :=
  View.canon [⟨rB, k0_pay1
    (k0_pay5 (View.ld x0 rA) (View.ld x2 rC) (View.ld x1 rB) (View.ld x3 rD) (View.ld x4 rE) (View.ld x5 rG) (View.ld x6 rG))
    (k0_pay6 (View.ld x0 rA) (View.ld x2 rC) (View.ld x1 rB) (View.ld x3 rD) (View.ld x4 rE) (View.ld x5 rG) (View.ld x6 rG))⟩]

/-- The one store's rectangle is the whole buffer, so every index of the buffer lies in it. -/
theorem cover7 (p0 : Vec F S2000x128 .f32) (y : S2000x128.Idx) :
    ∃ pc ∈ ([⟨rB, p0⟩] : List (View.Piece (Elt F) S2000x128 .f32)), y ∈ pc.1.set :=
  View.cover_of_tiled [⟨rB, p0⟩] S2000x128.size (by rfl) y

/-! ## The body's triple -/

set_option maxHeartbeats 1000000 in
/-- The cell's body on whole staging buffers, the seven inputs' at read contents `x0 … x6` and the output's at
    anything, runs to the continuation holding the inputs' as they were and the output's at `out7` of them.
    The body also loads the output buffer once before storing into it; the loaded value is used nowhere,
    so the buffer's earlier contents do not matter. -/
theorem sound_kernel (c : Dev nD) (E : Set ℕ) (i : grid0.Coords)
    (arg1 : Memref sig .tc .vmem S2000x512 .f32) (harg1 : arg1.IsWhole) (arg2 : Memref sig .tc .vmem S2000x128 .f32) (harg2 : arg2.IsWhole)
    (arg3 : Memref sig .tc .vmem S2000x1 .f32) (harg3 : arg3.IsWhole) (arg4 : Memref sig .tc .vmem S512x384 .f32) (harg4 : arg4.IsWhole)
    (arg5 : Memref sig .tc .vmem S128x384 .f32) (harg5 : arg5.IsWhole) (arg6 : Memref sig .tc .vmem S1x384 .f32) (harg6 : arg6.IsWhole)
    (arg7 : Memref sig .tc .vmem S1x384 .f32) (harg7 : arg7.IsWhole) (arg8 : Memref sig .tc .vmem S2000x128 .f32) (harg8 : arg8.IsWhole)
    (x0 : Vec F S2000x512 .f32) (x1 : Vec F S2000x128 .f32) (x2 : Vec F S2000x1 .f32) (x3 : Vec F S512x384 .f32)
    (x4 : Vec F S128x384 .f32) (x5 : Vec F S1x384 .f32) (x6 : Vec F S1x384 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out7 x0 x1 x2 x3 x4 x5 x6)) -∗ K ⟨⟩))
      ⊢ wp frame (wpE (defs₀ (F := F)) Variants.none c none) E
          (cc0__gru_kernel i arg1 harg1 arg2 harg2 arg3 harg3 arg4 harg4 arg5 harg5 arg6 harg6 arg7 harg7 arg8 harg8) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover7 _)

end Cert.KernelIdeal.Frm

end
-- ==== Proof.KernelIdealFrame.lean ====
/-
  The frame of the program: it runs to the end without fault and leaves its twelve argument arrays as launched.

  The region runs the GRU cell at 50 grid points; at point `t` the pipeline hands the body the seven input
  blocks of that point (`iblk m c w t`, w = 0 … 6: rows 2000 t … 2000 t + 1999 of the message sums, the memory and the reciprocal counts
  arrays; the weights and biases whole) and takes back the output block, `out7` of those seven, which it writes
  to rows 2000 t … of the result array at every point.  The proof data below say exactly that; the body's
  triple (`sound_kernel`) discharges the per-point obligation, and the library's launch theorem for a region
  with host lines before and after it gives the run (`run_main`), whose postcondition yields the frame claim
  (`frame`).
-/
import proofs.«171311_j3075196584344_2_alg».proof.Proof.KernelIdealFrameHost
import proofs.«171311_j3075196584344_2_alg».proof.Proof.KernelIdealFrameBody

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the pipeline on core `c`: the arrays as the region finds them (`V`); after the body at point
    `t` each input's staging buffer still at its block and the output's at `out7` of the seven input blocks; the
    invariant is the class's (the scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents (the definition projected; the fold over the host lines
    is not unfolded). -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out7 (iblk m c 0 t) (iblk m c 1 t) (iblk m c 2 t) (iblk m c 3 t) (iblk m c 4 t) (iblk m c 5 t) (iblk m c 6 t) := by dsimp only [dats]

/-- Each input's current staging buffer holds its block at every point, fetched there or not. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- From any memory with zero counters, every weakly fair execution of the program on the TensorCores terminates, and
    every final state has each array of the pipeline at what the proof data compute (an input as the region found it,
    the output overwritten block by block with `out7` of the blocks) and every other unscoped buffer as the host lines
    after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any float instance. -/
theorem frame : FrameClaim m ρ :=
  frame_of m ρ (dats m) (A_eq m) (run_main m ρ)

end Cert.KernelIdeal.Frm

end
-- ==== Proof.KernelIdealRun.lean ====
/-
  The program's run with both results named.

  The program returns two arrays.  The first, the new node memory, is the region's output array: after the
  last grid point it holds what the pipeline's write-backs assembled from the body's output blocks.  The second,
  the new last-update times, is computed by the twelve host lines after the region from three ARGUMENT arrays
  only (the two endpoint index arrays and the time stamps): two segment maxima of the time stamps, one per
  endpoint array, each starting from the smallest 32-bit integer, then the elementwise maximum of the two, then
  the maximum with zero.  Since no line before the region and no window of the region writes an argument, those
  three arrays are read at their launch contents, so the second result is a function of the launch memory
  (`lastTimes`).  The twelve arguments end as launched, as in the frame.
-/
import proofs.«171311_j3075196584344_2_alg».proof.Proof.KernelIdealFrame

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The second result -/

/-- The new last-update times on core `c`, from the launch memory: for each node, the largest time stamp among the
    events whose first endpoint (`main_arg2`) is the node, the same over the second endpoints (`main_arg3`), each
    maximum taken from the smallest 32-bit integer; then the larger of the two; then at least zero. -/
def lastTimes (c : Dev nD) : (⟨S100000, .i32⟩ : BufTy).Contents (Elt F) :=
  (maxsi : (⟨S100000, .i32⟩ : BufTy).Contents (Elt F) → (⟨S100000, .i32⟩ : BufTy).Contents (Elt F) → (⟨S100000, .i32⟩ : BufTy).Contents (Elt F))
    ((maxsi : (⟨S100000, .i32⟩ : BufTy).Contents (Elt F) → (⟨S100000, .i32⟩ : BufTy).Contents (Elt F) → (⟨S100000, .i32⟩ : BufTy).Contents (Elt F))
      (Host.scatter scatter_S100000_S100000x1_S100000_n_0_0_1 IntOp.maxsi
        ((broadcastInDim S100000 ![] bcast_S_S100000 : (⟨S_, .i32⟩ : BufTy).Contents (Elt F) → (⟨S100000, .i32⟩ : BufTy).Contents (Elt F)) (constantI S_ 32 2147483648#32))
        ((broadcastInDim S100000x1 ![0] bcast_S100000_S100000x1_0 : (⟨S100000, .i32⟩ : BufTy).Contents (Elt F) → (⟨S100000x1, .i32⟩ : BufTy).Contents (Elt F)) (m ((c.tc : Thread nD τ).loc main_arg2)))
        (m ((c.tc : Thread nD τ).loc main_arg4)))
      (Host.scatter scatter_S100000_S100000x1_S100000_n_0_0_1 IntOp.maxsi
        ((broadcastInDim S100000 ![] bcast_S_S100000 : (⟨S_, .i32⟩ : BufTy).Contents (Elt F) → (⟨S100000, .i32⟩ : BufTy).Contents (Elt F)) (constantI S_ 32 2147483648#32))
        ((broadcastInDim S100000x1 ![0] bcast_S100000_S100000x1_0 : (⟨S100000, .i32⟩ : BufTy).Contents (Elt F) → (⟨S100000x1, .i32⟩ : BufTy).Contents (Elt F)) (m ((c.tc : Thread nD τ).loc main_arg3)))
        (m ((c.tc : Thread nD τ).loc main_arg4))))
    ((broadcastInDim S100000 ![] bcast_S_S100000 : (⟨S_, .i32⟩ : BufTy).Contents (Elt F) → (⟨S100000, .i32⟩ : BufTy).Contents (Elt F)) (constantI S_ 32 0#32))

/-- What the lines after the region leave in the second result's buffer: each line's result is its function of its
    operands' contents, the operands being earlier results of the same lines or one of the three argument arrays;
    an argument array is no array of the pipeline, so the region left it as it found it, which is as launched. -/
theorem tail_v99 (dats : (p : Fin 1) → (c : Dev nD) → Dat τ (Elt F) Unit ℕ (UR sig nD τ) ℕ (cfgs p) c) (c : Dev nD) :
    Pipeline.afterTail₀ cfgs dats 0 (V0 m) [hostOps1] c main_v99 = lastTimes m c := by
  unfold Pipeline.afterTail₀
  have h2 := Pipeline.withArrays_of_ne (cfgs 0).spec c (V0 m c) (fun w => (dats 0 c).arrAt w (cfgs 0).N) main_arg2
    (by exact (by decide : ∀ w, Pipeline.arrRef spec0 w ≠ main_arg2))
  have h3 := Pipeline.withArrays_of_ne (cfgs 0).spec c (V0 m c) (fun w => (dats 0 c).arrAt w (cfgs 0).N) main_arg3
    (by exact (by decide : ∀ w, Pipeline.arrRef spec0 w ≠ main_arg3))
  have h4 := Pipeline.withArrays_of_ne (cfgs 0).spec c (V0 m c) (fun w => (dats 0 c).arrAt w (cfgs 0).N) main_arg4
    (by exact (by decide : ∀ w, Pipeline.arrRef spec0 w ≠ main_arg4))
  rw [show V0 m c (Proc.devRef .tc main_arg2) = m ((c : Thread nD τ).loc main_arg2) from V_main_arg2 m c] at h2
  rw [show V0 m c (Proc.devRef .tc main_arg3) = m ((c : Thread nD τ).loc main_arg3) from V_main_arg3 m c] at h3
  rw [show V0 m c (Proc.devRef .tc main_arg4) = m ((c : Thread nD τ).loc main_arg4) from V_main_arg4 m c] at h4
  generalize Pipeline.withArrays (cfgs 0).spec c (V0 m c) (fun w => (dats 0 c).arrAt w (cfgs 0).N) = W at h2 h3 h4
  show StableHlo.after hostOps1 W (Proc.devRef .tc main_v99) = _
  after_results
  rw [h2, h3, h4]
  rfl

/-! ## The run -/

set_option maxHeartbeats 1000000 in
/-- From any memory with zero counters the program runs to the end; the first result is what the pipeline's
    write-backs leave in the region's output array, the second is `lastTimes`, and the twelve arguments are as
    launched. -/
theorem run_named : θ_run defs (onTc (τ := τ) (main (F := F))) ⟨m, fun _ => 0, ρ⟩ (fun r => ∀ c : Dev nD,
      r.2.mem ((c.tc : Thread nD τ).loc main_v90) = (dats m 0 c).arrAt 7 cfg0.N
      ∧ r.2.mem ((c.tc : Thread nD τ).loc main_v99) = lastTimes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).1 7,
      ((h c).2 main_v99 (Pipeline.mem_restRefs_of main_v99 (by decide) (by decide))).trans (tail_v99 m (dats m) c),
      ((h c).1 1).trans (((dats m 0 c).arrAt_in 1 rfl _).trans ((A_eq m c 1).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c))⟩) (run_main m ρ)

end Cert.KernelIdeal.Frm

end
-- ==== Proof.Spec.lean ====
/-
  The gated recurrent update of one node's memory, entry by entry, on the extended reals.

  For a node with aggregated message `a : Fin 512 → EReal` and previous memory `h : Fin 128 → EReal`, the two affine
  maps `gx = a · Wi + bi` and `gh = h · Wh + bh` have 384 = 3 · 128 outputs each, read as three gates of width 128:
  reset `r = σ(gx₀ + gh₀)`, update `z = σ(gx₁ + gh₁)`, candidate `n = tanh(gx₂ + r · gh₂)`, and the new memory entry
  is `(1 - z) · n + z · h`.  The logistic function σ is `1 / (1 + e^(-x))` with the conventions of the extended
  reals at the infinities; the literal one is kept as the binary pattern both programs print.
-/
import Idealize.ShloMosaic.PureOps.Ideal
import Idealize.ShloMosaic.Lib.ValueIdx

noncomputable section

namespace Cert.Spec

open Idealize.ShloMosaic

/-- The literal one, as the pattern both programs print. -/
abbrev one : EReal := Ideal.ofBits .f32 0x3F800000#32

/-- An affine map's output `n`: the input against column `n` of the weights, plus the bias. -/
def affine {K : ℕ} (a : Fin K → EReal) (W : Fin K → Fin 384 → EReal) (b : Fin 384 → EReal) (n : Fin 384) : EReal :=
  (∑ k : Fin K, a k * W k n) + b n

/-- Entry `q` of the new memory from the two affine outputs and the old entry. -/
def gates (gx gh : Fin 384 → EReal) (h : EReal) (q : Fin 128) : EReal :=
  (one - Ideal.logistic (gx ⟨128 + q.val, by omega⟩ + gh ⟨128 + q.val, by omega⟩))
      * Ideal.tanh (gx ⟨256 + q.val, by omega⟩
          + Ideal.logistic (gx ⟨q.val, by omega⟩ + gh ⟨q.val, by omega⟩) * gh ⟨256 + q.val, by omega⟩)
    + Ideal.logistic (gx ⟨128 + q.val, by omega⟩ + gh ⟨128 + q.val, by omega⟩) * h

/-- Entry `q` of a node's new memory. -/
def cell (a : Fin 512 → EReal) (h : Fin 128 → EReal) (Wi : Fin 512 → Fin 384 → EReal) (Wh : Fin 128 → Fin 384 → EReal)
    (bi bh : Fin 384 → EReal) (q : Fin 128) : EReal :=
  gates (affine a Wi bi) (affine h Wh bh) (h q) q

/-- `cell` depends on its arguments only through their values. -/
theorem cell_congr {a a' : Fin 512 → EReal} {h h' : Fin 128 → EReal} {Wi Wi' : Fin 512 → Fin 384 → EReal}
    {Wh Wh' : Fin 128 → Fin 384 → EReal} {bi bi' bh bh' : Fin 384 → EReal} {q q' : Fin 128}
    (ha : ∀ k, a k = a' k) (hh : ∀ k, h k = h' k) (hWi : ∀ k n, Wi k n = Wi' k n) (hWh : ∀ k n, Wh k n = Wh' k n)
    (hbi : ∀ n, bi n = bi' n) (hbh : ∀ n, bh n = bh' n) (hq : q = q') :
    cell a h Wi Wh bi bh q = cell a' h' Wi' Wh' bi' bh' q' := by
  obtain rfl : a = a' := funext ha
  obtain rfl : h = h' := funext hh
  obtain rfl : Wi = Wi' := funext fun k => funext (hWi k)
  obtain rfl : Wh = Wh' := funext fun k => funext (hWh k)
  obtain rfl : bi = bi' := funext hbi
  obtain rfl : bh = bh' := funext hbh
  subst hq
  rfl

end Cert.Spec

end
-- ==== Proof.LibAffineLayer.lean ====
/-
  General lemmas for an affine layer `x ↦ x · W + b` written two ways: as ONE product over a concatenated
  operand, and as a SUM of products over the concatenation's pieces against the matching row blocks of `W`.

  * `sum_split2`, `sum_split3`: a finite sum over `Fin n` is the sum of its sums over two (three) consecutive
    ranges — in any commutative monoid, so it holds on the extended reals with no finiteness asked.
  * `plain_sum`: the contraction sum of a plain `[M,K] × [K,N]` product (one contracted axis, no batch axis),
    read at the output index `(p, q)`, is `∑ k, l (p, k) · r (k, q)`.
  * `matmul_zero_ix2` / `dotGeneral_ix2`: a matrix product into a zero accumulator, and the host's product, at the
    ideal values are that sum.
  * `concat2_left/right`, `concat3_fst/snd/thd`: a concatenation of two (three) matrices along the columns read at
    `(p, k)` with `k` in the first, second, third range of columns.
  * `row_bias_apply`: a vector cast to one row and broadcast over many rows reads, at `(p, q)`, the vector at `q`.
  * `rowBlock`, `slice_rows_eq`: rows `o … o + r - 1` of a matrix, and a slice along the rows as that block.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib.AffineLayer

open Idealize.ShloMosaic Idealize.ShloMosaic.ValueIdx

/-! ## Sums over consecutive ranges -/

/-- A sum over `Fin n` with `n = a + b` is the sum over the first `a` positions plus the sum over the next `b`. -/
theorem sum_split2 {M : Type*} [AddCommMonoid M] (a b n : ℕ) (h : a + b = n) (f : Fin n → M) :
    ∑ k : Fin n, f k = ∑ k : Fin a, f ⟨k.val, by omega⟩ + ∑ k : Fin b, f ⟨a + k.val, by omega⟩ := by
  subst h
  rw [Fin.sum_univ_add]
  rfl

/-- A sum over `Fin n` with `n = a + b + c` is the sum of its sums over the three consecutive ranges. -/
theorem sum_split3 {M : Type*} [AddCommMonoid M] (a b c n : ℕ) (h : a + b + c = n) (f : Fin n → M) :
    ∑ k : Fin n, f k
      = (∑ k : Fin a, f ⟨k.val, by omega⟩ + ∑ k : Fin b, f ⟨a + k.val, by omega⟩) + ∑ k : Fin c, f ⟨a + b + k.val, by omega⟩ := by
  subst h
  rw [Fin.sum_univ_add, Fin.sum_univ_add]
  rfl

/-! ## A plain matrix product read at an index -/

/-- The contraction sum of a plain `[M,K] × [K,N]` product at the output index `(p, q)`: the left operand's row `p`
    against the right operand's column `q`. -/
theorem plain_sum {M K N : ℕ} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => rfl)
  rw [el, er]

/-- A kernel's matrix product into the zero accumulator, at the ideal values, read at `(p, q)`. -/
theorem matmul_zero_ix2 {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) (p : Fin M) (q : Fin N) :
    matmul D prec a b (constant (F := Ideal) ⟨2, ![M, N]⟩ .f32 0x00000000#32) (ix2 p q)
      = ∑ k : Fin K, a (ix2 p k) * b (ix2 k q) := by
  subst hD
  exact (Ideal.matmul_constant_zero_apply _ prec a b (ix2 p q)).trans (plain_sum a b p q)

/-- The host's matrix product, at the ideal values, read at `(p, q)`. -/
theorem dotGeneral_ix2 {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) (p : Fin M) (q : Fin N) :
    Host.dotGeneral D prec a b (ix2 p q) = ∑ k : Fin K, a (ix2 p k) * b (ix2 k q) := by
  subst hD
  exact (Ideal.dotGeneral_apply _ prec .single a b (ix2 p q)).trans (plain_sum a b p q)

/-! ## A concatenation along the columns read at an index -/

section Concat
variable {α : Type}

/-- Two matrices joined along the columns, read in the first one's columns. -/
theorem concat2_left {R a b n : ℕ} (x₁ : (⟨2, ![R, a]⟩ : Shape).Idx → α) (x₂ : (⟨2, ![R, b]⟩ : Shape).Idx → α)
    (h : Shape.Concatenates [⟨2, ![R, a]⟩, ⟨2, ![R, b]⟩] ⟨2, ![R, n]⟩ 1) (p : Fin R) (k : Fin a) (k' : Fin n)
    (hk : k'.val = k.val) :
    concatenate ⟨2, ![R, n]⟩ 1 [⟨⟨2, ![R, a]⟩, x₁⟩, ⟨⟨2, ![R, b]⟩, x₂⟩] h (ix2 p k') = x₁ (ix2 p k) :=
  concatenate_apply_piece 1 [⟨⟨2, ![R, a]⟩, x₁⟩, ⟨⟨2, ![R, b]⟩, x₂⟩] h (ix2 p k') 0 (Nat.zero_lt_succ _) _ x₁ rfl rfl 0 rfl (ix2 p k)
    (fun b hb => by
      match b with
      | ⟨0, _⟩ => rfl
      | ⟨1, _⟩ => exact absurd rfl hb)
    (by show 0 + k.val = k'.val; omega)

/-- Two matrices joined along the columns, read in the second one's columns. -/
theorem concat2_right {R a b n : ℕ} (x₁ : (⟨2, ![R, a]⟩ : Shape).Idx → α) (x₂ : (⟨2, ![R, b]⟩ : Shape).Idx → α)
    (h : Shape.Concatenates [⟨2, ![R, a]⟩, ⟨2, ![R, b]⟩] ⟨2, ![R, n]⟩ 1) (p : Fin R) (k : Fin b) (k' : Fin n)
    (hk : k'.val = a + k.val) :
    concatenate ⟨2, ![R, n]⟩ 1 [⟨⟨2, ![R, a]⟩, x₁⟩, ⟨⟨2, ![R, b]⟩, x₂⟩] h (ix2 p k') = x₂ (ix2 p k) :=
  concatenate_apply_piece 1 [⟨⟨2, ![R, a]⟩, x₁⟩, ⟨⟨2, ![R, b]⟩, x₂⟩] h (ix2 p k') 1 (Nat.succ_lt_succ (Nat.zero_lt_succ _)) _ x₂ rfl rfl a (by simp) (ix2 p k)
    (fun b hb => by
      match b with
      | ⟨0, _⟩ => rfl
      | ⟨1, _⟩ => exact absurd rfl hb)
    (by show a + k.val = k'.val; omega)

/-- Three matrices joined along the columns, read in the first one's columns. -/
theorem concat3_fst {R a b c n : ℕ} (x₁ : (⟨2, ![R, a]⟩ : Shape).Idx → α) (x₂ : (⟨2, ![R, b]⟩ : Shape).Idx → α)
    (x₃ : (⟨2, ![R, c]⟩ : Shape).Idx → α)
    (h : Shape.Concatenates [⟨2, ![R, a]⟩, ⟨2, ![R, b]⟩, ⟨2, ![R, c]⟩] ⟨2, ![R, n]⟩ 1) (p : Fin R) (k : Fin a) (k' : Fin n)
    (hk : k'.val = k.val) :
    concatenate ⟨2, ![R, n]⟩ 1 [⟨⟨2, ![R, a]⟩, x₁⟩, ⟨⟨2, ![R, b]⟩, x₂⟩, ⟨⟨2, ![R, c]⟩, x₃⟩] h (ix2 p k') = x₁ (ix2 p k) :=
  concatenate_apply_piece 1 [⟨⟨2, ![R, a]⟩, x₁⟩, ⟨⟨2, ![R, b]⟩, x₂⟩, ⟨⟨2, ![R, c]⟩, x₃⟩] h (ix2 p k') 0 (Nat.zero_lt_succ _) _ x₁ rfl rfl 0 rfl (ix2 p k)
    (fun b hb => by
      match b with
      | ⟨0, _⟩ => rfl
      | ⟨1, _⟩ => exact absurd rfl hb)
    (by show 0 + k.val = k'.val; omega)

/-- Three matrices joined along the columns, read in the second one's columns. -/
theorem concat3_snd {R a b c n : ℕ} (x₁ : (⟨2, ![R, a]⟩ : Shape).Idx → α) (x₂ : (⟨2, ![R, b]⟩ : Shape).Idx → α)
    (x₃ : (⟨2, ![R, c]⟩ : Shape).Idx → α)
    (h : Shape.Concatenates [⟨2, ![R, a]⟩, ⟨2, ![R, b]⟩, ⟨2, ![R, c]⟩] ⟨2, ![R, n]⟩ 1) (p : Fin R) (k : Fin b) (k' : Fin n)
    (hk : k'.val = a + k.val) :
    concatenate ⟨2, ![R, n]⟩ 1 [⟨⟨2, ![R, a]⟩, x₁⟩, ⟨⟨2, ![R, b]⟩, x₂⟩, ⟨⟨2, ![R, c]⟩, x₃⟩] h (ix2 p k') = x₂ (ix2 p k) :=
  concatenate_apply_piece 1 [⟨⟨2, ![R, a]⟩, x₁⟩, ⟨⟨2, ![R, b]⟩, x₂⟩, ⟨⟨2, ![R, c]⟩, x₃⟩] h (ix2 p k') 1 (Nat.succ_lt_succ (Nat.zero_lt_succ _)) _ x₂ rfl rfl a (by simp) (ix2 p k)
    (fun b hb => by
      match b with
      | ⟨0, _⟩ => rfl
      | ⟨1, _⟩ => exact absurd rfl hb)
    (by show a + k.val = k'.val; omega)

/-- Three matrices joined along the columns, read in the third one's columns. -/
theorem concat3_thd {R a b c n : ℕ} (x₁ : (⟨2, ![R, a]⟩ : Shape).Idx → α) (x₂ : (⟨2, ![R, b]⟩ : Shape).Idx → α)
    (x₃ : (⟨2, ![R, c]⟩ : Shape).Idx → α)
    (h : Shape.Concatenates [⟨2, ![R, a]⟩, ⟨2, ![R, b]⟩, ⟨2, ![R, c]⟩] ⟨2, ![R, n]⟩ 1) (p : Fin R) (k : Fin c) (k' : Fin n)
    (hk : k'.val = a + b + k.val) :
    concatenate ⟨2, ![R, n]⟩ 1 [⟨⟨2, ![R, a]⟩, x₁⟩, ⟨⟨2, ![R, b]⟩, x₂⟩, ⟨⟨2, ![R, c]⟩, x₃⟩] h (ix2 p k') = x₃ (ix2 p k) :=
  concatenate_apply_piece 1 [⟨⟨2, ![R, a]⟩, x₁⟩, ⟨⟨2, ![R, b]⟩, x₂⟩, ⟨⟨2, ![R, c]⟩, x₃⟩] h (ix2 p k') 2 (Nat.succ_lt_succ (Nat.succ_lt_succ (Nat.zero_lt_succ _))) _ x₃ rfl rfl (a + b) (by simp) (ix2 p k)
    (fun b hb => by
      match b with
      | ⟨0, _⟩ => rfl
      | ⟨1, _⟩ => exact absurd rfl hb)
    (by show a + b + k.val = k'.val; omega)

/-- A vector cast to one row and broadcast over `a` rows reads, at `(p, q)`, the vector at `q`. -/
theorem row_bias_apply {a b : ℕ} (v : (⟨1, ![b]⟩ : Shape).Idx → α)
    (h₁ : (⟨1, ![b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix1 q) :=
  (broadcastTo_1b_ab_apply _ h₂ p q).trans (shapeCast_a_1a_apply v h₁ 0 q)

/-- Rows `o … o + r - 1` of a matrix with `n` rows. -/
def rowBlock {n c : ℕ} (o r : ℕ) (h : o + r ≤ n) (W : (⟨2, ![n, c]⟩ : Shape).Idx → α) : (⟨2, ![r, c]⟩ : Shape).Idx → α :=
  fun j => W (ix2 ⟨o + (j 0).val, by have := idx2_lt0 j; omega⟩ (j 1))

theorem rowBlock_ix2 {n c : ℕ} (o r : ℕ) (h : o + r ≤ n) (W : (⟨2, ![n, c]⟩ : Shape).Idx → α) (p : Fin r) (q : Fin c) :
    rowBlock o r h W (ix2 p q) = W (ix2 ⟨o + p.val, by omega⟩ q) := rfl

/-- A slice of a matrix along its rows from row `o` is that block of rows. -/
theorem slice_rows_eq {n c r : ℕ} (o : ℕ) (h : o + r ≤ n) (W : (⟨2, ![n, c]⟩ : Shape).Idx → α)
    (hs : (⟨2, ![n, c]⟩ : Shape).Slices ![o, 0] ⟨2, ![r, c]⟩) :
    extractStridedSlice ⟨2, ![r, c]⟩ ![o, 0] W hs = rowBlock o r h W := by
  funext j
  obtain ⟨p, q, rfl⟩ : ∃ (p : Fin r) (q : Fin c), j = ix2 p q := ⟨j 0, j 1, eq_ix2 j⟩
  exact slice2_axis0_apply o W hs p q ⟨o + p.val, by omega⟩ rfl

end Concat

end Cert.Lib.AffineLayer

end
-- ==== Proof.LibColumns.lean ====
/-
  A matrix and its column of row sums, read at explicit coordinates (general lemmas, no program imported).

  Summing each row of an `[a, b]` matrix and keeping the axis is three operations: the lane sum `[a, b] → [a]`, the cast of the
  sums to a column `[a] → [a, 1]`, and the broadcast of the column over the rows' entries `[a, 1] → [a, b]`. Each is read here
  at an index written with explicit coordinates, for any extents: entry `p` of the sums is the sum of row `p`; entry (p, u) of
  the column is entry `p` of the sums; entry (p, c) of the broadcast is the column's entry of row `p`.
-/
import Idealize.ShloMosaic.PureOps.Ideal
import Idealize.ShloMosaic.PureOps.Ideal.Laws
import Idealize.ShloMosaic.Lib.ValueIdx
import Idealize.ShloMosaic.Lib.Pipeline.Value

noncomputable section

namespace Cert.Columns

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, b]` matrix of extended reals, at row `p`, is the sum of the row's entries. -/
theorem rowSum_apply {a b : ℕ} (src : FVec Ideal ⟨2, ![a, b]⟩ .f32) (hr : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 hr hφ hacc (ix1 p) = ∑ k : Fin b, src (ix2 p k) := by
  refine (Ideal.multiReduction_add_single src 0x00000000#32 hr hφ hacc (ix1 p)).trans ?_
  refine Finset.sum_congr rfl fun k _ => congrArg src ?_
  funext c
  refine Fin.ext ?_
  rw [hr.lift_val]
  match c with
  | ⟨0, _⟩ => rfl
  | ⟨1, _⟩ => rfl

end Cert.Columns

end
-- ==== Proof.KBody.lean ====
/-
  What one grid point of the kernel stores, entry by entry, at the ideal values.

  At a grid point the body holds a block of 2000 rows of the message sums `s`, of the previous memory `h` and of the
  reciprocal counts `ρ` (a column), and the whole weight and bias arrays.  It scales each row of sums by the row's
  reciprocal count, applies the two affine maps (matrix products into a zero accumulator, the bias row added to every
  row), cuts each 384-wide result into three gates of width 128 and combines them.  Entry `(r, q)` of the stored block
  is therefore `Spec.cell` of row `r` of the scaled sums and row `r` of the memory; a change of float format is the
  identity at these values.
-/
import proofs.«171311_j3075196584344_2_alg».proof.Proof.Gen.KernelIdeal.Skeleton
import proofs.«171311_j3075196584344_2_alg».proof.Proof.Spec
import proofs.«171311_j3075196584344_2_alg».proof.Proof.LibAffineLayer
import proofs.«171311_j3075196584344_2_alg».proof.Proof.LibColumns
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen Cert.Spec

variable (s : Vec Ideal S2000x512 .f32) (h : Vec Ideal S2000x128 .f32) (ρ : Vec Ideal S2000x1 .f32)
  (wi : Vec Ideal S512x384 .f32) (wh : Vec Ideal S128x384 .f32) (bi bh : Vec Ideal S1x384 .f32)

/-- The input affine map of row `r`: the scaled sums against the weights, plus the bias row. -/
theorem gx_apply (r : Fin 2000) (n : Fin 384) :
    k0_pay2 (F := Ideal) s ρ wi bi (ix2 r n)
      = affine (fun k => s (ix2 r k) * ρ (ix2 r (0 : Fin 1))) (fun k n => wi (ix2 k n)) (fun n => bi (ix2 (0 : Fin 1) n)) n := by
  unfold k0_pay2 affine
  refine congrArg₂ (· + ·) ?_ ?_
  · refine (Cert.Lib.AffineLayer.matmul_zero_ix2 dot_S2000x512_S512x384_S2000x384_1_0_0_1_n_n rfl none _ _ r n).trans ?_
    refine Finset.sum_congr rfl fun k _ => ?_
    show (shapeCast S2000x512 s shapeCasts_S2000x512_S2000x512 (ix2 r k)
          * broadcastTo S2000x512 (shapeCast S2000x1 ρ shapeCasts_S2000x1_S2000x1) broadcasts_S2000x1_S2000x512 (ix2 r k))
        * shapeCast S512x384 wi shapeCasts_S512x384_S512x384 (ix2 k n) = s (ix2 r k) * ρ (ix2 r (0 : Fin 1)) * wi (ix2 k n)
    refine congrArg₂ (· * ·) (congrArg₂ (· * ·) ?_ ?_) ?_
    · exact congrFun (shapeCast_self s shapeCasts_S2000x512_S2000x512) (ix2 r k)
    · refine (Cert.Columns.broadcastTo_a1_ab_apply _ broadcasts_S2000x1_S2000x512 r k).trans ?_
      exact congrFun (shapeCast_self ρ shapeCasts_S2000x1_S2000x1) (ix2 r (0 : Fin 1))
    · exact congrFun (shapeCast_self wi shapeCasts_S512x384_S512x384) (ix2 k n)
  · refine (broadcastTo_1b_ab_apply _ broadcasts_S1x384_S2000x384 r n).trans ?_
    exact congrFun (shapeCast_self bi shapeCasts_S1x384_S1x384) (ix2 (0 : Fin 1) n)

/-- The memory's affine map of row `r`. -/
theorem gh_apply (r : Fin 2000) (n : Fin 384) :
    k0_pay3 (F := Ideal) h wh bh (ix2 r n)
      = affine (fun k => h (ix2 r k)) (fun k n => wh (ix2 k n)) (fun n => bh (ix2 (0 : Fin 1) n)) n := by
  unfold k0_pay3 affine
  refine congrArg₂ (· + ·) ?_ ?_
  · refine (Cert.Lib.AffineLayer.matmul_zero_ix2 dot_S2000x128_S128x384_S2000x384_1_0_0_1_n_n rfl none _ _ r n).trans ?_
    refine Finset.sum_congr rfl fun k _ => ?_
    show h (ix2 r k) * shapeCast S128x384 wh shapeCasts_S128x384_S128x384 (ix2 k n) = h (ix2 r k) * wh (ix2 k n)
    exact congrArg (h (ix2 r k) * ·) (congrFun (shapeCast_self wh shapeCasts_S128x384_S128x384) (ix2 k n))
  · refine (broadcastTo_1b_ab_apply _ broadcasts_S1x384_S2000x384 r n).trans ?_
    exact congrFun (shapeCast_self bh shapeCasts_S1x384_S1x384) (ix2 (0 : Fin 1) n)

/-- A gate of width 128 cut out of a 384-wide row at column offset `o`. -/
theorem gate_apply (v : FVec Ideal S2000x384 .f32) (o : ℕ) (hs : S2000x384.Slices ![0, o] S2000x128) (r : Fin 2000) (q : Fin 128)
    (n : Fin 384) (hn : n.val = o + q.val) :
    extractStridedSlice S2000x128 ![0, o] v hs (ix2 r q) = v (ix2 r n) :=
  slice2_axis1_apply o v hs r q n hn

/-- The update gate at `(r, q)`. -/
theorem z_apply (r : Fin 2000) (q : Fin 128) :
    k0_pay4 (F := Ideal) s ρ h wi wh bi bh (ix2 r q)
      = Ideal.logistic (k0_pay2 (F := Ideal) s ρ wi bi (ix2 r ⟨128 + q.val, by omega⟩)
          + k0_pay3 (F := Ideal) h wh bh (ix2 r ⟨128 + q.val, by omega⟩)) := by
  unfold k0_pay4
  refine congrArg Ideal.logistic (congrArg₂ (· + ·) ?_ ?_)
  · exact gate_apply _ 128 slices_S2000x384_o0_128_S2000x128 r q ⟨128 + q.val, by omega⟩ rfl
  · exact gate_apply _ 128 slices_S2000x384_o0_128_S2000x128 r q ⟨128 + q.val, by omega⟩ rfl

/-- Entry `(r, q)` of the block the body stores. -/
theorem stored_apply (r : Fin 2000) (q : Fin 128) :
    k0_pay1 (F := Ideal) (k0_pay5 s ρ h wi wh bi bh) (k0_pay6 s ρ h wi wh bi bh) (ix2 r q)
      = cell (fun k => s (ix2 r k) * ρ (ix2 r (0 : Fin 1))) (fun k => h (ix2 r k)) (fun k n => wi (ix2 k n))
          (fun k n => wh (ix2 k n)) (fun n => bi (ix2 (0 : Fin 1) n)) (fun n => bh (ix2 (0 : Fin 1) n)) q := by
  unfold k0_pay1 k0_pay5 k0_pay6 cell gates
  have hz := z_apply s h ρ wi wh bi bh r q
  rw [gx_apply, gh_apply] at hz
  refine congrArg₂ (· + ·) (congrArg₂ (· * ·) (congrArg₂ (· - ·) rfl hz) (congrArg Ideal.tanh (congrArg₂ (· + ·) ?_ (congrArg₂ (· * ·) (congrArg Ideal.logistic (congrArg₂ (· + ·) ?_ ?_)) ?_)))) (congrArg₂ (· * ·) hz rfl)
  · exact (gate_apply _ 256 slices_S2000x384_o0_256_S2000x128 r q ⟨256 + q.val, by omega⟩ rfl).trans (gx_apply s ρ wi bi r _)
  · exact (gate_apply _ 0 slices_S2000x384_o0_0_S2000x128 r q ⟨q.val, by omega⟩ (by simp)).trans (gx_apply s ρ wi bi r _)
  · exact (gate_apply _ 0 slices_S2000x384_o0_0_S2000x128 r q ⟨q.val, by omega⟩ (by simp)).trans (gh_apply h wh bh r _)
  · exact (gate_apply _ 256 slices_S2000x384_o0_256_S2000x128 r q ⟨256 + q.val, by omega⟩ rfl).trans (gh_apply h wh bh r _)

end Cert.KernelIdeal.Body

end
-- ==== Proof.KValue.lean ====
/-
  The kernel's new-memory array after the run, as one function of the arrays the region reads.

  Grid point `t` writes rows `2000 t … 2000 t + 1999` of the result; the blocks it reads of the sums, the memory and
  the reciprocal counts are the same rows of those arrays, and the weights and biases are read whole at every point.  So
  what point `t` writes back is block `t` of ONE function `G` of the arrays, `G i = Spec.cell` of row `i₀`; the fifty
  blocks tile the array (row `r` lies in block `r / 2000`), hence the array ends holding `G`.
-/
import proofs.«171311_j3075196584344_2_alg».proof.Proof.KernelIdealFrame
import proofs.«171311_j3075196584344_2_alg».proof.Proof.KBody
import Idealize.ShloMosaic.Lib.Pipeline.Value

set_option maxRecDepth 16384

noncomputable section

namespace Cert.KernelIdeal.KValue

open Cert.KernelIdeal Cert.KernelIdeal.Gen Cert.KernelIdeal.Frm Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

/-- The new memory as a function of the sums, the old memory, the reciprocal counts (a column), the transposed weights and
    the bias rows: entry `i` is the gated update of row `i₀`. -/
def G (S : FVec Ideal S100000x512 .f32) (M : FVec Ideal S100000x128 .f32) (R : FVec Ideal S100000x1 .f32)
    (WI : FVec Ideal S512x384 .f32) (WH : FVec Ideal S128x384 .f32) (BI BH : FVec Ideal S1x384 .f32) :
    FVec Ideal S100000x128 .f32 := fun i =>
  cell (fun k => S (ix2 ⟨(i 0).val, idx2_lt0 i⟩ k) * R (ix2 ⟨(i 0).val, idx2_lt0 i⟩ (0 : Fin 1)))
    (fun k => M (ix2 ⟨(i 0).val, idx2_lt0 i⟩ k)) (fun k n => WI (ix2 k n)) (fun k n => WH (ix2 k n))
    (fun n => BI (ix2 (0 : Fin 1) n)) (fun n => BH (ix2 (0 : Fin 1) n)) ⟨(i 1).val, idx2_lt1 i⟩

/-- `G` at an index whose coordinates are `p` and `q`. -/
theorem G_at (S : FVec Ideal S100000x512 .f32) (M : FVec Ideal S100000x128 .f32) (R : FVec Ideal S100000x1 .f32)
    (WI : FVec Ideal S512x384 .f32) (WH : FVec Ideal S128x384 .f32) (BI BH : FVec Ideal S1x384 .f32)
    (p : Fin 100000) (q : Fin 128) (i : S100000x128.Idx) (h0 : (i 0).val = p.val) (h1 : (i 1).val = q.val) :
    G S M R WI WH BI BH i
      = cell (fun k => S (ix2 p k) * R (ix2 p (0 : Fin 1))) (fun k => M (ix2 p k)) (fun k n => WI (ix2 k n))
          (fun k n => WH (ix2 k n)) (fun n => BI (ix2 (0 : Fin 1) n)) (fun n => BH (ix2 (0 : Fin 1) n)) q := by
  obtain rfl : i = ix2 p q := funext fun a => by
    match a with
    | ⟨0, _⟩ => exact Fin.ext h0
    | ⟨1, _⟩ => exact Fin.ext h1
  rfl

theorem hz : (![0, 0] : Fin 2 → Nat) = fun _ => 0 := funext fun a => by fin_cases a <;> rfl

/-- The arrays the region reads, as the region finds them: the message sums, the memory, the reciprocal counts (a column),
    the transposed weights, the bias rows. -/
def aS (c : Dev nD) : FVec Ideal S100000x512 .f32 := V m c main_v72
def aM (c : Dev nD) : FVec Ideal S100000x128 .f32 := V m c main_arg0
def aR (c : Dev nD) : FVec Ideal S100000x1 .f32 := V m c main_v85
def aWI (c : Dev nD) : FVec Ideal S512x384 .f32 := V m c main_v86
def aWH (c : Dev nD) : FVec Ideal S128x384 .f32 := V m c main_v87
def aBI (c : Dev nD) : FVec Ideal S1x384 .f32 := V m c main_v88
def aBH (c : Dev nD) : FVec Ideal S1x384 .f32 := V m c main_v89

/-- The printed index maps over the grid: the three row-blocked inputs move with the output, the whole-array inputs and
    every column index stay at block zero. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (1 : Fin 2) = 0 ∧ win0_7.index t (0 : Fin 2) < 50 :=
  (by decide +kernel : ∀ t : Fin grid0.N, _)

/-- Every block of rows is some point's. -/
theorem idx_onto : ∀ q0 : Fin 50, ∃ t : Fin cfg0.N, win0_7.index t = ![q0.val, 0] :=
  (by decide +kernel : ∀ q0 : Fin 50, ∃ t : Fin grid0.N, win0_7.index t = ![q0.val, 0])

/-- The first array row of point `t`'s block plus `r`. -/
def row (t : Fin cfg0.N) (r : Fin 2000) : Fin 100000 :=
  ⟨win0_7.index t (0 : Fin 2) * 2000 + r.val, by have := (idx_facts t).2.2.2.2.2.2.2.2.2.2.2.2.2.2.2; omega⟩

/-! Each input block at point `t`, read at block coordinates, is its array at the corresponding array coordinates. -/

theorem read0 (c : Dev nD) (t : Fin cfg0.N) (r : Fin 2000) (k : Fin 512) :
    iblk m c 0 t (ix2 r k) = aS m c (ix2 (row t r) k) := by
  obtain ⟨e00, e01, -⟩ := idx_facts t
  show V m c main_v72 (((cfg0.win 0).blk t).view.emb (ix2 r k)) = V m c main_v72 _
  refine congrArg (V m c main_v72) (funext fun a => Fin.ext ?_)
  match a with
  | ⟨0, _⟩ => show win0_0.index t (0 : Fin 2) * 2000 + 1 * r.val = win0_7.index t (0 : Fin 2) * 2000 + r.val; omega
  | ⟨1, _⟩ => show win0_0.index t (1 : Fin 2) * 512 + 1 * k.val = k.val; omega

theorem read1 (c : Dev nD) (t : Fin cfg0.N) (r : Fin 2000) (k : Fin 128) :
    iblk m c 1 t (ix2 r k) = aM m c (ix2 (row t r) k) := by
  obtain ⟨-, -, e10, e11, -⟩ := idx_facts t
  show V m c main_arg0 (((cfg0.win 1).blk t).view.emb (ix2 r k)) = V m c main_arg0 _
  refine congrArg (V m c main_arg0) (funext fun a => Fin.ext ?_)
  match a with
  | ⟨0, _⟩ => show win0_1.index t (0 : Fin 2) * 2000 + 1 * r.val = win0_7.index t (0 : Fin 2) * 2000 + r.val; omega
  | ⟨1, _⟩ => show win0_1.index t (1 : Fin 2) * 128 + 1 * k.val = k.val; omega

theorem read2 (c : Dev nD) (t : Fin cfg0.N) (r : Fin 2000) :
    iblk m c 2 t (ix2 r (0 : Fin 1)) = aR m c (ix2 (row t r) (0 : Fin 1)) := by
  obtain ⟨-, -, -, -, e20, e21, -⟩ := idx_facts t
  show V m c main_v85 (((cfg0.win 2).blk t).view.emb (ix2 r (0 : Fin 1))) = V m c main_v85 _
  refine congrArg (V m c main_v85) (funext fun a => Fin.ext ?_)
  match a with
  | ⟨0, _⟩ => show win0_2.index t (0 : Fin 2) * 2000 + 1 * r.val = win0_7.index t (0 : Fin 2) * 2000 + r.val; omega
  | ⟨1, _⟩ => show win0_2.index t (1 : Fin 2) * 1 + 1 * 0 = 0; omega

theorem read3 (c : Dev nD) (t : Fin cfg0.N) (k : Fin 512) (n : Fin 384) :
    iblk m c 3 t (ix2 k n) = aWI m c (ix2 k n) := by
  obtain ⟨-, -, -, -, -, -, e30, e31, -⟩ := idx_facts t
  show V m c main_v86 (((cfg0.win 3).blk t).view.emb (ix2 k n)) = V m c main_v86 _
  refine congrArg (V m c main_v86) (funext fun a => Fin.ext ?_)
  match a with
  | ⟨0, _⟩ => show win0_3.index t (0 : Fin 2) * 512 + 1 * k.val = k.val; omega
  | ⟨1, _⟩ => show win0_3.index t (1 : Fin 2) * 384 + 1 * n.val = n.val; omega

theorem read4 (c : Dev nD) (t : Fin cfg0.N) (k : Fin 128) (n : Fin 384) :
    iblk m c 4 t (ix2 k n) = aWH m c (ix2 k n) := by
  obtain ⟨-, -, -, -, -, -, -, -, e40, e41, -⟩ := idx_facts t
  show V m c main_v87 (((cfg0.win 4).blk t).view.emb (ix2 k n)) = V m c main_v87 _
  refine congrArg (V m c main_v87) (funext fun a => Fin.ext ?_)
  match a with
  | ⟨0, _⟩ => show win0_4.index t (0 : Fin 2) * 128 + 1 * k.val = k.val; omega
  | ⟨1, _⟩ => show win0_4.index t (1 : Fin 2) * 384 + 1 * n.val = n.val; omega

theorem read5 (c : Dev nD) (t : Fin cfg0.N) (n : Fin 384) :
    iblk m c 5 t (ix2 (0 : Fin 1) n) = aBI m c (ix2 (0 : Fin 1) n) := by
  obtain ⟨-, -, -, -, -, -, -, -, -, -, e50, e51, -⟩ := idx_facts t
  show V m c main_v88 (((cfg0.win 5).blk t).view.emb (ix2 (0 : Fin 1) n)) = V m c main_v88 _
  refine congrArg (V m c main_v88) (funext fun a => Fin.ext ?_)
  match a with
  | ⟨0, _⟩ => show win0_5.index t (0 : Fin 2) * 1 + 1 * 0 = 0; omega
  | ⟨1, _⟩ => show win0_5.index t (1 : Fin 2) * 384 + 1 * n.val = n.val; omega

theorem read6 (c : Dev nD) (t : Fin cfg0.N) (n : Fin 384) :
    iblk m c 6 t (ix2 (0 : Fin 1) n) = aBH m c (ix2 (0 : Fin 1) n) := by
  obtain ⟨-, -, -, -, -, -, -, -, -, -, -, -, e60, e61, -⟩ := idx_facts t
  show V m c main_v89 (((cfg0.win 6).blk t).view.emb (ix2 (0 : Fin 1) n)) = V m c main_v89 _
  refine congrArg (V m c main_v89) (funext fun a => Fin.ext ?_)
  match a with
  | ⟨0, _⟩ => show win0_6.index t (0 : Fin 2) * 1 + 1 * 0 = 0; omega
  | ⟨1, _⟩ => show win0_6.index t (1 : Fin 2) * 384 + 1 * n.val = n.val; omega

/-- The body's stored block over the seven blocks of point `t`, at block coordinates `(r, q)`. -/
theorem out_apply (c : Dev nD) (t : Fin cfg0.N) (r : Fin 2000) (q : Fin 128) :
    out7 (iblk m c 0 t) (iblk m c 1 t) (iblk m c 2 t) (iblk m c 3 t) (iblk m c 4 t) (iblk m c 5 t) (iblk m c 6 t) (ix2 r q)
      = cell (fun k => aS m c (ix2 (row t r) k) * aR m c (ix2 (row t r) (0 : Fin 1)))
          (fun k => aM m c (ix2 (row t r) k)) (fun k n => aWI m c (ix2 k n)) (fun k n => aWH m c (ix2 k n))
          (fun n => aBI m c (ix2 (0 : Fin 1) n)) (fun n => aBH m c (ix2 (0 : Fin 1) n)) q := by
  unfold out7
  rw [View.canon_unit_zero hz]
  simp only [View.ld_unit_zero (S := S2000x512) hz, View.ld_unit_zero (S := S2000x128) hz, View.ld_unit_zero (S := S2000x1) hz,
    View.ld_unit_zero (S := S512x384) hz, View.ld_unit_zero (S := S128x384) hz, View.ld_unit_zero (S := S1x384) hz]
  refine (Cert.KernelIdeal.Body.stored_apply _ _ _ _ _ _ _ r q).trans ?_
  exact cell_congr (fun k => congrArg₂ (· * ·) (read0 m c t r k) (read2 m c t r)) (fun k => read1 m c t r k)
    (fun k n => read3 m c t k n) (fun k n => read4 m c t k n) (fun n => read5 m c t n) (fun n => read6 m c t n) rfl

/-- WHAT POINT `t` WRITES BACK is block `t` of `G` of the arrays as the region finds them. -/
theorem flushed_eq (c : Dev nD) (t : Fin cfg0.N) :
    (dats m 0 c).flushed 7 t = ((cfg0.win 7).blk t).view.read (Elt Ideal)
      (G (aS m c) (aM m c) (aR m c) (aWI m c) (aWH m c) (aBI m c) (aBH m c)) := by
  show (cfg0.win 7).cut (grid0.coords t) ((dats m 0 c).after 7 t) = _
  rw [after7]
  have e71 := (idx_facts t).2.2.2.2.2.2.2.2.2.2.2.2.2.2.1
  funext j
  obtain ⟨r, q, rfl⟩ : ∃ (r : Fin 2000) (q : Fin 128), j = ix2 r q := ⟨j 0, j 1, eq_ix2 j⟩
  refine (out_apply m c t r q).trans (Eq.symm ?_)
  refine G_at _ _ _ _ _ _ _ (row t r) q _ ?_ ?_
  · show win0_7.index t (0 : Fin 2) * 2000 + 1 * r.val = win0_7.index t (0 : Fin 2) * 2000 + r.val; omega
  · show win0_7.index t (1 : Fin 2) * 128 + 1 * q.val = q.val; omega

/-- An index of the array is in point `t`'s block iff each coordinate is in the block's range on its axis. -/
theorem mem_blk (t : Fin cfg0.N) (i : S100000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v90).slice (win0_7.rect t)).set ↔ _
  rw [View.set_slice_whole, Rect.mem_set_unit]
  exact Iff.rfl

/-- The blocks tile the array: row `r` lies in the block of point `r / 2000`. -/
theorem cover (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  obtain ⟨t, ht⟩ := idx_onto ⟨(i 0).val / 2000, by omega⟩
  have q0 : win0_7.index t (0 : Fin 2) = (i 0).val / 2000 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 128 ≤ (i 1).val ∧ (i 1).val < win0_7.index t (1 : Fin 2) * 128 + 128; omega

/-- THE ARRAY after the run is `G` of the arrays as the region finds them. -/
theorem final (c : Dev nD) : (dats m 0 c).arrAt 7 cfg0.N
    = G (aS m c) (aM m c) (aR m c) (aWI m c) (aWH m c) (aBI m c) (aBH m c) :=
  (dats m 0 c).arrAt_eq_of_cover 7 _ (fun t _ => flushed_eq m c t) cover

end Cert.KernelIdeal.KValue

end
-- ==== Proof.KHost.lean ====
/-
  What the host lines before the kernel's region leave in the arrays the region reads, as terms of the arguments.

  The message matrices (source-keyed and destination-keyed: two gathered memory rows, the raw message and the cosine time
  encoding, joined along the columns) are the same operations in both programs, so they are named by the reference's
  own stage terms and never opened.  The sums are the two scatters added; the reciprocal counts are one over the larger
  of the count and one, as a column; the weights are transposed; the biases are one row each.
-/
import proofs.«171311_j3075196584344_2_alg».proof.Proof.Gen.KernelIdeal.Launch
import proofs.«171311_j3075196584344_2_alg».proof.Proof.Gen.ReferenceIdeal.Read
import Idealize.ShloMosaic.Lib.StableHlo.Run

set_option maxRecDepth 16384

noncomputable section

namespace Cert.KernelIdeal.HostSide

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (c : Dev nD)

/-- A buffer of core `c` when the region is entered. -/
abbrev entry (b : Ref sig .tc) : Buf (Elt Ideal) ((c : Thread nD τ).loc b) :=
  StableHlo.after (hostOps0 (F := Ideal)) (fun b => m (c, b)) (Proc.devRef .tc b)

/-- The argument arrays as launched. -/
abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)
abbrev a6 := m ((c.tc : Thread nD τ).loc main_arg6)
abbrev a7 := m ((c.tc : Thread nD τ).loc main_arg7)
abbrev a8 := m ((c.tc : Thread nD τ).loc main_arg8)
abbrev a9 := m ((c.tc : Thread nD τ).loc main_arg9)
abbrev a10 := m ((c.tc : Thread nD τ).loc main_arg10)
abbrev a11 := m ((c.tc : Thread nD τ).loc main_arg11)

/-- The source-keyed message matrix. -/
abbrev msgS : FVec Ideal S100000x512 .f32 :=
  Cert.ReferenceIdeal.Read.val_main_v32 (F := Ideal) (a0 m c) (a1 m c) (a2 m c) (a3 m c) (a4 m c) (a5 m c) (a6 m c) (a7 m c)
/-- The destination-keyed message matrix. -/
abbrev msgD : FVec Ideal S100000x512 .f32 :=
  Cert.ReferenceIdeal.Read.val_main_v65 (F := Ideal) (a0 m c) (a1 m c) (a2 m c) (a3 m c) (a4 m c) (a5 m c) (a6 m c) (a7 m c)

/-- The zero matrix the sums start from, the zero and one vectors of the counts. -/
abbrev zero2 : FVec Ideal S100000x512 .f32 := broadcastInDim S100000x512 ![] bcast_S_S100000x512 (constant S_ .f32 0x00000000#32)
abbrev zero1 : FVec Ideal S100000 .f32 := broadcastInDim S100000 ![] bcast_S_S100000 (constant S_ .f32 0x00000000#32)
abbrev ones1 : FVec Ideal S100000 .f32 := broadcastInDim S100000 ![] bcast_S_S100000 (constant S_ .f32 0x3F800000#32)
/-- An index vector as the one-column index matrix a scatter reads. -/
abbrev col (x : IVec S100000 32) : IVec S100000x1 32 := broadcastInDim S100000x1 ![0] bcast_S100000_S100000x1_0 x

/-- The message sums: the two scatters added. -/
def sums : FVec Ideal S100000x512 .f32 :=
  addf (Host.scatterAdd scatter_S100000x512_S100000x1_S100000x512_1_0_0_1 zero2 (col (a2 m c)) (msgS m c))
       (Host.scatterAdd scatter_S100000x512_S100000x1_S100000x512_1_0_0_1 zero2 (col (a3 m c)) (msgD m c))

/-- The message counts: the two scatters of ones added. -/
def counts : FVec Ideal S100000 .f32 :=
  addf (Host.scatterAdd scatter_S100000_S100000x1_S100000_n_0_0_1 zero1 (col (a2 m c)) ones1)
       (Host.scatterAdd scatter_S100000_S100000x1_S100000_n_0_0_1 zero1 (col (a3 m c)) ones1)

/-- One over the larger of the count and one. -/
def recip : FVec Ideal S100000 .f32 := Host.divf ones1 (maximumf (counts m c) ones1)

theorem entry_sums : entry m c main_v72 = sums m c := by
  unfold sums
  dsimp only [entry, hostOps0]
  after_results_simp
  rfl

theorem entry_recip : entry m c main_v85 = shapeCast S100000x1 (recip m c) shapeCasts_S100000_S100000x1 := by
  unfold recip counts
  dsimp only [entry, hostOps0]
  after_results_simp
  rfl

theorem entry_wi : entry m c main_v86 = transpose S512x384 [1, 0] (a8 m c) transposes_S384x512_S512x384_1_0 := by
  dsimp only [entry, hostOps0]
  after_results_simp

theorem entry_wh : entry m c main_v87 = transpose S128x384 [1, 0] (a9 m c) transposes_S384x128_S128x384_1_0 := by
  dsimp only [entry, hostOps0]
  after_results_simp

theorem entry_bi : entry m c main_v88 = shapeCast S1x384 (a10 m c) shapeCasts_S384_S1x384 := by
  dsimp only [entry, hostOps0]
  after_results_simp
  rfl

theorem entry_bh : entry m c main_v89 = shapeCast S1x384 (a11 m c) shapeCasts_S384_S1x384 := by
  dsimp only [entry, hostOps0]
  after_results_simp
  rfl

theorem entry_mem : entry m c main_arg0 = a0 m c := by
  dsimp only [entry, hostOps0]
  after_results_simp

end Cert.KernelIdeal.HostSide

end
-- ==== Proof.RefRead.lean ====
/-
  The reference's new memory, entry by entry, at the ideal values.

  Row `p` of the reference's aggregated message is the row of message sums divided by the larger of the row's count and
  one; the two affine maps are host matrix products against the transposed weights plus the bias broadcast over the rows;
  the gates are column slices; the logistic function is written out as `1 / (1 + e^(-x))`.  Entry `(p, q)` is therefore
  `Spec.cell` of row `p` of the quotient and row `p` of the memory.
-/
import proofs.«171311_j3075196584344_2_alg».proof.Proof.Gen.ReferenceIdeal.Read
import proofs.«171311_j3075196584344_2_alg».proof.Proof.Spec
import Idealize.ShloMosaic.Lib.IdealHost

set_option maxRecDepth 16384

noncomputable section

namespace Cert.ReferenceIdeal.RefRead

open Idealize.ShloMosaic Idealize.ShloMosaic.ValueIdx Cert.ReferenceIdeal Cert.ReferenceIdeal.Gen Cert.ReferenceIdeal.Read Cert.Spec

variable (x0 : FVec Ideal S100000x128 .f32) (x1 x2 x3 x4 : IVec S100000 32) (x5 : FVec Ideal S100000x128 .f32)
  (x6 x7 : FVec Ideal S128 .f32) (x8 : FVec Ideal S384x512 .f32) (x9 : FVec Ideal S384x128 .f32) (x10 x11 : FVec Ideal S384 .f32)

/-- The divisor of row `p`: the larger of the row's message count and one. -/
def divisor (p : Fin 100000) : EReal := max (val_main_v75 (F := Ideal) x2 x3 (ix1 p)) one

/-- Row `p` of the aggregated message: the sums over the divisor. -/
def aggr (p : Fin 100000) (k : Fin 512) : EReal :=
  Ideal.div (val_main_v71 (F := Ideal) x0 x1 x2 x3 x4 x5 x6 x7 (ix2 p k)) (divisor x2 x3 p)

theorem aggr_apply (p : Fin 100000) (k : Fin 512) :
    val_main_v80 (F := Ideal) x0 x1 x2 x3 x4 x5 x6 x7 (ix2 p k) = aggr x0 x1 x2 x3 x4 x5 x6 x7 p k := by
  unfold aggr divisor
  refine (val_main_v80_apply (F := Ideal) x0 x1 x2 x3 x4 x5 x6 x7 (ix2 p k)).trans ?_
  refine congrArg (Ideal.div _) ?_
  refine (val_main_v79_apply (F := Ideal) x2 x3 (ix2 p k)).trans ?_
  refine (val_main_v78_apply (F := Ideal) x2 x3 _).trans ?_
  refine (val_main_v77_apply (F := Ideal) x2 x3 _).trans ?_
  refine congrArg₂ max (congrArg (val_main_v75 (F := Ideal) x2 x3) ?_) ?_
  · funext a; match a with | ⟨0, _⟩ => rfl
  · exact (val_main_v76_apply (F := Ideal) _).trans rfl

/-- The input affine map of row `p`. -/
theorem gx_apply (p : Fin 100000) (n : Fin 384) :
    val_main_v85 (F := Ideal) x0 x1 x2 x3 x4 x5 x6 x7 x8 x10 (ix2 p n)
      = affine (aggr x0 x1 x2 x3 x4 x5 x6 x7 p) (fun k n => x8 (ix2 n k)) (fun n => x10 (ix1 n)) n := by
  unfold affine
  refine (val_main_v85_apply (F := Ideal) x0 x1 x2 x3 x4 x5 x6 x7 x8 x10 (ix2 p n)).trans ?_
  refine congrArg₂ (· + ·) ?_ ?_
  · refine (val_main_v82_apply x0 x1 x2 x3 x4 x5 x6 x7 x8 (ix2 p n)).trans ?_
    refine Finset.sum_congr rfl fun k _ => congrArg₂ (· * ·) ?_ ?_
    · refine Eq.trans (congrArg (val_main_v80 (F := Ideal) x0 x1 x2 x3 x4 x5 x6 x7) ?_) (aggr_apply x0 x1 x2 x3 x4 x5 x6 x7 p k)
      funext a; match a with | ⟨0, _⟩ => rfl | ⟨1, _⟩ => rfl
    · refine (val_main_v81_apply (F := Ideal) x8 _).trans (congrArg x8 ?_)
      funext a; match a with | ⟨0, _⟩ => rfl | ⟨1, _⟩ => rfl
  · refine (val_main_v84_apply (F := Ideal) x10 (ix2 p n)).trans ?_
    refine (val_main_v83_apply (F := Ideal) x10 _).trans (congrArg x10 ?_)
    funext a; match a with | ⟨0, _⟩ => rfl

/-- The memory's affine map of row `p`. -/
theorem gh_apply (p : Fin 100000) (n : Fin 384) :
    val_main_v90 (F := Ideal) x0 x9 x11 (ix2 p n)
      = affine (fun k => x0 (ix2 p k)) (fun k n => x9 (ix2 n k)) (fun n => x11 (ix1 n)) n := by
  unfold affine
  refine (val_main_v90_apply (F := Ideal) x0 x9 x11 (ix2 p n)).trans ?_
  refine congrArg₂ (· + ·) ?_ ?_
  · refine (val_main_v87_apply x0 x9 (ix2 p n)).trans ?_
    refine Finset.sum_congr rfl fun k _ => congrArg₂ (· * ·) (congrArg x0 ?_) ?_
    · funext a; match a with | ⟨0, _⟩ => rfl | ⟨1, _⟩ => rfl
    · refine (val_main_v86_apply (F := Ideal) x9 _).trans (congrArg x9 ?_)
      funext a; match a with | ⟨0, _⟩ => rfl | ⟨1, _⟩ => rfl
  · refine (val_main_v89_apply (F := Ideal) x11 (ix2 p n)).trans ?_
    refine (val_main_v88_apply (F := Ideal) x11 _).trans (congrArg x11 ?_)
    funext a; match a with | ⟨0, _⟩ => rfl

/-- The logistic function as the reference writes it. -/
theorem logistic_spelt (x : EReal) : Ideal.div one (one + Ideal.exp (-x)) = Ideal.logistic x := by
  show Ideal.div (Ideal.ofBits .f32 0x3F800000#32) (Ideal.ofBits .f32 0x3F800000#32 + Ideal.exp (-x)) = _
  rw [Ideal.ofBits_one_f32]
  rfl

/-- Entry `(p, q)` of the reference's new memory. -/
theorem result_apply (p : Fin 100000) (q : Fin 128) :
    val_main_v118 (F := Ideal) x0 x1 x2 x3 x4 x5 x6 x7 x8 x9 x10 x11 (ix2 p q)
      = cell (aggr x0 x1 x2 x3 x4 x5 x6 x7 p) (fun k => x0 (ix2 p k)) (fun k n => x8 (ix2 n k)) (fun k n => x9 (ix2 n k))
          (fun n => x10 (ix1 n)) (fun n => x11 (ix1 n)) q := by
  -- the three gates' columns
  have e0 : idx_main_v91 (ix2 p q) = ix2 p (⟨q.val, by omega⟩ : Fin 384) := by
    funext a; match a with | ⟨0, _⟩ => rfl | ⟨1, _⟩ => rfl
  have e1 : idx_main_v92 (ix2 p q) = ix2 p (⟨128 + q.val, by omega⟩ : Fin 384) := by
    funext a; match a with | ⟨0, _⟩ => rfl | ⟨1, _⟩ => rfl
  have e2 : idx_main_v93 (ix2 p q) = ix2 p (⟨256 + q.val, by omega⟩ : Fin 384) := by
    funext a; match a with | ⟨0, _⟩ => rfl | ⟨1, _⟩ => rfl
  have f0 : idx_main_v94 (ix2 p q) = ix2 p (⟨q.val, by omega⟩ : Fin 384) := e0
  have f1 : idx_main_v95 (ix2 p q) = ix2 p (⟨128 + q.val, by omega⟩ : Fin 384) := e1
  have f2 : idx_main_v96 (ix2 p q) = ix2 p (⟨256 + q.val, by omega⟩ : Fin 384) := e2
  -- the reset and update gates
  have hr : val_main_v103 (F := Ideal) x0 x1 x2 x3 x4 x5 x6 x7 x8 x9 x10 x11 (ix2 p q)
      = Ideal.logistic (affine (aggr x0 x1 x2 x3 x4 x5 x6 x7 p) (fun k n => x8 (ix2 n k)) (fun n => x10 (ix1 n)) ⟨q.val, by omega⟩
          + affine (fun k => x0 (ix2 p k)) (fun k n => x9 (ix2 n k)) (fun n => x11 (ix1 n)) ⟨q.val, by omega⟩) := by
    rw [val_main_v103_apply, val_main_v102_apply, val_main_cst_15_apply, val_main_v101_apply, val_main_v100_apply,
      val_main_cst_14_apply, val_main_v99_apply, val_main_v98_apply, val_main_v97_apply, val_main_v91_apply, val_main_v94_apply,
      e0, f0, gx_apply, gh_apply]
    simp only [Ideal.hostDivf_def, Ideal.addf_def, Ideal.hostUnary_exp_def, Ideal.hostNegf_def, Ideal.negf_def, Ideal.ofBits_def]
    exact logistic_spelt _
  have hz : val_main_v110 (F := Ideal) x0 x1 x2 x3 x4 x5 x6 x7 x8 x9 x10 x11 (ix2 p q)
      = Ideal.logistic (affine (aggr x0 x1 x2 x3 x4 x5 x6 x7 p) (fun k n => x8 (ix2 n k)) (fun n => x10 (ix1 n)) ⟨128 + q.val, by omega⟩
          + affine (fun k => x0 (ix2 p k)) (fun k n => x9 (ix2 n k)) (fun n => x11 (ix1 n)) ⟨128 + q.val, by omega⟩) := by
    rw [val_main_v110_apply, val_main_v109_apply, val_main_cst_17_apply, val_main_v108_apply, val_main_v107_apply,
      val_main_cst_16_apply, val_main_v106_apply, val_main_v105_apply, val_main_v104_apply, val_main_v92_apply, val_main_v95_apply,
      e1, f1, gx_apply, gh_apply]
    simp only [Ideal.hostDivf_def, Ideal.addf_def, Ideal.hostUnary_exp_def, Ideal.hostNegf_def, Ideal.negf_def, Ideal.ofBits_def]
    exact logistic_spelt _
  unfold cell gates
  rw [val_main_v118_apply, val_main_v116_apply, val_main_v117_apply, val_main_v115_apply, val_main_v114_apply, val_main_cst_18_apply,
    val_main_v113_apply, val_main_v112_apply, val_main_v111_apply, val_main_v93_apply, val_main_v96_apply, hz, hr, e2, f2,
    gx_apply, gh_apply]
  simp only [Ideal.addf_def, Ideal.mulf_def, Ideal.subf_def, Ideal.hostUnary_tanh_def, Ideal.ofBits_def]

end Cert.ReferenceIdeal.RefRead

end
-- ==== Proof.LibScatterSplit.lean ====
/-
  A scatter along rows whose index and update arrays are two pieces laid end to end equals the two pieces' scatters combined
  (general lemmas: any extents, any index width; no program imported).

  The setting is the indexed accumulation `x[idx[r]] ← f (x[idx[r]]) (u[r])` over the update rows `r`: the operand's leading axis
  is indexed by one signed integer per update row, read off an `[e, 1]` index array; update row `r` goes to operand row `idx[r, 0]`
  when that number lies in `[0, n)` and is dropped otherwise (`target`). The two shapes treated are an `[n, c]` operand with
  `[e, c]` updates (`rowDims`) and an `[n]` operand with `[e]` updates (`eltDims`); `rowDims_resultIdx?` and
  `eltDims_resultIdx?` compute where an update element lands.

  For the exact sum (the float scatter-add read at the extended reals) the value at an operand element is the operand's
  element plus the sum of the update elements that land on it; when the update rows are `e = e₁ + e₂` rows, the first `e₁`
  agreeing with one pair of index / update arrays and the last `e₂` with another, the sum over the landing set splits into
  the two pieces' sums (`scatterAdd_rows_split`, `scatterAdd_elts_split`). A scatter-add of the constant 1 counts the
  landing updates, so it is a natural number (`scatterAdd_elts_ones_nat`).

  For a scatter by an associative operation `f` (a left fold of "replace the target by `f old update`" over the update rows in
  order) the fold over `e₁ + e₂` rows is the fold over the last `e₂` started from the fold over the first `e₁`; and a fold
  started from `y` is `f (y p)` of the fold started from `x` at every element `p` as soon as `f (y p) (x p) = y p`
  (`foldl_step_assoc`). With `x` constantly a right identity of `f` this gives `scatter_elts_split`; the signed maximum with
  the least integer is the instance `scatter_elts_maxsi_split`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.ScatterSplit

open Idealize.ShloMosaic Idealize.ShloMosaic.ValueIdx

/-! ## Where an update row lands -/

/-- The operand row a start index names: the word read as a signed integer when that lies in `[0, n)`, nothing otherwise
    (the update is dropped; the index is not clamped). -/
def target {w : Nat} (n : Nat) (v : BitVec w) : Option (Fin n) :=
  if h : 0 ≤ v.toInt ∧ v.toInt < (n : Int) then some ⟨v.toInt.toNat, by omega⟩ else none

/-- The dimension numbers of a row scatter: operand `[n, c]`, indices `[e, 1]`, updates `[e, c]`; update window axis 1,
    inserted window axis 0, the one index component naming operand axis 0, the index vector on axis 1. -/
abbrev rowDims (n c e : Nat) (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

/-- The dimension numbers of an element scatter: operand `[n]`, indices `[e, 1]`, updates `[e]`; no window axis, the
    operand's one axis inserted and named by the one index component, the index vector on axis 1. -/
abbrev eltDims (n e : Nat) (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

section Land
variable {n c e w : Nat}

theorem rowDims_start0 (wf) (j : (⟨2, ![e, c]⟩ : Shape).Idx) (idx : IVec ⟨2, ![e, 1]⟩ w) :
    (rowDims n c e wf).start j idx 0 = (idx (ix2 (j 0) 0)).toInt := by
  unfold ScatterDims.start
  rw [dif_pos (show (0 : Fin 2) ∈ (rowDims n c e wf).scatterDimsToOperandDims from List.mem_singleton.mpr rfl)]
  have hsi : (rowDims n c e wf).siIdx j ⟨List.idxOf (0 : Fin 2) (rowDims n c e wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem rowDims_start1 (wf) (j : (⟨2, ![e, c]⟩ : Shape).Idx) (idx : IVec ⟨2, ![e, 1]⟩ w) :
    (rowDims n c e wf).start j idx 1 = 0 := by
  unfold ScatterDims.start
  rw [dif_neg (show (1 : Fin 2) ∉ ([0] : List (Fin 2)) by decide)]

theorem rowDims_window0 (wf) (j : (⟨2, ![e, c]⟩ : Shape).Idx) :
    (rowDims n c e wf).window j 0 = 0 := by
  unfold ScatterDims.window
  have h : (0 : Fin 2) ∉ (rowDims n c e wf).sKept := by
    show (0 : Fin 2) ∉ (List.finRange 2).filter (· ∉ ([0] : List (Fin 2)))
    decide
  rw [dif_neg h]

theorem rowDims_window1 (wf) (j : (⟨2, ![e, c]⟩ : Shape).Idx) :
    (rowDims n c e wf).window j 1 = (j 1).val := by
  unfold ScatterDims.window
  have h : (1 : Fin 2) ∈ (rowDims n c e wf).sKept := by
    show (1 : Fin 2) ∈ (List.finRange 2).filter (· ∉ ([0] : List (Fin 2)))
    decide
  rw [dif_pos h]
  rfl

/-- A row scatter's update element `(r, k)` lands at `(idx[r, 0], k)` when the start index names a row, nowhere otherwise. -/
theorem rowDims_resultIdx? (wf) (j : (⟨2, ![e, c]⟩ : Shape).Idx) (idx : IVec ⟨2, ![e, 1]⟩ w) :
    (rowDims n c e wf).resultIdx? j idx = (target n (idx (ix2 (j 0) 0))).map fun r => ix2 r (j 1) := by
  unfold ScatterDims.resultIdx? target
  by_cases h : 0 ≤ (idx (ix2 (j 0) 0)).toInt ∧ (idx (ix2 (j 0) 0)).toInt < (n : Int)
  · have H : ∀ a : Fin 2, 0 ≤ (rowDims n c e wf).start j idx a + ((rowDims n c e wf).window j a : Int) ∧
        (rowDims n c e wf).start j idx a + ((rowDims n c e wf).window j a : Int) < ((⟨2, ![n, c]⟩ : Shape).size a : Int) := by
      refine Fin.forall_fin_two.2 ⟨?_, ?_⟩
      · rw [rowDims_start0, rowDims_window0]
        show 0 ≤ _ + ((0 : Nat) : Int) ∧ _ + ((0 : Nat) : Int) < (n : Int)
        omega
      · rw [rowDims_start1, rowDims_window1]
        have := (j 1).isLt
        show 0 ≤ (0 : Int) + ((j 1).val : Int) ∧ (0 : Int) + ((j 1).val : Int) < (c : Int)
        have : (j 1).val < c := this
        omega
    rw [dif_pos H, dif_pos h, Option.map_some]
    refine congrArg some (funext fun a => Fin.ext ?_)
    revert a
    refine Fin.forall_fin_two.2 ⟨?_, ?_⟩
    · show ((rowDims n c e wf).start j idx 0 + ((rowDims n c e wf).window j 0 : Int)).toNat = _
      rw [rowDims_start0, rowDims_window0]
      show ((idx (ix2 (j 0) 0)).toInt + ((0 : Nat) : Int)).toNat = (idx (ix2 (j 0) 0)).toInt.toNat
      simp
    · show ((rowDims n c e wf).start j idx 1 + ((rowDims n c e wf).window j 1 : Int)).toNat = _
      rw [rowDims_start1, rowDims_window1]
      show ((0 : Int) + ((j 1).val : Int)).toNat = (j 1).val
      simp
  · have H : ¬ ∀ a : Fin 2, 0 ≤ (rowDims n c e wf).start j idx a + ((rowDims n c e wf).window j a : Int) ∧
        (rowDims n c e wf).start j idx a + ((rowDims n c e wf).window j a : Int) < ((⟨2, ![n, c]⟩ : Shape).size a : Int) := by
      intro H
      have H0 := H 0
      rw [rowDims_start0, rowDims_window0] at H0
      apply h
      have H0' : 0 ≤ (idx (ix2 (j 0) 0)).toInt + ((0 : Nat) : Int) ∧ (idx (ix2 (j 0) 0)).toInt + ((0 : Nat) : Int) < (n : Int) := H0
      omega
    rw [dif_neg H, dif_neg h]
    rfl

end Land

section LandElt
variable {n e w : Nat}

theorem eltDims_start0 (wf) (j : (⟨1, ![e]⟩ : Shape).Idx) (idx : IVec ⟨2, ![e, 1]⟩ w) :
    (eltDims n e wf).start j idx 0 = (idx (ix2 (j 0) 0)).toInt := by
  unfold ScatterDims.start
  rw [dif_pos (show (0 : Fin 1) ∈ (eltDims n e wf).scatterDimsToOperandDims from List.mem_singleton.mpr rfl)]
  have hsi : (eltDims n e wf).siIdx j ⟨List.idxOf (0 : Fin 1) (eltDims n e wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem eltDims_window0 (wf) (j : (⟨1, ![e]⟩ : Shape).Idx) :
    (eltDims n e wf).window j 0 = 0 := by
  unfold ScatterDims.window
  have h : (0 : Fin 1) ∉ (eltDims n e wf).sKept := by
    show (0 : Fin 1) ∉ (List.finRange 1).filter (· ∉ ([0] : List (Fin 1)))
    decide
  rw [dif_neg h]

/-- An element scatter's update element `r` lands at `idx[r, 0]` when the start index names an element, nowhere otherwise. -/
theorem eltDims_resultIdx? (wf) (j : (⟨1, ![e]⟩ : Shape).Idx) (idx : IVec ⟨2, ![e, 1]⟩ w) :
    (eltDims n e wf).resultIdx? j idx = (target n (idx (ix2 (j 0) 0))).map fun r => ix1 r := by
  unfold ScatterDims.resultIdx? target
  by_cases h : 0 ≤ (idx (ix2 (j 0) 0)).toInt ∧ (idx (ix2 (j 0) 0)).toInt < (n : Int)
  · have H : ∀ a : Fin 1, 0 ≤ (eltDims n e wf).start j idx a + ((eltDims n e wf).window j a : Int) ∧
        (eltDims n e wf).start j idx a + ((eltDims n e wf).window j a : Int) < ((⟨1, ![n]⟩ : Shape).size a : Int) := by
      intro a
      obtain rfl : a = 0 := Subsingleton.elim _ _
      rw [eltDims_start0, eltDims_window0]
      show 0 ≤ _ + ((0 : Nat) : Int) ∧ _ + ((0 : Nat) : Int) < (n : Int)
      omega
    rw [dif_pos H, dif_pos h, Option.map_some]
    refine congrArg some (funext fun a => Fin.ext ?_)
    obtain rfl : a = 0 := Subsingleton.elim _ _
    show ((eltDims n e wf).start j idx 0 + ((eltDims n e wf).window j 0 : Int)).toNat = _
    rw [eltDims_start0, eltDims_window0]
    show ((idx (ix2 (j 0) 0)).toInt + ((0 : Nat) : Int)).toNat = (idx (ix2 (j 0) 0)).toInt.toNat
    simp
  · have H : ¬ ∀ a : Fin 1, 0 ≤ (eltDims n e wf).start j idx a + ((eltDims n e wf).window j a : Int) ∧
        (eltDims n e wf).start j idx a + ((eltDims n e wf).window j a : Int) < ((⟨1, ![n]⟩ : Shape).size a : Int) := by
      intro H
      have H0 := H 0
      rw [eltDims_start0, eltDims_window0] at H0
      apply h
      have H0' : 0 ≤ (idx (ix2 (j 0) 0)).toInt + ((0 : Nat) : Int) ∧ (idx (ix2 (j 0) 0)).toInt + ((0 : Nat) : Int) < (n : Int) := H0
      omega
    rw [dif_neg H, dif_neg h]
    rfl

end LandElt

/-! ## Reading the index column and the two-piece arrays at explicit coordinates -/

section Read
variable {α : Type}

/-- An `[e]` array broadcast to a column `[e, 1]` reads, at `(a, u)`, the operand at `a`. -/
theorem bcast_col_apply {e : Nat} (h : (⟨1, ![e]⟩ : Shape).BroadcastsInDim ⟨2, ![e, 1]⟩ ![0]) (x : (⟨1, ![e]⟩ : Shape).Idx → α)
    (a : Fin e) (u : Fin 1) : broadcastInDim ⟨2, ![e, 1]⟩ ![0] h x (ix2 a u) = x (ix1 a) :=
  broadcastInDim_apply _ h x _ (ix1 a) (by
    intro b
    obtain rfl : b = 0 := Subsingleton.elim _ _
    show a.val = if e = 1 then 0 else a.val
    split
    · omega
    · rfl)

/-- Two `[e₁]`, `[e₂]` arrays laid end to end, read in the first piece. -/
theorem concat_elts_left {e₁ e₂ e : Nat} (x₁ : (⟨1, ![e₁]⟩ : Shape).Idx → α) (x₂ : (⟨1, ![e₂]⟩ : Shape).Idx → α)
    (h : Shape.Concatenates [⟨1, ![e₁]⟩, ⟨1, ![e₂]⟩] ⟨1, ![e]⟩ 0) (a : Fin e₁) (ha : a.val < e) :
    concatenate ⟨1, ![e]⟩ 0 [⟨⟨1, ![e₁]⟩, x₁⟩, ⟨⟨1, ![e₂]⟩, x₂⟩] h (ix1 ⟨a.val, ha⟩) = x₁ (ix1 a) :=
  concatenate_pair_apply_left 0 x₁ x₂ h _ rfl (ix1 a) (by
    intro b
    obtain rfl : b = 0 := Subsingleton.elim _ _
    rfl)

/-- Two `[e₁]`, `[e₂]` arrays laid end to end, read in the second piece. -/
theorem concat_elts_right {e₁ e₂ e : Nat} (x₁ : (⟨1, ![e₁]⟩ : Shape).Idx → α) (x₂ : (⟨1, ![e₂]⟩ : Shape).Idx → α)
    (h : Shape.Concatenates [⟨1, ![e₁]⟩, ⟨1, ![e₂]⟩] ⟨1, ![e]⟩ 0) (a : Fin e₂) (ha : e₁ + a.val < e) :
    concatenate ⟨1, ![e]⟩ 0 [⟨⟨1, ![e₁]⟩, x₁⟩, ⟨⟨1, ![e₂]⟩, x₂⟩] h (ix1 ⟨e₁ + a.val, ha⟩) = x₂ (ix1 a) :=
  concatenate_pair_apply_right 0 x₁ x₂ h _ rfl rfl (ix1 a)
    (by
      intro b hb
      obtain rfl : b = 0 := Subsingleton.elim _ _
      exact absurd rfl hb)
    (by
      show a.val + e₁ = e₁ + a.val
      omega)

/-- Two `[e₁, c]`, `[e₂, c]` arrays stacked by rows, read in the first piece. -/
theorem concat_rows_left {e₁ e₂ e c : Nat} (x₁ : (⟨2, ![e₁, c]⟩ : Shape).Idx → α) (x₂ : (⟨2, ![e₂, c]⟩ : Shape).Idx → α)
    (h : Shape.Concatenates [⟨2, ![e₁, c]⟩, ⟨2, ![e₂, c]⟩] ⟨2, ![e, c]⟩ 0) (a : Fin e₁) (ha : a.val < e) (b : Fin c) :
    concatenate ⟨2, ![e, c]⟩ 0 [⟨⟨2, ![e₁, c]⟩, x₁⟩, ⟨⟨2, ![e₂, c]⟩, x₂⟩] h (ix2 ⟨a.val, ha⟩ b) = x₁ (ix2 a b) :=
  concatenate_pair_apply_left 0 x₁ x₂ h _ rfl (ix2 a b) (by
    refine Fin.forall_fin_two.2 ⟨rfl, rfl⟩)

/-- Two `[e₁, c]`, `[e₂, c]` arrays stacked by rows, read in the second piece. -/
theorem concat_rows_right {e₁ e₂ e c : Nat} (x₁ : (⟨2, ![e₁, c]⟩ : Shape).Idx → α) (x₂ : (⟨2, ![e₂, c]⟩ : Shape).Idx → α)
    (h : Shape.Concatenates [⟨2, ![e₁, c]⟩, ⟨2, ![e₂, c]⟩] ⟨2, ![e, c]⟩ 0) (a : Fin e₂) (ha : e₁ + a.val < e) (b : Fin c) :
    concatenate ⟨2, ![e, c]⟩ 0 [⟨⟨2, ![e₁, c]⟩, x₁⟩, ⟨⟨2, ![e₂, c]⟩, x₂⟩] h (ix2 ⟨e₁ + a.val, ha⟩ b) = x₂ (ix2 a b) :=
  concatenate_pair_apply_right 0 x₁ x₂ h _ rfl rfl (ix2 a b)
    (by
      refine Fin.forall_fin_two.2 ⟨fun hb => absurd rfl hb, fun _ => rfl⟩)
    (by
      show a.val + e₁ = e₁ + a.val
      omega)

end Read

/-! ## The exact sum: a scatter-add over two pieces laid end to end -/

section Sum
variable {M : Type*} [AddCommMonoid M]

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {n : Nat} (f : (⟨1, ![n]⟩ : Shape).Idx → M) : ∑ i, f i = ∑ a : Fin n, f (ix1 a) := by
  rw [← Equiv.sum_comp (idxEquiv1 (n := n)).symm f]
  rfl

/-- A sum over the elements of an `[e₁ + e₂, c]` array is the sum over its first `e₁` rows plus the sum over its last `e₂`. -/
theorem sum_rows_add {e₁ e₂ c : Nat} (g : (⟨2, ![e₁ + e₂, c]⟩ : Shape).Idx → M) :
    ∑ j, g j = (∑ a : Fin e₁, ∑ b : Fin c, g (ix2 (Fin.castAdd e₂ a) b)) + ∑ a : Fin e₂, ∑ b : Fin c, g (ix2 (Fin.natAdd e₁ a) b) := by
  rw [sum_idx2, Fin.sum_univ_add]

/-- A sum over the elements of an `[e₁ + e₂]` array is the sum over its first `e₁` plus the sum over its last `e₂`. -/
theorem sum_elts_add {e₁ e₂ : Nat} (g : (⟨1, ![e₁ + e₂]⟩ : Shape).Idx → M) :
    ∑ j, g j = (∑ a : Fin e₁, g (ix1 (Fin.castAdd e₂ a))) + ∑ a : Fin e₂, g (ix1 (Fin.natAdd e₁ a)) := by
  rw [sum_idx1, Fin.sum_univ_add]

end Sum

section Add
variable {φ : FTy}

/-- The exact scatter-add at an element: the operand's element plus the sum of the updates landing on it. -/
theorem scatterAdd_apply {s si u : Shape} {w : Nat} (d : ScatterDims s si u) (x : FVec Ideal s φ) (idx : IVec si w)
    (upd : FVec Ideal u φ) (i : s.Idx) :
    Host.scatterAdd d x idx upd i = x i + ∑ j, if d.resultIdx? j idx = some i then upd j else 0 := by
  show x i + ∑ j ∈ Finset.univ.filter (fun j => d.resultIdx? j idx = some i), upd j = _
  rw [Finset.sum_filter]

/-- ROWS. A row scatter-add whose `e = e₁ + e₂` index and update rows are those of one pair of arrays followed by those of
    another is the sum of the two pairs' scatter-adds, the operand split as a sum likewise. -/
theorem scatterAdd_rows_split {n c e₁ e₂ e w : Nat} (he : e = e₁ + e₂)
    (wf : ScatterDims.WF ⟨2, ![n, c]⟩ ⟨2, ![e, 1]⟩ ⟨2, ![e, c]⟩ [1] [0] [0] 1)
    (wf₁ : ScatterDims.WF ⟨2, ![n, c]⟩ ⟨2, ![e₁, 1]⟩ ⟨2, ![e₁, c]⟩ [1] [0] [0] 1)
    (wf₂ : ScatterDims.WF ⟨2, ![n, c]⟩ ⟨2, ![e₂, 1]⟩ ⟨2, ![e₂, c]⟩ [1] [0] [0] 1)
    (x x₁ x₂ : FVec Ideal ⟨2, ![n, c]⟩ φ) (hx : ∀ i, x i = x₁ i + x₂ i)
    (idx : IVec ⟨2, ![e, 1]⟩ w) (idx₁ : IVec ⟨2, ![e₁, 1]⟩ w) (idx₂ : IVec ⟨2, ![e₂, 1]⟩ w)
    (h₁ : ∀ a : Fin e₁, idx (ix2 ⟨a.val, by omega⟩ 0) = idx₁ (ix2 a 0))
    (h₂ : ∀ a : Fin e₂, idx (ix2 ⟨e₁ + a.val, by omega⟩ 0) = idx₂ (ix2 a 0))
    (upd : FVec Ideal ⟨2, ![e, c]⟩ φ) (upd₁ : FVec Ideal ⟨2, ![e₁, c]⟩ φ) (upd₂ : FVec Ideal ⟨2, ![e₂, c]⟩ φ)
    (hu₁ : ∀ (a : Fin e₁) (b : Fin c), upd (ix2 ⟨a.val, by omega⟩ b) = upd₁ (ix2 a b))
    (hu₂ : ∀ (a : Fin e₂) (b : Fin c), upd (ix2 ⟨e₁ + a.val, by omega⟩ b) = upd₂ (ix2 a b)) :
    Host.scatterAdd (rowDims n c e wf) x idx upd
      = addf (Host.scatterAdd (rowDims n c e₁ wf₁) x₁ idx₁ upd₁) (Host.scatterAdd (rowDims n c e₂ wf₂) x₂ idx₂ upd₂) := by
  subst he
  funext i
  rw [addf_apply, scatterAdd_apply, scatterAdd_apply, scatterAdd_apply, hx i, sum_rows_add, sum_idx2, sum_idx2,
    add_add_add_comm]
  refine congrArg₂ (· + ·) (congrArg (x₁ i + ·) ?_) (congrArg (x₂ i + ·) ?_)
  · refine Finset.sum_congr rfl fun a _ => Finset.sum_congr rfl fun b _ => ?_
    rw [rowDims_resultIdx?, rowDims_resultIdx?]
    show (if (target n (idx (ix2 (Fin.castAdd e₂ a) 0))).map (fun r => ix2 r b) = some i then upd (ix2 (Fin.castAdd e₂ a) b) else 0)
      = if (target n (idx₁ (ix2 a 0))).map (fun r => ix2 r b) = some i then upd₁ (ix2 a b) else 0
    rw [show idx (ix2 (Fin.castAdd e₂ a) 0) = idx₁ (ix2 a 0) from h₁ a,
      show upd (ix2 (Fin.castAdd e₂ a) b) = upd₁ (ix2 a b) from hu₁ a b]
  · refine Finset.sum_congr rfl fun a _ => Finset.sum_congr rfl fun b _ => ?_
    rw [rowDims_resultIdx?, rowDims_resultIdx?]
    show (if (target n (idx (ix2 (Fin.natAdd e₁ a) 0))).map (fun r => ix2 r b) = some i then upd (ix2 (Fin.natAdd e₁ a) b) else 0)
      = if (target n (idx₂ (ix2 a 0))).map (fun r => ix2 r b) = some i then upd₂ (ix2 a b) else 0
    rw [show idx (ix2 (Fin.natAdd e₁ a) 0) = idx₂ (ix2 a 0) from h₂ a,
      show upd (ix2 (Fin.natAdd e₁ a) b) = upd₂ (ix2 a b) from hu₂ a b]

/-- ELEMENTS. The same for an element scatter-add: `e = e₁ + e₂` index rows and update elements, the first `e₁` those of one
    pair of arrays and the last `e₂` those of another. -/
theorem scatterAdd_elts_split {n e₁ e₂ e w : Nat} (he : e = e₁ + e₂)
    (wf : ScatterDims.WF ⟨1, ![n]⟩ ⟨2, ![e, 1]⟩ ⟨1, ![e]⟩ [] [0] [0] 1)
    (wf₁ : ScatterDims.WF ⟨1, ![n]⟩ ⟨2, ![e₁, 1]⟩ ⟨1, ![e₁]⟩ [] [0] [0] 1)
    (wf₂ : ScatterDims.WF ⟨1, ![n]⟩ ⟨2, ![e₂, 1]⟩ ⟨1, ![e₂]⟩ [] [0] [0] 1)
    (x x₁ x₂ : FVec Ideal ⟨1, ![n]⟩ φ) (hx : ∀ i, x i = x₁ i + x₂ i)
    (idx : IVec ⟨2, ![e, 1]⟩ w) (idx₁ : IVec ⟨2, ![e₁, 1]⟩ w) (idx₂ : IVec ⟨2, ![e₂, 1]⟩ w)
    (h₁ : ∀ a : Fin e₁, idx (ix2 ⟨a.val, by omega⟩ 0) = idx₁ (ix2 a 0))
    (h₂ : ∀ a : Fin e₂, idx (ix2 ⟨e₁ + a.val, by omega⟩ 0) = idx₂ (ix2 a 0))
    (upd : FVec Ideal ⟨1, ![e]⟩ φ) (upd₁ : FVec Ideal ⟨1, ![e₁]⟩ φ) (upd₂ : FVec Ideal ⟨1, ![e₂]⟩ φ)
    (hu₁ : ∀ a : Fin e₁, upd (ix1 ⟨a.val, by omega⟩) = upd₁ (ix1 a))
    (hu₂ : ∀ a : Fin e₂, upd (ix1 ⟨e₁ + a.val, by omega⟩) = upd₂ (ix1 a)) :
    Host.scatterAdd (eltDims n e wf) x idx upd
      = addf (Host.scatterAdd (eltDims n e₁ wf₁) x₁ idx₁ upd₁) (Host.scatterAdd (eltDims n e₂ wf₂) x₂ idx₂ upd₂) := by
  subst he
  funext i
  rw [addf_apply, scatterAdd_apply, scatterAdd_apply, scatterAdd_apply, hx i, sum_elts_add, sum_idx1, sum_idx1,
    add_add_add_comm]
  refine congrArg₂ (· + ·) (congrArg (x₁ i + ·) ?_) (congrArg (x₂ i + ·) ?_)
  · refine Finset.sum_congr rfl fun a _ => ?_
    rw [eltDims_resultIdx?, eltDims_resultIdx?]
    show (if (target n (idx (ix2 (Fin.castAdd e₂ a) 0))).map (fun r => ix1 r) = some i then upd (ix1 (Fin.castAdd e₂ a)) else 0)
      = if (target n (idx₁ (ix2 a 0))).map (fun r => ix1 r) = some i then upd₁ (ix1 a) else 0
    rw [show idx (ix2 (Fin.castAdd e₂ a) 0) = idx₁ (ix2 a 0) from h₁ a,
      show upd (ix1 (Fin.castAdd e₂ a)) = upd₁ (ix1 a) from hu₁ a]
  · refine Finset.sum_congr rfl fun a _ => ?_
    rw [eltDims_resultIdx?, eltDims_resultIdx?]
    show (if (target n (idx (ix2 (Fin.natAdd e₁ a) 0))).map (fun r => ix1 r) = some i then upd (ix1 (Fin.natAdd e₁ a)) else 0)
      = if (target n (idx₂ (ix2 a 0))).map (fun r => ix1 r) = some i then upd₂ (ix1 a) else 0
    rw [show idx (ix2 (Fin.natAdd e₁ a) 0) = idx₂ (ix2 a 0) from h₂ a,
      show upd (ix1 (Fin.natAdd e₁ a)) = upd₂ (ix1 a) from hu₂ a]

end Add

/-! ## A scatter by an associative operation over two pieces laid end to end -/

section Fold
variable {α κ : Type} [DecidableEq κ]

/-- One step of a scatter by `f`: the update `v` bound for element `i` replaces that element by `f old v`; an update bound
    for no element changes nothing. -/
def step (f : α → α → α) (r : κ → α) (t : Option κ × α) : κ → α :=
  match t.1 with
  | some i => fun i' => if i' = i then f (r i) t.2 else r i'
  | none => r

/-- For an associative `f`: if `y` is `f y₀ x` element by element, then folding a list of updates from `y` is `f y₀` of folding
    it from `x`, element by element. -/
theorem foldl_step_assoc (f : α → α → α) (hf : ∀ a b c, f (f a b) c = f a (f b c)) (L : List (Option κ × α)) :
    ∀ x y y₀ : κ → α, (∀ p, y p = f (y₀ p) (x p)) → ∀ p, L.foldl (step f) y p = f (y₀ p) (L.foldl (step f) x p) := by
  induction L with
  | nil => intro x y y₀ h p; exact h p
  | cons t L ih =>
    intro x y y₀ h p
    rw [List.foldl_cons, List.foldl_cons]
    refine ih (step f x t) (step f y t) y₀ (fun q => ?_) p
    obtain ⟨o, v⟩ := t
    cases o with
    | none => exact h q
    | some i =>
      show (if q = i then f (y i) v else y q) = f (y₀ q) (if q = i then f (x i) v else x q)
      by_cases hq : q = i
      · subst hq
        rw [if_pos rfl, if_pos rfl, h q, hf]
      · rw [if_neg hq, if_neg hq, h q]

/-- The scatter as the fold of `step` over its updates in row-major order, each with the element it is bound for. -/
theorem scatter_eq_foldl {s si u : Shape} {w : Nat} (d : ScatterDims s si u) (f : α → α → α) (x : s.Idx → α)
    (idx : IVec si w) (upd : u.Idx → α) :
    Host.scatter d f x idx upd
      = ((List.finRange u.numel).map fun n => (d.resultIdx? (u.rowMajor.symm n) idx, upd (u.rowMajor.symm n))).foldl
          (step f) x := by
  rw [List.foldl_map]
  unfold Host.scatter
  refine congrArg (fun g => List.foldl g x (List.finRange u.numel)) (funext fun r => funext fun m => ?_)
  show _ = step f r (d.resultIdx? (u.rowMajor.symm m) idx, upd (u.rowMajor.symm m))
  unfold step
  generalize d.resultIdx? (u.rowMajor.symm m) idx = o
  cases o with
  | none => rfl
  | some i =>
    funext i'
    show (if i' = i then _ else _) = (if i' = i then _ else _)
    by_cases h : i' = i
    · simp only [if_pos h]
    · simp only [if_neg h]

/-- The row-major enumeration of an `[e]` array's indices is the enumeration of its coordinate. -/
theorem map_finRange_numel_rank1 {β : Type} {e : Nat} (g : (⟨1, ![e]⟩ : Shape).Idx → β) :
    ((List.finRange (⟨1, ![e]⟩ : Shape).numel).map fun n => g ((⟨1, ![e]⟩ : Shape).rowMajor.symm n))
      = List.ofFn fun a : Fin e => g (ix1 a) := by
  have hn : (⟨1, ![e]⟩ : Shape).numel = e := Shape.numel_rank1 _
  apply List.ext_getElem
  · simp [hn]
  · intro k h1 h2
    simp only [List.getElem_map, List.getElem_finRange, List.getElem_ofFn]
    refine congrArg g ?_
    rw [Equiv.symm_apply_eq]
    refine Fin.ext ?_
    rw [Shape.rowMajor_val_one]
    rfl

/-- ELEMENTS. An element scatter by an associative `f` from the constant array of a right identity `z` of `f`, whose
    `e = e₁ + e₂` index rows and update elements are those of one pair of arrays followed by those of another, is `f` of
    the two pairs' scatters, element by element. -/
theorem scatter_elts_split {n e₁ e₂ e w : Nat} (he : e = e₁ + e₂)
    (wf : ScatterDims.WF ⟨1, ![n]⟩ ⟨2, ![e, 1]⟩ ⟨1, ![e]⟩ [] [0] [0] 1)
    (wf₁ : ScatterDims.WF ⟨1, ![n]⟩ ⟨2, ![e₁, 1]⟩ ⟨1, ![e₁]⟩ [] [0] [0] 1)
    (wf₂ : ScatterDims.WF ⟨1, ![n]⟩ ⟨2, ![e₂, 1]⟩ ⟨1, ![e₂]⟩ [] [0] [0] 1)
    (f : α → α → α) (hf : ∀ a b c, f (f a b) c = f a (f b c)) (z : α) (hz : ∀ a, f a z = a)
    (x x₁ x₂ : (⟨1, ![n]⟩ : Shape).Idx → α) (hx : ∀ p, x p = z) (hx₁ : ∀ p, x₁ p = z) (hx₂ : ∀ p, x₂ p = z)
    (idx : IVec ⟨2, ![e, 1]⟩ w) (idx₁ : IVec ⟨2, ![e₁, 1]⟩ w) (idx₂ : IVec ⟨2, ![e₂, 1]⟩ w)
    (h₁ : ∀ a : Fin e₁, idx (ix2 ⟨a.val, by omega⟩ 0) = idx₁ (ix2 a 0))
    (h₂ : ∀ a : Fin e₂, idx (ix2 ⟨e₁ + a.val, by omega⟩ 0) = idx₂ (ix2 a 0))
    (upd : (⟨1, ![e]⟩ : Shape).Idx → α) (upd₁ : (⟨1, ![e₁]⟩ : Shape).Idx → α) (upd₂ : (⟨1, ![e₂]⟩ : Shape).Idx → α)
    (hu₁ : ∀ a : Fin e₁, upd (ix1 ⟨a.val, by omega⟩) = upd₁ (ix1 a))
    (hu₂ : ∀ a : Fin e₂, upd (ix1 ⟨e₁ + a.val, by omega⟩) = upd₂ (ix1 a)) (p : (⟨1, ![n]⟩ : Shape).Idx) :
    Host.scatter (eltDims n e wf) f x idx upd p
      = f (Host.scatter (eltDims n e₁ wf₁) f x₁ idx₁ upd₁ p) (Host.scatter (eltDims n e₂ wf₂) f x₂ idx₂ upd₂ p) := by
  subst he
  obtain rfl : x = fun _ => z := funext hx
  obtain rfl : x₁ = fun _ => z := funext hx₁
  obtain rfl : x₂ = fun _ => z := funext hx₂
  rw [scatter_eq_foldl, scatter_eq_foldl, scatter_eq_foldl,
    map_finRange_numel_rank1 (fun j => ((eltDims n (e₁ + e₂) wf).resultIdx? j idx, upd j)),
    map_finRange_numel_rank1 (fun j => ((eltDims n e₁ wf₁).resultIdx? j idx₁, upd₁ j)),
    map_finRange_numel_rank1 (fun j => ((eltDims n e₂ wf₂).resultIdx? j idx₂, upd₂ j)),
    List.ofFn_add, List.foldl_append]
  have e1 : (List.ofFn fun i : Fin e₁ => ((eltDims n (e₁ + e₂) wf).resultIdx? (ix1 (i.castLE (Nat.le_add_right e₁ e₂))) idx,
        upd (ix1 (i.castLE (Nat.le_add_right e₁ e₂)))))
      = List.ofFn fun a : Fin e₁ => ((eltDims n e₁ wf₁).resultIdx? (ix1 a) idx₁, upd₁ (ix1 a)) := by
    refine congrArg List.ofFn (funext fun a => ?_)
    rw [eltDims_resultIdx?, eltDims_resultIdx?]
    exact congrArg₂ Prod.mk (congrArg (fun v => (target n v).map fun r => ix1 r) (h₁ a)) (hu₁ a)
  have e2 : (List.ofFn fun i : Fin e₂ => ((eltDims n (e₁ + e₂) wf).resultIdx? (ix1 (i.natAdd e₁)) idx, upd (ix1 (i.natAdd e₁))))
      = List.ofFn fun a : Fin e₂ => ((eltDims n e₂ wf₂).resultIdx? (ix1 a) idx₂, upd₂ (ix1 a)) := by
    refine congrArg List.ofFn (funext fun a => ?_)
    rw [eltDims_resultIdx?, eltDims_resultIdx?]
    exact congrArg₂ Prod.mk (congrArg (fun v => (target n v).map fun r => ix1 r) (h₂ a)) (hu₂ a)
  rw [e1, e2]
  exact foldl_step_assoc f hf _ (fun _ => z) _ _ (fun q => (hz _).symm) p

end Fold

/-! ## The signed maximum -/

section MaxSI
variable {w : Nat}

theorem maxsi_assoc (a b c : BitVec w) : IntOp.maxsi (IntOp.maxsi a b) c = IntOp.maxsi a (IntOp.maxsi b c) := by
  unfold IntOp.maxsi
  simp only [BitVec.slt_eq_decide]
  by_cases h1 : b.toInt < a.toInt <;> by_cases h2 : c.toInt < b.toInt <;> by_cases h3 : c.toInt < a.toInt <;>
    simp [h1, h2, h3] <;> omega

/-- The least signed integer is a right identity of the signed maximum. -/
theorem maxsi_intMin (a : BitVec w) : IntOp.maxsi a (BitVec.intMin w) = a := by
  unfold IntOp.maxsi
  rw [BitVec.slt_eq_decide]
  by_cases h : (BitVec.intMin w).toInt < a.toInt
  · simp [h]
  · have hle := BitVec.toInt_intMin_le a
    have : a.toInt = (BitVec.intMin w).toInt := by omega
    simp only [h, decide_false, Bool.false_eq_true, if_false]
    exact (BitVec.toInt_inj.1 this).symm

end MaxSI

/-! ## The identities with the index column written as the broadcast of two index arrays laid end to end -/

section Concat
variable {φ : FTy} {α : Type}

/-- The index column of two index arrays laid end to end reads, in its first `e₁` rows, the first array's column. -/
theorem bcast_concat_left {e₁ e₂ e w : Nat} (he : e = e₁ + e₂)
    (hb : (⟨1, ![e]⟩ : Shape).BroadcastsInDim ⟨2, ![e, 1]⟩ ![0]) (hb₁ : (⟨1, ![e₁]⟩ : Shape).BroadcastsInDim ⟨2, ![e₁, 1]⟩ ![0])
    (hc : Shape.Concatenates [⟨1, ![e₁]⟩, ⟨1, ![e₂]⟩] ⟨1, ![e]⟩ 0) (src : IVec ⟨1, ![e₁]⟩ w) (dst : IVec ⟨1, ![e₂]⟩ w) (a : Fin e₁) :
    broadcastInDim ⟨2, ![e, 1]⟩ ![0] hb (concatenate ⟨1, ![e]⟩ 0 [⟨⟨1, ![e₁]⟩, src⟩, ⟨⟨1, ![e₂]⟩, dst⟩] hc) (ix2 ⟨a.val, by omega⟩ 0)
      = broadcastInDim ⟨2, ![e₁, 1]⟩ ![0] hb₁ src (ix2 a 0) := by
  rw [bcast_col_apply, bcast_col_apply, concat_elts_left]

/-- … and in its last `e₂` rows the second array's column. -/
theorem bcast_concat_right {e₁ e₂ e w : Nat} (he : e = e₁ + e₂)
    (hb : (⟨1, ![e]⟩ : Shape).BroadcastsInDim ⟨2, ![e, 1]⟩ ![0]) (hb₂ : (⟨1, ![e₂]⟩ : Shape).BroadcastsInDim ⟨2, ![e₂, 1]⟩ ![0])
    (hc : Shape.Concatenates [⟨1, ![e₁]⟩, ⟨1, ![e₂]⟩] ⟨1, ![e]⟩ 0) (src : IVec ⟨1, ![e₁]⟩ w) (dst : IVec ⟨1, ![e₂]⟩ w) (a : Fin e₂) :
    broadcastInDim ⟨2, ![e, 1]⟩ ![0] hb (concatenate ⟨1, ![e]⟩ 0 [⟨⟨1, ![e₁]⟩, src⟩, ⟨⟨1, ![e₂]⟩, dst⟩] hc) (ix2 ⟨e₁ + a.val, by omega⟩ 0)
      = broadcastInDim ⟨2, ![e₂, 1]⟩ ![0] hb₂ dst (ix2 a 0) := by
  rw [bcast_col_apply, bcast_col_apply, concat_elts_right]

/-- ROWS, the messages: scattering the stacked update rows at the concatenated indices is the sum of scattering each
    piece at its own indices. -/
theorem scatterAdd_rows_concat {n c e₁ e₂ e w : Nat} (he : e = e₁ + e₂)
    (wf : ScatterDims.WF ⟨2, ![n, c]⟩ ⟨2, ![e, 1]⟩ ⟨2, ![e, c]⟩ [1] [0] [0] 1)
    (wf₁ : ScatterDims.WF ⟨2, ![n, c]⟩ ⟨2, ![e₁, 1]⟩ ⟨2, ![e₁, c]⟩ [1] [0] [0] 1)
    (wf₂ : ScatterDims.WF ⟨2, ![n, c]⟩ ⟨2, ![e₂, 1]⟩ ⟨2, ![e₂, c]⟩ [1] [0] [0] 1)
    (hb : (⟨1, ![e]⟩ : Shape).BroadcastsInDim ⟨2, ![e, 1]⟩ ![0]) (hb₁ : (⟨1, ![e₁]⟩ : Shape).BroadcastsInDim ⟨2, ![e₁, 1]⟩ ![0])
    (hb₂ : (⟨1, ![e₂]⟩ : Shape).BroadcastsInDim ⟨2, ![e₂, 1]⟩ ![0])
    (hc : Shape.Concatenates [⟨1, ![e₁]⟩, ⟨1, ![e₂]⟩] ⟨1, ![e]⟩ 0)
    (hcu : Shape.Concatenates [⟨2, ![e₁, c]⟩, ⟨2, ![e₂, c]⟩] ⟨2, ![e, c]⟩ 0)
    (x x₁ x₂ : FVec Ideal ⟨2, ![n, c]⟩ φ) (hx : ∀ i, x i = x₁ i + x₂ i)
    (src : IVec ⟨1, ![e₁]⟩ w) (dst : IVec ⟨1, ![e₂]⟩ w) (ms : FVec Ideal ⟨2, ![e₁, c]⟩ φ) (md : FVec Ideal ⟨2, ![e₂, c]⟩ φ) :
    Host.scatterAdd (rowDims n c e wf) x
        (broadcastInDim ⟨2, ![e, 1]⟩ ![0] hb (concatenate ⟨1, ![e]⟩ 0 [⟨⟨1, ![e₁]⟩, src⟩, ⟨⟨1, ![e₂]⟩, dst⟩] hc))
        (concatenate ⟨2, ![e, c]⟩ 0 [⟨⟨2, ![e₁, c]⟩, ms⟩, ⟨⟨2, ![e₂, c]⟩, md⟩] hcu)
      = addf (Host.scatterAdd (rowDims n c e₁ wf₁) x₁ (broadcastInDim ⟨2, ![e₁, 1]⟩ ![0] hb₁ src) ms)
          (Host.scatterAdd (rowDims n c e₂ wf₂) x₂ (broadcastInDim ⟨2, ![e₂, 1]⟩ ![0] hb₂ dst) md) :=
  scatterAdd_rows_split he wf wf₁ wf₂ x x₁ x₂ hx _ _ _
    (fun a => bcast_concat_left he hb hb₁ hc src dst a) (fun a => bcast_concat_right he hb hb₂ hc src dst a) _ _ _
    (fun a b => concat_rows_left ms md hcu a _ b) (fun a b => concat_rows_right ms md hcu a _ b)

/-- ELEMENTS, the counts: scattering update elements at the concatenated indices is the sum of scattering each half of
    them at its own indices (`hu₁`, `hu₂`: the first `e₁` update elements are the first piece's, the last `e₂` the second's —
    so for three constant arrays of one value). -/
theorem scatterAdd_elts_concat {n e₁ e₂ e w : Nat} (he : e = e₁ + e₂)
    (wf : ScatterDims.WF ⟨1, ![n]⟩ ⟨2, ![e, 1]⟩ ⟨1, ![e]⟩ [] [0] [0] 1)
    (wf₁ : ScatterDims.WF ⟨1, ![n]⟩ ⟨2, ![e₁, 1]⟩ ⟨1, ![e₁]⟩ [] [0] [0] 1)
    (wf₂ : ScatterDims.WF ⟨1, ![n]⟩ ⟨2, ![e₂, 1]⟩ ⟨1, ![e₂]⟩ [] [0] [0] 1)
    (hb : (⟨1, ![e]⟩ : Shape).BroadcastsInDim ⟨2, ![e, 1]⟩ ![0]) (hb₁ : (⟨1, ![e₁]⟩ : Shape).BroadcastsInDim ⟨2, ![e₁, 1]⟩ ![0])
    (hb₂ : (⟨1, ![e₂]⟩ : Shape).BroadcastsInDim ⟨2, ![e₂, 1]⟩ ![0])
    (hc : Shape.Concatenates [⟨1, ![e₁]⟩, ⟨1, ![e₂]⟩] ⟨1, ![e]⟩ 0)
    (x x₁ x₂ : FVec Ideal ⟨1, ![n]⟩ φ) (hx : ∀ i, x i = x₁ i + x₂ i)
    (src : IVec ⟨1, ![e₁]⟩ w) (dst : IVec ⟨1, ![e₂]⟩ w)
    (upd : FVec Ideal ⟨1, ![e]⟩ φ) (upd₁ : FVec Ideal ⟨1, ![e₁]⟩ φ) (upd₂ : FVec Ideal ⟨1, ![e₂]⟩ φ)
    (hu₁ : ∀ a : Fin e₁, upd (ix1 ⟨a.val, by omega⟩) = upd₁ (ix1 a))
    (hu₂ : ∀ a : Fin e₂, upd (ix1 ⟨e₁ + a.val, by omega⟩) = upd₂ (ix1 a)) :
    Host.scatterAdd (eltDims n e wf) x
        (broadcastInDim ⟨2, ![e, 1]⟩ ![0] hb (concatenate ⟨1, ![e]⟩ 0 [⟨⟨1, ![e₁]⟩, src⟩, ⟨⟨1, ![e₂]⟩, dst⟩] hc)) upd
      = addf (Host.scatterAdd (eltDims n e₁ wf₁) x₁ (broadcastInDim ⟨2, ![e₁, 1]⟩ ![0] hb₁ src) upd₁)
          (Host.scatterAdd (eltDims n e₂ wf₂) x₂ (broadcastInDim ⟨2, ![e₂, 1]⟩ ![0] hb₂ dst) upd₂) :=
  scatterAdd_elts_split he wf wf₁ wf₂ x x₁ x₂ hx _ _ _
    (fun a => bcast_concat_left he hb hb₁ hc src dst a) (fun a => bcast_concat_right he hb hb₂ hc src dst a) _ _ _ hu₁ hu₂

/-- ELEMENTS, an associative operation: scattering the concatenated updates at the concatenated indices from the
    constant array of a right identity is `f` of the two pieces' scatters, element by element. -/
theorem scatter_elts_concat {n e₁ e₂ e w : Nat} (he : e = e₁ + e₂)
    (wf : ScatterDims.WF ⟨1, ![n]⟩ ⟨2, ![e, 1]⟩ ⟨1, ![e]⟩ [] [0] [0] 1)
    (wf₁ : ScatterDims.WF ⟨1, ![n]⟩ ⟨2, ![e₁, 1]⟩ ⟨1, ![e₁]⟩ [] [0] [0] 1)
    (wf₂ : ScatterDims.WF ⟨1, ![n]⟩ ⟨2, ![e₂, 1]⟩ ⟨1, ![e₂]⟩ [] [0] [0] 1)
    (hb : (⟨1, ![e]⟩ : Shape).BroadcastsInDim ⟨2, ![e, 1]⟩ ![0]) (hb₁ : (⟨1, ![e₁]⟩ : Shape).BroadcastsInDim ⟨2, ![e₁, 1]⟩ ![0])
    (hb₂ : (⟨1, ![e₂]⟩ : Shape).BroadcastsInDim ⟨2, ![e₂, 1]⟩ ![0])
    (hc : Shape.Concatenates [⟨1, ![e₁]⟩, ⟨1, ![e₂]⟩] ⟨1, ![e]⟩ 0)
    (f : α → α → α) (hf : ∀ a b c, f (f a b) c = f a (f b c)) (z : α) (hz : ∀ a, f a z = a)
    (x x₁ x₂ : (⟨1, ![n]⟩ : Shape).Idx → α) (hx : ∀ p, x p = z) (hx₁ : ∀ p, x₁ p = z) (hx₂ : ∀ p, x₂ p = z)
    (src : IVec ⟨1, ![e₁]⟩ w) (dst : IVec ⟨1, ![e₂]⟩ w)
    (u₁ : (⟨1, ![e₁]⟩ : Shape).Idx → α) (u₂ : (⟨1, ![e₂]⟩ : Shape).Idx → α) (p : (⟨1, ![n]⟩ : Shape).Idx) :
    Host.scatter (eltDims n e wf) f x
        (broadcastInDim ⟨2, ![e, 1]⟩ ![0] hb (concatenate ⟨1, ![e]⟩ 0 [⟨⟨1, ![e₁]⟩, src⟩, ⟨⟨1, ![e₂]⟩, dst⟩] hc))
        (concatenate ⟨1, ![e]⟩ 0 [⟨⟨1, ![e₁]⟩, u₁⟩, ⟨⟨1, ![e₂]⟩, u₂⟩] hc) p
      = f (Host.scatter (eltDims n e₁ wf₁) f x₁ (broadcastInDim ⟨2, ![e₁, 1]⟩ ![0] hb₁ src) u₁ p)
          (Host.scatter (eltDims n e₂ wf₂) f x₂ (broadcastInDim ⟨2, ![e₂, 1]⟩ ![0] hb₂ dst) u₂ p) :=
  scatter_elts_split he wf wf₁ wf₂ f hf z hz x x₁ x₂ hx hx₁ hx₂ _ _ _
    (fun a => bcast_concat_left he hb hb₁ hc src dst a) (fun a => bcast_concat_right he hb hb₂ hc src dst a) _ _ _
    (fun a => concat_elts_left u₁ u₂ hc a _) (fun a => concat_elts_right u₁ u₂ hc a _) p

end Concat

/-! ## A scatter-add of ones counts -/

section Count
variable {φ : FTy}

/-- A sum of ones over a finite set is the set's size, a natural number read as an extended real. -/
theorem sum_ones_eq_card {ι : Type*} (S : Finset ι) : ∑ _j ∈ S, (1 : EReal) = ((S.card : ℝ) : EReal) := by
  classical
  induction S using Finset.induction_on with
  | empty => simp
  | insert a S ha ih =>
    rw [Finset.sum_insert ha, ih, Finset.card_insert_of_notMem ha, Nat.cast_add, Nat.cast_one, EReal.coe_add, EReal.coe_one,
      add_comm]

/-- A scatter-add of the constant 1 into zeros is, at every element, the number of updates landing there. -/
theorem scatterAdd_ones_nat {s si u : Shape} {w : Nat} (d : ScatterDims s si u) (x : FVec Ideal s φ) (hx : ∀ i, x i = 0)
    (idx : IVec si w) (upd : FVec Ideal u φ) (hu : ∀ j, upd j = 1) (i : s.Idx) :
    ∃ k : ℕ, Host.scatterAdd d x idx upd i = ((k : ℝ) : EReal) := by
  refine ⟨(Finset.univ.filter fun j => d.resultIdx? j idx = some i).card, ?_⟩
  show x i + ∑ j ∈ Finset.univ.filter (fun j => d.resultIdx? j idx = some i), upd j = _
  rw [hx i, zero_add, Finset.sum_congr rfl (fun j _ => hu j), sum_ones_eq_card]

end Count

end Cert.ScatterSplit

end
-- ==== Proof.Aggregation.lean ====
/-
  The three aggregation identities between the two programs' host sides, at the extended reals.

  One program scatters the source-keyed and the destination-keyed rows separately into zero arrays and adds the results;
  the other lays the two index arrays and the two row arrays end to end and scatters once. Here `n = 100000` nodes,
  `e₁ = e₂ = 100000` events, `c = 512` columns. `messages`: the summed messages agree (an exact sum over the updates
  landing on a row splits into the first and the second half of the update rows). `counts`: so do the counts, the
  scatter-add of ones, each count a natural number (`count_nat`). `times`: the latest event time, a scatter by the signed
  maximum from the least integer, is the maximum of the two halves' scatters (the maximum is associative and the least
  integer its identity). Each is the general lemma of the same name read at this program pair's shapes and records.
-/
import proofs.«171311_j3075196584344_2_alg».proof.Proof.LibScatterSplit
import proofs.«171311_j3075196584344_2_alg».proof.Proof.Gen.KernelIdeal
import proofs.«171311_j3075196584344_2_alg».proof.Proof.Gen.ReferenceIdeal
import Idealize.ShloMosaic.Lib.IdealHost

noncomputable section

namespace Cert.Aggregation

open Idealize.ShloMosaic Idealize.ShloMosaic.ValueIdx Cert.ScatterSplit

/-- The zero literal broadcast to any shape reads 0. -/
theorem zeros_apply {T : Shape} (h : (⟨0, ![]⟩ : Shape).BroadcastsInDim T ![]) (j : T.Idx) :
    broadcastInDim T ![] h (constant (F := Ideal) ⟨0, ![]⟩ .f32 0x00000000#32) j = (0 : EReal) := by
  rw [broadcastInDim_scalar_apply]
  exact Ideal.ofBits_zero_f32

/-- The one literal broadcast to any shape reads 1. -/
theorem ones_apply {T : Shape} (h : (⟨0, ![]⟩ : Shape).BroadcastsInDim T ![]) (j : T.Idx) :
    broadcastInDim T ![] h (constant (F := Ideal) ⟨0, ![]⟩ .f32 0x3F800000#32) j = (1 : EReal) := by
  rw [broadcastInDim_scalar_apply]
  exact Ideal.ofBits_one_f32

/-- Zero is zero plus zero, read off three zero arrays. -/
theorem zeros_split {T : Shape} (h h₁ h₂ : (⟨0, ![]⟩ : Shape).BroadcastsInDim T ![]) (j : T.Idx) :
    broadcastInDim T ![] h (constant (F := Ideal) ⟨0, ![]⟩ .f32 0x00000000#32) j
      = broadcastInDim T ![] h₁ (constant (F := Ideal) ⟨0, ![]⟩ .f32 0x00000000#32) j
        + broadcastInDim T ![] h₂ (constant (F := Ideal) ⟨0, ![]⟩ .f32 0x00000000#32) j :=
  (zeros_apply h j).trans ((congrArg₂ (fun a b : EReal => a + b) (zeros_apply h₁ j) (zeros_apply h₂ j)).trans (add_zero 0)).symm

/-- (1) THE MESSAGES. -/
theorem messages (src dst : IVec Cert.ReferenceIdeal.S100000 32) (ms md : FVec Ideal Cert.ReferenceIdeal.S100000x512 .f32) :
    Host.scatterAdd Cert.ReferenceIdeal.scatter_S100000x512_S200000x1_S200000x512_1_0_0_1
        (broadcastInDim Cert.ReferenceIdeal.S100000x512 ![] Cert.ReferenceIdeal.Facts₀.bcast_S_S100000x512
          (constant (F := Ideal) Cert.ReferenceIdeal.S_ .f32 0x00000000#32))
        (broadcastInDim Cert.ReferenceIdeal.S200000x1 ![0] Cert.ReferenceIdeal.Facts₀.bcast_S200000_S200000x1_0
          (concatenate Cert.ReferenceIdeal.S200000 0 [⟨Cert.ReferenceIdeal.S100000, src⟩, ⟨Cert.ReferenceIdeal.S100000, dst⟩]
            Cert.ReferenceIdeal.Facts₀.concatenates_S100000_S100000_S200000_d0))
        (concatenate Cert.ReferenceIdeal.S200000x512 0
          [⟨Cert.ReferenceIdeal.S100000x512, ms⟩, ⟨Cert.ReferenceIdeal.S100000x512, md⟩]
          Cert.ReferenceIdeal.Facts₀.concatenates_S100000x512_S100000x512_S200000x512_d0)
      = addf
          (Host.scatterAdd Cert.KernelIdeal.scatter_S100000x512_S100000x1_S100000x512_1_0_0_1
            (broadcastInDim Cert.KernelIdeal.S100000x512 ![] Cert.KernelIdeal.Facts₀.bcast_S_S100000x512
              (constant (F := Ideal) Cert.KernelIdeal.S_ .f32 0x00000000#32))
            (broadcastInDim Cert.KernelIdeal.S100000x1 ![0] Cert.KernelIdeal.Facts₀.bcast_S100000_S100000x1_0 src) ms)
          (Host.scatterAdd Cert.KernelIdeal.scatter_S100000x512_S100000x1_S100000x512_1_0_0_1
            (broadcastInDim Cert.KernelIdeal.S100000x512 ![] Cert.KernelIdeal.Facts₀.bcast_S_S100000x512
              (constant (F := Ideal) Cert.KernelIdeal.S_ .f32 0x00000000#32))
            (broadcastInDim Cert.KernelIdeal.S100000x1 ![0] Cert.KernelIdeal.Facts₀.bcast_S100000_S100000x1_0 dst) md) :=
  scatterAdd_rows_concat (n := 100000) (c := 512) (e₁ := 100000) (e₂ := 100000) (e := 200000) (by norm_num)
    Cert.ReferenceIdeal.Facts₀.scatter_S100000x512_S200000x1_S200000x512_1_0_0_1_wf
    Cert.KernelIdeal.Facts₀.scatter_S100000x512_S100000x1_S100000x512_1_0_0_1_wf
    Cert.KernelIdeal.Facts₀.scatter_S100000x512_S100000x1_S100000x512_1_0_0_1_wf
    Cert.ReferenceIdeal.Facts₀.bcast_S200000_S200000x1_0 Cert.KernelIdeal.Facts₀.bcast_S100000_S100000x1_0
    Cert.KernelIdeal.Facts₀.bcast_S100000_S100000x1_0
    Cert.ReferenceIdeal.Facts₀.concatenates_S100000_S100000_S200000_d0
    Cert.ReferenceIdeal.Facts₀.concatenates_S100000x512_S100000x512_S200000x512_d0
    _ _ _ (fun i => zeros_split _ _ _ i) src dst ms md

/-- (2) THE COUNTS, for any update arrays agreeing on the two halves (the first 100000 update elements those of `u₁`, the
    last 100000 those of `u₂`). -/
theorem counts_of (src dst : IVec Cert.ReferenceIdeal.S100000 32)
    (u : FVec Ideal Cert.ReferenceIdeal.S200000 .f32) (u₁ u₂ : FVec Ideal Cert.KernelIdeal.S100000 .f32)
    (hu₁ : ∀ a : Fin 100000, u (ix1 ⟨a.val, by omega⟩) = u₁ (ix1 a))
    (hu₂ : ∀ a : Fin 100000, u (ix1 ⟨100000 + a.val, by omega⟩) = u₂ (ix1 a)) :
    Host.scatterAdd Cert.ReferenceIdeal.scatter_S100000_S200000x1_S200000_n_0_0_1
        (broadcastInDim Cert.ReferenceIdeal.S100000 ![] Cert.ReferenceIdeal.Facts₀.bcast_S_S100000
          (constant (F := Ideal) Cert.ReferenceIdeal.S_ .f32 0x00000000#32))
        (broadcastInDim Cert.ReferenceIdeal.S200000x1 ![0] Cert.ReferenceIdeal.Facts₀.bcast_S200000_S200000x1_0
          (concatenate Cert.ReferenceIdeal.S200000 0 [⟨Cert.ReferenceIdeal.S100000, src⟩, ⟨Cert.ReferenceIdeal.S100000, dst⟩]
            Cert.ReferenceIdeal.Facts₀.concatenates_S100000_S100000_S200000_d0))
        u
      = addf
          (Host.scatterAdd Cert.KernelIdeal.scatter_S100000_S100000x1_S100000_n_0_0_1
            (broadcastInDim Cert.KernelIdeal.S100000 ![] Cert.KernelIdeal.Facts₀.bcast_S_S100000
              (constant (F := Ideal) Cert.KernelIdeal.S_ .f32 0x00000000#32))
            (broadcastInDim Cert.KernelIdeal.S100000x1 ![0] Cert.KernelIdeal.Facts₀.bcast_S100000_S100000x1_0 src) u₁)
          (Host.scatterAdd Cert.KernelIdeal.scatter_S100000_S100000x1_S100000_n_0_0_1
            (broadcastInDim Cert.KernelIdeal.S100000 ![] Cert.KernelIdeal.Facts₀.bcast_S_S100000
              (constant (F := Ideal) Cert.KernelIdeal.S_ .f32 0x00000000#32))
            (broadcastInDim Cert.KernelIdeal.S100000x1 ![0] Cert.KernelIdeal.Facts₀.bcast_S100000_S100000x1_0 dst) u₂) :=
  scatterAdd_elts_concat (n := 100000) (e₁ := 100000) (e₂ := 100000) (e := 200000) (by norm_num)
    Cert.ReferenceIdeal.Facts₀.scatter_S100000_S200000x1_S200000_n_0_0_1_wf
    Cert.KernelIdeal.Facts₀.scatter_S100000_S100000x1_S100000_n_0_0_1_wf
    Cert.KernelIdeal.Facts₀.scatter_S100000_S100000x1_S100000_n_0_0_1_wf
    Cert.ReferenceIdeal.Facts₀.bcast_S200000_S200000x1_0 Cert.KernelIdeal.Facts₀.bcast_S100000_S100000x1_0
    Cert.KernelIdeal.Facts₀.bcast_S100000_S100000x1_0
    Cert.ReferenceIdeal.Facts₀.concatenates_S100000_S100000_S200000_d0
    _ _ _ (fun i => zeros_split _ _ _ i) src dst u u₁ u₂ hu₁ hu₂

/-- (2) THE COUNTS as the two programs write them: the update arrays are the one literal broadcast, of length 200000 on
    one side and 100000 (twice) on the other. -/
theorem counts (src dst : IVec Cert.ReferenceIdeal.S100000 32) :
    Host.scatterAdd Cert.ReferenceIdeal.scatter_S100000_S200000x1_S200000_n_0_0_1
        (broadcastInDim Cert.ReferenceIdeal.S100000 ![] Cert.ReferenceIdeal.Facts₀.bcast_S_S100000
          (constant (F := Ideal) Cert.ReferenceIdeal.S_ .f32 0x00000000#32))
        (broadcastInDim Cert.ReferenceIdeal.S200000x1 ![0] Cert.ReferenceIdeal.Facts₀.bcast_S200000_S200000x1_0
          (concatenate Cert.ReferenceIdeal.S200000 0 [⟨Cert.ReferenceIdeal.S100000, src⟩, ⟨Cert.ReferenceIdeal.S100000, dst⟩]
            Cert.ReferenceIdeal.Facts₀.concatenates_S100000_S100000_S200000_d0))
        (broadcastInDim Cert.ReferenceIdeal.S200000 ![] Cert.ReferenceIdeal.Facts₀.bcast_S_S200000
          (constant (F := Ideal) Cert.ReferenceIdeal.S_ .f32 0x3F800000#32))
      = addf
          (Host.scatterAdd Cert.KernelIdeal.scatter_S100000_S100000x1_S100000_n_0_0_1
            (broadcastInDim Cert.KernelIdeal.S100000 ![] Cert.KernelIdeal.Facts₀.bcast_S_S100000
              (constant (F := Ideal) Cert.KernelIdeal.S_ .f32 0x00000000#32))
            (broadcastInDim Cert.KernelIdeal.S100000x1 ![0] Cert.KernelIdeal.Facts₀.bcast_S100000_S100000x1_0 src)
            (broadcastInDim Cert.KernelIdeal.S100000 ![] Cert.KernelIdeal.Facts₀.bcast_S_S100000
              (constant (F := Ideal) Cert.KernelIdeal.S_ .f32 0x3F800000#32)))
          (Host.scatterAdd Cert.KernelIdeal.scatter_S100000_S100000x1_S100000_n_0_0_1
            (broadcastInDim Cert.KernelIdeal.S100000 ![] Cert.KernelIdeal.Facts₀.bcast_S_S100000
              (constant (F := Ideal) Cert.KernelIdeal.S_ .f32 0x00000000#32))
            (broadcastInDim Cert.KernelIdeal.S100000x1 ![0] Cert.KernelIdeal.Facts₀.bcast_S100000_S100000x1_0 dst)
            (broadcastInDim Cert.KernelIdeal.S100000 ![] Cert.KernelIdeal.Facts₀.bcast_S_S100000
              (constant (F := Ideal) Cert.KernelIdeal.S_ .f32 0x3F800000#32))) :=
  counts_of src dst _ _ _ (fun a => (ones_apply _ _).trans (ones_apply _ _).symm) (fun a => (ones_apply _ _).trans (ones_apply _ _).symm)

/-- Each count is a natural number: a scatter-add of ones into zeros, whatever the index array. -/
theorem count_nat (idx : IVec Cert.KernelIdeal.S100000x1 32) (p : Cert.KernelIdeal.S100000.Idx) :
    ∃ k : ℕ, Host.scatterAdd Cert.KernelIdeal.scatter_S100000_S100000x1_S100000_n_0_0_1
        (broadcastInDim Cert.KernelIdeal.S100000 ![] Cert.KernelIdeal.Facts₀.bcast_S_S100000
          (constant (F := Ideal) Cert.KernelIdeal.S_ .f32 0x00000000#32))
        idx
        (broadcastInDim Cert.KernelIdeal.S100000 ![] Cert.KernelIdeal.Facts₀.bcast_S_S100000
          (constant (F := Ideal) Cert.KernelIdeal.S_ .f32 0x3F800000#32)) p = ((k : ℝ) : EReal) :=
  scatterAdd_ones_nat _ _ (fun i => zeros_apply _ i) idx _ (fun j => ones_apply _ j) p

/-- The same for the one scatter-add of 200000 ones. -/
theorem count_nat_ref (idx : IVec Cert.ReferenceIdeal.S200000x1 32) (p : Cert.ReferenceIdeal.S100000.Idx) :
    ∃ k : ℕ, Host.scatterAdd Cert.ReferenceIdeal.scatter_S100000_S200000x1_S200000_n_0_0_1
        (broadcastInDim Cert.ReferenceIdeal.S100000 ![] Cert.ReferenceIdeal.Facts₀.bcast_S_S100000
          (constant (F := Ideal) Cert.ReferenceIdeal.S_ .f32 0x00000000#32))
        idx
        (broadcastInDim Cert.ReferenceIdeal.S200000 ![] Cert.ReferenceIdeal.Facts₀.bcast_S_S200000
          (constant (F := Ideal) Cert.ReferenceIdeal.S_ .f32 0x3F800000#32)) p = ((k : ℝ) : EReal) :=
  scatterAdd_ones_nat _ _ (fun i => zeros_apply _ i) idx _ (fun j => ones_apply _ j) p

/-- The least 32-bit integer broadcast to any shape reads the least integer. -/
theorem intMin_apply {T : Shape} (h : (⟨0, ![]⟩ : Shape).BroadcastsInDim T ![]) (j : T.Idx) :
    broadcastInDim T ![] h (constantI ⟨0, ![]⟩ 32 2147483648#32) j = BitVec.intMin 32 := by
  rw [broadcastInDim_scalar_apply]
  rfl

/-- (3) THE EVENT TIMES: the scatter by the signed maximum of the concatenated times at the concatenated indices, from
    the least integer, is the elementwise signed maximum of the two halves' scatters. -/
theorem times (src dst tm tm' : IVec Cert.ReferenceIdeal.S100000 32) :
    Host.scatter Cert.ReferenceIdeal.scatter_S100000_S200000x1_S200000_n_0_0_1 IntOp.maxsi
        (broadcastInDim Cert.ReferenceIdeal.S100000 ![] Cert.ReferenceIdeal.Facts₀.bcast_S_S100000
          (constantI Cert.ReferenceIdeal.S_ 32 2147483648#32))
        (broadcastInDim Cert.ReferenceIdeal.S200000x1 ![0] Cert.ReferenceIdeal.Facts₀.bcast_S200000_S200000x1_0
          (concatenate Cert.ReferenceIdeal.S200000 0 [⟨Cert.ReferenceIdeal.S100000, src⟩, ⟨Cert.ReferenceIdeal.S100000, dst⟩]
            Cert.ReferenceIdeal.Facts₀.concatenates_S100000_S100000_S200000_d0))
        (concatenate Cert.ReferenceIdeal.S200000 0 [⟨Cert.ReferenceIdeal.S100000, tm⟩, ⟨Cert.ReferenceIdeal.S100000, tm'⟩]
          Cert.ReferenceIdeal.Facts₀.concatenates_S100000_S100000_S200000_d0)
      = maxsi
          (Host.scatter Cert.KernelIdeal.scatter_S100000_S100000x1_S100000_n_0_0_1 IntOp.maxsi
            (broadcastInDim Cert.KernelIdeal.S100000 ![] Cert.KernelIdeal.Facts₀.bcast_S_S100000
              (constantI Cert.KernelIdeal.S_ 32 2147483648#32))
            (broadcastInDim Cert.KernelIdeal.S100000x1 ![0] Cert.KernelIdeal.Facts₀.bcast_S100000_S100000x1_0 src) tm)
          (Host.scatter Cert.KernelIdeal.scatter_S100000_S100000x1_S100000_n_0_0_1 IntOp.maxsi
            (broadcastInDim Cert.KernelIdeal.S100000 ![] Cert.KernelIdeal.Facts₀.bcast_S_S100000
              (constantI Cert.KernelIdeal.S_ 32 2147483648#32))
            (broadcastInDim Cert.KernelIdeal.S100000x1 ![0] Cert.KernelIdeal.Facts₀.bcast_S100000_S100000x1_0 dst) tm') := by
  funext p
  exact scatter_elts_concat (n := 100000) (e₁ := 100000) (e₂ := 100000) (e := 200000) (by norm_num)
    Cert.ReferenceIdeal.Facts₀.scatter_S100000_S200000x1_S200000_n_0_0_1_wf
    Cert.KernelIdeal.Facts₀.scatter_S100000_S100000x1_S100000_n_0_0_1_wf
    Cert.KernelIdeal.Facts₀.scatter_S100000_S100000x1_S100000_n_0_0_1_wf
    Cert.ReferenceIdeal.Facts₀.bcast_S200000_S200000x1_0 Cert.KernelIdeal.Facts₀.bcast_S100000_S100000x1_0
    Cert.KernelIdeal.Facts₀.bcast_S100000_S100000x1_0
    Cert.ReferenceIdeal.Facts₀.concatenates_S100000_S100000_S200000_d0
    IntOp.maxsi maxsi_assoc (BitVec.intMin 32) maxsi_intMin _ _ _
    (fun q => intMin_apply _ q) (fun q => intMin_apply _ q) (fun q => intMin_apply _ q) src dst tm tm' p

end Cert.Aggregation

end
-- ==== Proof.Quotient.lean ====
/-
  Dividing by a count, two ways.

  A message count is a natural number, so the larger of it and one is a nonzero real `d`.  Dividing an extended real `s`
  by `d` is multiplying it by the real `1 / d`, at the infinities too; and one over `d` is that same real.  Hence
  scaling `s` by the reciprocal `1 / d` computed first equals the quotient `s / d`: no finiteness of `s` is needed.
-/
import Idealize.ShloMosaic.PureOps.Ideal
import Idealize.ShloMosaic.Lib.IdealHost
import proofs.«171311_j3075196584344_2_alg».proof.Proof.Spec

noncomputable section

namespace Cert.Quotient

open Idealize.ShloMosaic Cert.Spec

theorem one_eq : one = ((1 : ℝ) : EReal) := by
  show Ideal.ofBits .f32 0x3F800000#32 = _
  rw [Ideal.ofBits_one_f32]
  rfl

/-- The larger of a natural number and one, as a nonzero real. -/
theorem max_count (k : ℕ) : max ((k : ℝ) : EReal) one = ((max (k : ℝ) 1 : ℝ) : EReal) := by
  rw [one_eq]
  exact (EReal.coe_strictMono.monotone.map_max).symm

theorem max_count_ne (k : ℕ) : max (k : ℝ) 1 ≠ 0 := by
  have : (1 : ℝ) ≤ max (k : ℝ) 1 := le_max_right _ _
  intro h
  rw [h] at this
  linarith

/-- Scaling by the reciprocal of a count floored at one is dividing by it. -/
theorem scale_by_recip (s d : EReal) (hd : ∃ k : ℕ, d = ((k : ℝ) : EReal)) :
    s * Ideal.div one (max d one) = Ideal.div s (max d one) := by
  obtain ⟨k, rfl⟩ := hd
  rw [max_count, Ideal.div_coe (max_count_ne k), Ideal.div_coe (max_count_ne k), one_eq, EReal.coe_one, one_mul]

end Cert.Quotient

end
-- ==== Proof.Bridge.lean ====
/-
  The two programs compute one function of the arguments.

  New memory.  Both programs form, for every node, the same messages; the kernel's program scatters the source-keyed and
  the destination-keyed messages separately and adds, the reference scatters their concatenation once: the sums agree
  (an exact sum split into two halves), and so do the counts, which are natural numbers.  The kernel's program scales
  the sums by one over the larger of the count and one, the reference divides by it: equal, the divisor being a nonzero
  real.  The weights reach both through the same transposition and the biases through casts of the same vectors, so
  every entry of the new memory is the same gated update `Spec.cell` on both sides.

  Last update times.  A scatter by the signed maximum over concatenated indices is the maximum of the two halves'
  scatters, so the two programs' second results agree as well.
-/
import proofs.«171311_j3075196584344_2_alg».proof.Proof.KValue
import proofs.«171311_j3075196584344_2_alg».proof.Proof.KHost
import proofs.«171311_j3075196584344_2_alg».proof.Proof.RefRead
import proofs.«171311_j3075196584344_2_alg».proof.Proof.Aggregation
import proofs.«171311_j3075196584344_2_alg».proof.Proof.Quotient
import proofs.«171311_j3075196584344_2_alg».proof.Proof.KernelIdealRun
import proofs.«171311_j3075196584344_2_alg».proof.Proof.LibColumns
import Idealize.ShloMosaic.Lib.ValueLayout
import Idealize.ShloMosaic.Lib.IdealHost

set_option maxRecDepth 16384

noncomputable section

namespace Cert.Bridge

open Idealize.ShloMosaic Idealize.ShloMosaic.TcCoe Idealize.SL.Sem Idealize.ShloMosaic.ValueIdx
open Cert.KernelIdeal Cert.KernelIdeal.Gen Cert.KernelIdeal.Frm Cert.KernelIdeal.HostSide Cert.Spec

variable (m : (ℓ : Loc nD τ sig) → Buf (Elt Ideal) ℓ) (c : Dev nD)

/-- A buffer as the region finds it is the host lines before the region applied to the launch memory. -/
theorem V_entry (b : Ref sig .tc) : V m c b = entry m c b := by
  show StableHlo.after (List.flatten [hostOps0]) (fun b => m (c, b)) (Proc.devRef .tc b)
    = StableHlo.after hostOps0 (fun b => m (c, b)) (Proc.devRef .tc b)
  simp only [List.flatten_cons, List.flatten_nil, List.append_nil]

/-- The kernel side's message sums are the reference's. -/
theorem sums_eq : KValue.aS m c
    = Cert.ReferenceIdeal.Read.val_main_v71 (F := Ideal) (a0 m c) (a1 m c) (a2 m c) (a3 m c) (a4 m c) (a5 m c) (a6 m c) (a7 m c) := by
  unfold KValue.aS
  rw [V_entry, entry_sums]
  unfold sums
  exact (Cert.Aggregation.messages (a2 m c) (a3 m c) (msgS m c) (msgD m c)).symm

/-- The kernel side's message counts are the reference's. -/
theorem counts_eq : counts m c = Cert.ReferenceIdeal.Read.val_main_v75 (F := Ideal) (a2 m c) (a3 m c) := by
  unfold counts
  exact (Cert.Aggregation.counts (a2 m c) (a3 m c)).symm

/-- The reciprocal count of row `p`, as the kernel's block column holds it. -/
theorem recip_at (p : Fin 100000) :
    KValue.aR m c (ix2 p (0 : Fin 1))
      = Ideal.div one (max (Cert.ReferenceIdeal.Read.val_main_v75 (F := Ideal) (a2 m c) (a3 m c) (ix1 p)) one) := by
  unfold KValue.aR
  rw [V_entry, entry_recip]
  refine (Cert.Columns.shapeCast_a_a1_apply _ shapeCasts_S100000_S100000x1 p (0 : Fin 1)).trans ?_
  unfold recip
  rw [counts_eq]
  generalize Cert.ReferenceIdeal.Read.val_main_v75 (F := Ideal) (a2 m c) (a3 m c) = X
  have e : ∀ (a b : FVec Ideal S100000 .f32) (i : S100000.Idx), Host.divf a b i = Ideal.div (a i) (b i) := fun _ _ _ => rfl
  have h1 : ones1 (ix1 p) = one := broadcastInDim_scalar_apply bcast_S_S100000 _ (ix1 p)
  rw [e, maximumf_apply, h1]

/-- Scaling the sums by the reciprocal count is the reference's quotient. -/
theorem aggr_eq (p : Fin 100000) (k : Fin 512) :
    KValue.aS m c (ix2 p k) * KValue.aR m c (ix2 p (0 : Fin 1))
      = Cert.ReferenceIdeal.RefRead.aggr (a0 m c) (a1 m c) (a2 m c) (a3 m c) (a4 m c) (a5 m c) (a6 m c) (a7 m c) p k := by
  rw [sums_eq, recip_at]
  unfold Cert.ReferenceIdeal.RefRead.aggr Cert.ReferenceIdeal.RefRead.divisor
  exact Cert.Quotient.scale_by_recip _ _ (Cert.Aggregation.count_nat_ref _ (ix1 p))

theorem mem_eq (p : Fin 100000) (k : Fin 128) : KValue.aM m c (ix2 p k) = a0 m c (ix2 p k) := by
  unfold KValue.aM
  rw [V_entry, entry_mem]

theorem wi_eq (k : Fin 512) (n : Fin 384) : KValue.aWI m c (ix2 k n) = a8 m c (ix2 n k) := by
  unfold KValue.aWI
  rw [V_entry, entry_wi]
  exact transpose_ix2_apply _ transposes_S384x512_S512x384_1_0 k n

theorem wh_eq (k : Fin 128) (n : Fin 384) : KValue.aWH m c (ix2 k n) = a9 m c (ix2 n k) := by
  unfold KValue.aWH
  rw [V_entry, entry_wh]
  exact transpose_ix2_apply _ transposes_S384x128_S128x384_1_0 k n

theorem bi_eq (n : Fin 384) : KValue.aBI m c (ix2 (0 : Fin 1) n) = a10 m c (ix1 n) := by
  unfold KValue.aBI
  rw [V_entry, entry_bi]
  exact shapeCast_a_1a_apply _ shapeCasts_S384_S1x384 (0 : Fin 1) n

theorem bh_eq (n : Fin 384) : KValue.aBH m c (ix2 (0 : Fin 1) n) = a11 m c (ix1 n) := by
  unfold KValue.aBH
  rw [V_entry, entry_bh]
  exact shapeCast_a_1a_apply _ shapeCasts_S384_S1x384 (0 : Fin 1) n

/-- THE NEW MEMORY: the kernel's array after the run is the reference's result term of the launch arguments. -/
theorem memory_eq : (dats m 0 c).arrAt 7 cfg0.N
    = Cert.ReferenceIdeal.Read.val_main_v118 (F := Ideal) (a0 m c) (a1 m c) (a2 m c) (a3 m c) (a4 m c) (a5 m c) (a6 m c) (a7 m c)
        (a8 m c) (a9 m c) (a10 m c) (a11 m c) := by
  rw [KValue.final]
  funext i
  obtain ⟨p, q, rfl⟩ : ∃ (p : Fin 100000) (q : Fin 128), i = ix2 p q := ⟨i 0, i 1, eq_ix2 i⟩
  refine (KValue.G_at _ _ _ _ _ _ _ p q (ix2 p q) rfl rfl).trans ?_
  refine Eq.trans ?_ (Cert.ReferenceIdeal.RefRead.result_apply _ _ _ _ _ _ _ _ _ _ _ _ p q).symm
  exact cell_congr (fun k => aggr_eq m c p k) (fun k => mem_eq m c p k) (fun k n => wi_eq m c k n) (fun k n => wh_eq m c k n)
    (fun n => bi_eq m c n) (fun n => bh_eq m c n) rfl

/-- THE LAST UPDATE TIMES: the kernel side's second result is the reference's. -/
theorem times_eq : lastTimes (F := Ideal) m c
    = Cert.ReferenceIdeal.Read.val_main_v123 (F := Ideal) (a2 m c) (a3 m c) (a4 m c) := by
  unfold lastTimes Cert.ReferenceIdeal.Read.val_main_v123
  refine congrArg₂ maxsi ?_ rfl
  exact (Cert.Aggregation.times (a2 m c) (a3 m c) (a4 m c) (a4 m c)).symm

end Cert.Bridge

end
-- ==== Proof.lean ====
/-
  A temporal-graph memory update, computed two ways.

  For a batch of 100000 events between 100000 nodes, each event sends a 512-wide message to its source and to its
  destination (the two endpoints' memories, the raw message and a cosine encoding of the time since the node's last
  update).  Every node's messages are averaged (the sum divided by the larger of their number and one) and a gated
  recurrent cell updates the node's 128-wide memory from the average; the node's last-update time becomes the latest time
  among its events, floored at zero.

  The kernel's program aggregates the source-keyed and the destination-keyed messages separately and adds the two sums,
  and runs the cell over blocks of 2000 nodes with the division replaced by a product with a reciprocal computed
  beforehand; the reference aggregates the concatenated messages once and divides.  On the extended reals the two agree:
  a finite exact sum splits into its two halves, the counts are natural numbers so the divisor is a nonzero real and the
  product with its reciprocal is the quotient, a matrix product block by block is the matrix product row by row, and the
  logistic function is one function however it is written.  Likewise a maximum over concatenated events is the maximum of
  the two halves' maxima.  Neither identity needs the inputs finite.

  The three frame claims: each program runs to the end without fault and leaves its arguments as launched (the two kernel
  programs by the run of the pipelined region between its host lines, the reference by its straight-line run).  The
  idealization rewrote nothing, so there is nothing to preserve.
-/
import proofs.«171311_j3075196584344_2_alg».proof.Defs
import proofs.«171311_j3075196584344_2_alg».proof.Proof.Gen.Kernel
import proofs.«171311_j3075196584344_2_alg».proof.Proof.Gen.KernelIdeal
import proofs.«171311_j3075196584344_2_alg».proof.Proof.Gen.ReferenceIdeal
import proofs.«171311_j3075196584344_2_alg».proof.Proof.Gen.Pre_finite_inputs
import proofs.«171311_j3075196584344_2_alg».proof.Proof.Gen.ReferenceIdeal.Run
import proofs.«171311_j3075196584344_2_alg».proof.Proof.Gen.ReferenceIdeal.Read
import proofs.«171311_j3075196584344_2_alg».proof.Proof.KernelFrame
import proofs.«171311_j3075196584344_2_alg».proof.Proof.KernelIdealFrame
import proofs.«171311_j3075196584344_2_alg».proof.Proof.KernelIdealRun
import proofs.«171311_j3075196584344_2_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Frm.frame m ρ

theorem frame_ki : Cert.frame_KernelIdeal (hKernelIdeal := Cert.KernelIdeal.Gen.facts) (hPre_finite_inputs := Cert.Pre_finite_inputs.Gen.facts) :=
  fun m ρ _ => Cert.KernelIdeal.Frm.frame m ρ

/-- The reference's frame is its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Both programs end with the same two arrays: the kernel's results are named by its run, and each is the reference's
    result term of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (Cert.KernelIdeal.Frm.dats m 0 c).arrAt 7 Cert.KernelIdeal.cfg0.N, fun c => Cert.KernelIdeal.Frm.lastTimes m c,
    Cert.KernelIdeal.Frm.run_named m ρ, ?_⟩
  refine (θ_run Cert.ReferenceIdeal.defs _ _).mono (fun _ h c => ⟨?_, ?_, (h c).2.2⟩) (Cert.ReferenceIdeal.Value.run (F := Ideal) m' ρ')
  · obtain ⟨h0, h1, h2, h3, h4, h5, h6, h7, h8, h9, h10, h11⟩ := hagree c
    refine (h c).1.trans ((Cert.ReferenceIdeal.Read.val_main_v118_eq m' c).trans ?_)
    rw [h0, h1, h2, h3, h4, h5, h6, h7, h8, h9, h10, h11]
    exact (Cert.Bridge.memory_eq m c).symm
  · obtain ⟨-, -, h2, h3, h4, -⟩ := hagree c
    refine (h c).2.1.trans ((Cert.ReferenceIdeal.Read.val_main_v123_eq _ _ _).trans ?_)
    rw [h2, h3, h4]
    exact (Cert.Bridge.times_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
